-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v34_0)) (v1 : (c : Dev Cert.KernelIdeal.nD) → Buf (Elt Ideal) ((c.tc : Thread Cert.KernelIdeal.nD Cert.KernelIdeal.τ).loc Cert.KernelIdeal.main_v34_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34_0) = v0 c
          ∧ r.2.mem ((c.tc : Thread Cert.KernelIdeal.nD Cert.KernelIdeal.τ).loc Cert.KernelIdeal.main_v34_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_v49) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x2 : Shape := ⟨2, ![32768, 2]⟩
abbrev S6x2048 : Shape := ⟨2, ![6, 2048]⟩
abbrev S2048 : Shape := ⟨1, ![2048]⟩
abbrev S2048x2048 : Shape := ⟨2, ![2048, 2048]⟩
abbrev S2048x1 : Shape := ⟨2, ![2048, 1]⟩
abbrev S1 : Shape := ⟨1, ![1]⟩
abbrev S2x8 : Shape := ⟨2, ![2, 8]⟩
abbrev S8 : Shape := ⟨1, ![8]⟩
abbrev S8x4 : Shape := ⟨2, ![8, 4]⟩
abbrev S4 : Shape := ⟨1, ![4]⟩
abbrev S4x1 : Shape := ⟨2, ![4, 1]⟩
abbrev S_ : Shape := ⟨0, ![]⟩

class Facts : Prop where
  bcast_S_S32768x2 : S_.BroadcastsInDim S32768x2 (![] : Fin 0 → Fin S32768x2.rank)
  reducesTo_S32768x2_S_d0_1 : S32768x2.ReducesTo [0, 1] S_
  h_S_ : 0 < S_.numel
  bcast_S_S6x2048 : S_.BroadcastsInDim S6x2048 (![] : Fin 0 → Fin S6x2048.rank)
  reducesTo_S6x2048_S_d0_1 : S6x2048.ReducesTo [0, 1] S_
  bcast_S_S2048 : S_.BroadcastsInDim S2048 (![] : Fin 0 → Fin S2048.rank)
  reducesTo_S2048_S_d0 : S2048.ReducesTo [0] S_
  bcast_S_S2048x2048 : S_.BroadcastsInDim S2048x2048 (![] : Fin 0 → Fin S2048x2048.rank)
  reducesTo_S2048x2048_S_d0_1 : S2048x2048.ReducesTo [0, 1] S_
  bcast_S_S2048x1 : S_.BroadcastsInDim S2048x1 (![] : Fin 0 → Fin S2048x1.rank)
  reducesTo_S2048x1_S_d0_1 : S2048x1.ReducesTo [0, 1] S_
  bcast_S_S1 : S_.BroadcastsInDim S1 (![] : Fin 0 → Fin S1.rank)
  reducesTo_S1_S_d0 : S1.ReducesTo [0] S_
  bcast_S_S2x8 : S_.BroadcastsInDim S2x8 (![] : Fin 0 → Fin S2x8.rank)
  reducesTo_S2x8_S_d0_1 : S2x8.ReducesTo [0, 1] S_
  bcast_S_S8 : S_.BroadcastsInDim S8 (![] : Fin 0 → Fin S8.rank)
  reducesTo_S8_S_d0 : S8.ReducesTo [0] S_
  bcast_S_S8x4 : S_.BroadcastsInDim S8x4 (![] : Fin 0 → Fin S8x4.rank)
  reducesTo_S8x4_S_d0_1 : S8x4.ReducesTo [0, 1] S_
  bcast_S_S4 : S_.BroadcastsInDim S4 (![] : Fin 0 → Fin S4.rank)
  reducesTo_S4_S_d0 : S4.ReducesTo [0] S_
  bcast_S_S4x1 : S_.BroadcastsInDim S4x1 (![] : Fin 0 → Fin S4x1.rank)
  reducesTo_S4x1_S_d0_1 : S4x1.ReducesTo [0, 1] S_

variable [Facts]

def fn_part3 {F : FTy → Type} [FloatOps F] (main_arg11 : FVec F S4x1 .f32) (main_arg12 : FVec F S1 .f32) (main_v48 : IVec S_ 1) (main_v49 : FVec F S4 .f32) (main_v50 : FVec F S4 .f32) : IVec S_ 1 :=
  let main_v51 : IVec S4 1 := cmpf .olt main_v49 main_v50
  let main_c_19 : IVec S_ 1 := constantI S_ 1 1#1
  let main_v52 : IVec S_ 1 := (fun x v => Host.reduce IntOp.andi x v reducesTo_S4_S_d0 h_S_) main_v51 main_c_19
  let main_v53 : IVec S_ 1 := andi main_v48 main_v52
  let main_v54 : FVec F S4x1 .f32 := Host.absf main_arg11
  let main_cst_20 : FVec F S_ .f32 := constant S_ .f32 0x7F800000#32
  let main_v55 : FVec F S4x1 .f32 := broadcastInDim S4x1 ![] bcast_S_S4x1 main_cst_20
  let main_v56 : IVec S4x1 1 := cmpf .olt main_v54 main_v55
  let main_c_21 : IVec S_ 1 := constantI S_ 1 1#1
  let main_v57 : IVec S_ 1 := (fun x v => Host.reduce IntOp.andi x v reducesTo_S4x1_S_d0_1 h_S_) main_v56 main_c_21
  let main_v58 : IVec S_ 1 := andi main_v53 main_v57
  let main_v59 : FVec F S1 .f32 := Host.absf main_arg12
  let main_cst_22 : FVec F S_ .f32 := constant S_ .f32 0x7F800000#32
  let main_v60 : FVec F S1 .f32 := broadcastInDim S1 ![] bcast_S_S1 main_cst_22
  let main_v61 : IVec S1 1 := cmpf .olt main_v59 main_v60
  let main_c_23 : IVec S_ 1 := constantI S_ 1 1#1
  let main_v62 : IVec S_ 1 := (fun x v => Host.reduce IntOp.andi x v reducesTo_S1_S_d0 h_S_) main_v61 main_c_23
  let main_v63 : IVec S_ 1 := andi main_v58 main_v62
  main_v63

def fn_part2 {F : FTy → Type} [FloatOps F] (main_arg7 : FVec F S2x8 .f32) (main_arg8 : FVec F S8 .f32) (main_arg9 : FVec F S8x4 .f32) (main_arg10 : FVec F S4 .f32) (main_arg11 : FVec F S4x1 .f32) (main_arg12 : FVec F S1 .f32) (main_v33 : IVec S_ 1) : IVec S_ 1 :=
  let main_v34 : FVec F S2x8 .f32 := Host.absf main_arg7
  let main_cst_12 : FVec F S_ .f32 := constant S_ .f32 0x7F800000#32
  let main_v35 : FVec F S2x8 .f32 := broadcastInDim S2x8 ![] bcast_S_S2x8 main_cst_12
  let main_v36 : IVec S2x8 1 := cmpf .olt main_v34 main_v35
  let main_c_13 : IVec S_ 1 := constantI S_ 1 1#1
  let main_v37 : IVec S_ 1 := (fun x v => Host.reduce IntOp.andi x v reducesTo_S2x8_S_d0_1 h_S_) main_v36 main_c_13
  let main_v38 : IVec S_ 1 := andi main_v33 main_v37
  let main_v39 : FVec F S8 .f32 := Host.absf main_arg8
  let main_cst_14 : FVec F S_ .f32 := constant S_ .f32 0x7F800000#32
  let main_v40 : FVec F S8 .f32 := broadcastInDim S8 ![] bcast_S_S8 main_cst_14
  let main_v41 : IVec S8 1 := cmpf .olt main_v39 main_v40
  let main_c_15 : IVec S_ 1 := constantI S_ 1 1#1
  let main_v42 : IVec S_ 1 := (fun x v => Host.reduce IntOp.andi x v reducesTo_S8_S_d0 h_S_) main_v41 main_c_15
  let main_v43 : IVec S_ 1 := andi main_v38 main_v42
  let main_v44 : FVec F S8x4 .f32 := Host.absf main_arg9
  let main_cst_16 : FVec F S_ .f32 := constant S_ .f32 0x7F800000#32
  let main_v45 : FVec F S8x4 .f32 := broadcastInDim S8x4 ![] bcast_S_S8x4 main_cst_16
  let main_v46 : IVec S8x4 1 := cmpf .olt main_v44 main_v45
  let main_c_17 : IVec S_ 1 := constantI S_ 1 1#1
  let main_v47 : IVec S_ 1 := (fun x v => Host.reduce IntOp.andi x v reducesTo_S8x4_S_d0_1 h_S_) main_v46 main_c_17
  let main_v48 : IVec S_ 1 := andi main_v43 main_v47
  let main_v49 : FVec F S4 .f32 := Host.absf main_arg10
  let main_cst_18 : FVec F S_ .f32 := constant S_ .f32 0x7F800000#32
  let main_v50 : FVec F S4 .f32 := broadcastInDim S4 ![] bcast_S_S4 main_cst_18
  fn_part3 (F := F) main_arg11 main_arg12 main_v48 main_v49 main_v50

def fn_part1 {F : FTy → Type} [FloatOps F] (main_arg4 : FVec F S2048 .f32) (main_arg5 : FVec F S2048x1 .f32) (main_arg6 : FVec F S1 .f32) (main_arg7 : FVec F S2x8 .f32) (main_arg8 : FVec F S8 .f32) (main_arg9 : FVec F S8x4 .f32) (main_arg10 : FVec F S4 .f32) (main_arg11 : FVec F S4x1 .f32) (main_arg12 : FVec F S1 .f32) (main_v13 : IVec S_ 1) (main_v16 : IVec S2048x2048 1) : IVec S_ 1 :=
  let main_c_5 : IVec S_ 1 := constantI S_ 1 1#1
  let main_v17 : IVec S_ 1 := (fun x v => Host.reduce IntOp.andi x v reducesTo_S2048x2048_S_d0_1 h_S_) main_v16 main_c_5
  let main_v18 : IVec S_ 1 := andi main_v13 main_v17
  let main_v19 : FVec F S2048 .f32 := Host.absf main_arg4
  let main_cst_6 : FVec F S_ .f32 := constant S_ .f32 0x7F800000#32
  let main_v20 : FVec F S2048 .f32 := broadcastInDim S2048 ![] bcast_S_S2048 main_cst_6
  let main_v21 : IVec S2048 1 := cmpf .olt main_v19 main_v20
  let main_c_7 : IVec S_ 1 := constantI S_ 1 1#1
  let main_v22 : IVec S_ 1 := (fun x v => Host.reduce IntOp.andi x v reducesTo_S2048_S_d0 h_S_) main_v21 main_c_7
  let main_v23 : IVec S_ 1 := andi main_v18 main_v22
  let main_v24 : FVec F S2048x1 .f32 := Host.absf main_arg5
  let main_cst_8 : FVec F S_ .f32 := constant S_ .f32 0x7F800000#32
  let main_v25 : FVec F S2048x1 .f32 := broadcastInDim S2048x1 ![] bcast_S_S2048x1 main_cst_8
  let main_v26 : IVec S2048x1 1 := cmpf .olt main_v24 main_v25
  let main_c_9 : IVec S_ 1 := constantI S_ 1 1#1
  let main_v27 : IVec S_ 1 := (fun x v => Host.reduce IntOp.andi x v reducesTo_S2048x1_S_d0_1 h_S_) main_v26 main_c_9
  let main_v28 : IVec S_ 1 := andi main_v23 main_v27
  let main_v29 : FVec F S1 .f32 := Host.absf main_arg6
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S32768x2 .f32) (main_arg1 : FVec F S6x2048 .f32) (main_arg2 : FVec F S2048 .f32) (main_arg3 : FVec F S2048x2048 .f32) (main_arg4 : FVec F S2048 .f32) (main_arg5 : FVec F S2048x1 .f32) (main_arg6 : FVec F S1 .f32) (main_arg7 : FVec F S2x8 .f32) (main_arg8 : FVec F S8 .f32) (main_arg9 : FVec F S8x4 .f32) (main_arg10 : FVec F S4 .f32) (main_arg11 : FVec F S4x1 .f32) (main_arg12 : FVec F S1 .f32) : IVec S_ 1 :=
  let main_v0 : FVec F S32768x2 .f32 := Host.absf main_arg0
  let main_cst : FVec F S_ .f32 := constant S_ .f32 0x7F800000#32
  let main_v1 : FVec F S32768x2 .f32 := broadcastInDim S32768x2 ![] bcast_S_S32768x2 main_cst
  let main_v2 : IVec S32768x2 1 := cmpf .olt main_v0 main_v1
  let main_c : IVec S_ 1 := constantI S_ 1 1#1
  let main_v3 : IVec S_ 1 := (fun x v => Host.reduce IntOp.andi x v reducesTo_S32768x2_S_d0_1 h_S_) main_v2 main_c
  let main_v4 : FVec F S6x2048 .f32 := Host.absf main_arg1
  let main_cst_0 : FVec F S_ .f32 := constant S_ .f32 0x7F800000#32
  let main_v5 : FVec F S6x2048 .f32 := broadcastInDim S6x2048 ![] bcast_S_S6x2048 main_cst_0
  let main_v6 : IVec S6x2048 1 := cmpf .olt main_v4 main_v5
  let main_c_1 : IVec S_ 1 := constantI S_ 1 1#1
  let main_v7 : IVec S_ 1 := (fun x v => Host.reduce IntOp.andi x v reducesTo_S6x2048_S_d0_1 h_S_) main_v6 main_c_1
  let main_v8 : IVec S_ 1 := andi main_v3 main_v7
  let main_v9 : FVec F S2048 .f32 := Host.absf main_arg2
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  let main_v14 : FVec F S2048x2048 .f32 := Host.absf main_arg3
  let main_cst_4 : FVec F S_ .f32 := constant S_ .f32 0x7F800000#32
  let main_v15 : FVec F S2048x2048 .f32 := broadcastInDim S2048x2048 ![] bcast_S_S2048x2048 main_cst_4
  let main_v16 : IVec S2048x2048 1 := cmpf .olt main_v14 main_v15
  fn_part1 (F := F) main_arg4 main_arg5 main_arg6 main_arg7 main_arg8 main_arg9 main_arg10 main_arg11 main_arg12 main_v13 main_v16
-- ==== Kernel.lean ====
abbrev S32768x2 : Shape := ⟨2, ![32768, 2]⟩
abbrev S6x2048 : Shape := ⟨2, ![6, 2048]⟩
abbrev S2048 : Shape := ⟨1, ![2048]⟩
abbrev S2048x2048 : Shape := ⟨2, ![2048, 2048]⟩
abbrev S2048x1 : Shape := ⟨2, ![2048, 1]⟩
abbrev S1 : Shape := ⟨1, ![1]⟩
abbrev S2x8 : Shape := ⟨2, ![2, 8]⟩
abbrev S8 : Shape := ⟨1, ![8]⟩
abbrev S8x4 : Shape := ⟨2, ![8, 4]⟩
abbrev S4 : Shape := ⟨1, ![4]⟩
abbrev S4x1 : Shape := ⟨2, ![4, 1]⟩
abbrev S_ : Shape := ⟨0, ![]⟩
abbrev S32768x4 : Shape := ⟨2, ![32768, 4]⟩
abbrev S32768x1 : Shape := ⟨2, ![32768, 1]⟩
abbrev S32768 : Shape := ⟨1, ![32768]⟩
abbrev S32768x6 : Shape := ⟨2, ![32768, 6]⟩
abbrev S1x2048 : Shape := ⟨2, ![1, 2048]⟩
abbrev S1x1 : Shape := ⟨2, ![1, 1]⟩
abbrev S1x8 : Shape := ⟨2, ![1, 8]⟩
abbrev S1x4 : Shape := ⟨2, ![1, 4]⟩
abbrev S256x2 : Shape := ⟨2, ![256, 2]⟩
abbrev S256x6 : Shape := ⟨2, ![256, 6]⟩
abbrev S256x1 : Shape := ⟨2, ![256, 1]⟩
abbrev S256x2048 : Shape := ⟨2, ![256, 2048]⟩
abbrev S256x8 : Shape := ⟨2, ![256, 8]⟩
abbrev S256x4 : Shape := ⟨2, ![256, 4]⟩

abbrev nBuf : Space → Nat
  | .hbm => 51
  | .vmem => 20
  | .smem => 0
  | _ => 0

abbrev bufTy : (tb : Table) → Fin (tcTables nBuf tb) → BufTy
  | .hbm, ⟨0, _⟩ => ⟨S32768x2, .f32⟩
  | .hbm, ⟨1, _⟩ => ⟨S6x2048, .f32⟩
  | .hbm, ⟨2, _⟩ => ⟨S2048, .f32⟩
  | .hbm, ⟨3, _⟩ => ⟨S2048x2048, .f32⟩
  | .hbm, ⟨4, _⟩ => ⟨S2048, .f32⟩
  | .hbm, ⟨5, _⟩ => ⟨S2048x1, .f32⟩
  | .hbm, ⟨6, _⟩ => ⟨S1, .f32⟩
  | .hbm, ⟨7, _⟩ => ⟨S2x8, .f32⟩
  | .hbm, ⟨8, _⟩ => ⟨S8, .f32⟩
  | .hbm, ⟨9, _⟩ => ⟨S8x4, .f32⟩
  | .hbm, ⟨10, _⟩ => ⟨S4, .f32⟩
  | .hbm, ⟨11, _⟩ => ⟨S4x1, .f32⟩
  | .hbm, ⟨12, _⟩ => ⟨S1, .f32⟩
  | .hbm, ⟨13, _⟩ => ⟨S_, .i32⟩
  | .hbm, ⟨14, _⟩ => ⟨S_, .f32⟩
  | .hbm, ⟨15, _⟩ => ⟨S32768x4, .f32⟩
  | .hbm, ⟨16, _⟩ => ⟨S32768x4, .f32⟩
  | .hbm, ⟨17, _⟩ => ⟨S32768x1, .f32⟩
  | .hbm, ⟨18, _⟩ => ⟨S32768, .f32⟩
  | .hbm, ⟨19, _⟩ => ⟨S32768x1, .f32⟩
  | .hbm, ⟨20, _⟩ => ⟨S32768, .f32⟩
  | .hbm, ⟨21, _⟩ => ⟨S32768x1, .f32⟩
  | .hbm, ⟨22, _⟩ => ⟨S32768, .f32⟩
  | .hbm, ⟨23, _⟩ => ⟨S32768, .f32⟩
  | .hbm, ⟨24, _⟩ => ⟨S32768x1, .f32⟩
  | .hbm, ⟨25, _⟩ => ⟨S32768, .f32⟩
  | .hbm, ⟨26, _⟩ => ⟨S32768x1, .f32⟩
  | .hbm, ⟨27, _⟩ => ⟨S32768, .f32⟩
  | .hbm, ⟨28, _⟩ => ⟨S32768x1, .f32⟩
  | .hbm, ⟨29, _⟩ => ⟨S32768, .f32⟩
  | .hbm, ⟨30, _⟩ => ⟨S32768, .f32⟩
  | .hbm, ⟨31, _⟩ => ⟨S32768x1, .f32⟩
  | .hbm, ⟨32, _⟩ => ⟨S32768x1, .f32⟩
  | .hbm, ⟨33, _⟩ => ⟨S32768x1, .f32⟩
  | .hbm, ⟨34, _⟩ => ⟨S32768x1, .f32⟩
  | .hbm, ⟨35, _⟩ => ⟨S32768x4, .f32⟩
  | .hbm, ⟨36, _⟩ => ⟨S32768x6, .f32⟩
  | .hbm, ⟨37, _⟩ => ⟨S6x2048, .bf16⟩
  | .hbm, ⟨38, _⟩ => ⟨S2048x2048, .bf16⟩
  | .hbm, ⟨39, _⟩ => ⟨S2048x1, .bf16⟩
  | .hbm, ⟨40, _⟩ => ⟨S2x8, .bf16⟩
  | .hbm, ⟨41, _⟩ => ⟨S8x4, .bf16⟩
  | .hbm, ⟨42, _⟩ => ⟨S4x1, .bf16⟩
  | .hbm, ⟨43, _⟩ => ⟨S1x2048, .f32⟩
  | .hbm, ⟨44, _⟩ => ⟨S1x2048, .f32⟩
  | .hbm, ⟨45, _⟩ => ⟨S1x1, .f32⟩
  | .hbm, ⟨46, _⟩ => ⟨S1x8, .f32⟩
  | .hbm, ⟨47, _⟩ => ⟨S1x4, .f32⟩
  | .hbm, ⟨48, _⟩ => ⟨S1x1, .f32⟩
  | .hbm, ⟨49, _⟩ => ⟨S32768x1, .f32⟩
  | .hbm, ⟨50, _⟩ => ⟨S32768x1, .f32⟩
  | .local _ .vmem, ⟨0, _⟩ => ⟨S256x2, .f32⟩
  | .local _ .vmem, ⟨1, _⟩ => ⟨S256x2, .f32⟩
  | .local _ .vmem, ⟨2, _⟩ => ⟨S256x6, .f32⟩
  | .local _ .vmem, ⟨3, _⟩ => ⟨S256x6, .f32⟩
  | .local _ .vmem, ⟨4, _⟩ => ⟨S6x2048, .bf16⟩
  | .local _ .vmem, ⟨5, _⟩ => ⟨S1x2048, .f32⟩
  | .local _ .vmem, ⟨6, _⟩ => ⟨S2048x2048, .bf16⟩
  | .local _ .vmem, ⟨7, _⟩ => ⟨S1x2048, .f32⟩
  | .local _ .vmem, ⟨8, _⟩ => ⟨S2048x1, .bf16⟩
  | .local _ .vmem, ⟨9, _⟩ => ⟨S1x1, .f32⟩
  | .local _ .vmem, ⟨10, _⟩ => ⟨S2x8, .bf16⟩
  | .local _ .vmem, ⟨11, _⟩ => ⟨S1x8, .f32⟩
  | .local _ .vmem, ⟨12, _⟩ => ⟨S8x4, .bf16⟩
  | .local _ .vmem, ⟨13, _⟩ => ⟨S1x4, .f32⟩
  | .local _ .vmem, ⟨14, _⟩ => ⟨S4x1, .bf16⟩
  | .local _ .vmem, ⟨15, _⟩ => ⟨S1x1, .f32⟩
  | .local _ .vmem, ⟨16, _⟩ => ⟨S256x1, .f32⟩
  | .local _ .vmem, ⟨17, _⟩ => ⟨S256x1, .f32⟩
  | .local _ .vmem, ⟨18, _⟩ => ⟨S256x1, .f32⟩
  | .local _ .vmem, ⟨19, _⟩ => ⟨S256x1, .f32⟩
  | _, _ => ⟨S32768x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_c : Ref sig .tc := ⟨.hbm, 13, rfl⟩
abbrev main_call0_v0 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34_0 : Ref sig .tc := ⟨.hbm, 49, rfl⟩
abbrev main_v34_1 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg14_1 : Ref sig .tc := ⟨.vmem, 17, rfl⟩
abbrev cc0_stg15_0 : Ref sig .tc := ⟨.vmem, 18, rfl⟩
abbrev cc0_stg15_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem14_1 : DmaSem sig := 17
abbrev cc0_sem15_0 : DmaSem sig := 18
abbrev cc0_sem15_1 : DmaSem sig := 19

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x6 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S6x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2048x1 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2x8 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x8 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S8x4 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x4 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S4x1 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S256x1 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x1 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

class Facts₀ : Prop where
  pads_S32768x2_S32768x4_000_020 : S32768x2.Pads (![0, 0] : Fin 2 → Nat) ![0, 2] ![0, 0] S32768x4
  h_S_ : 0 < S_.numel
  slices_S32768x4_S32768x1_0_0 : S32768x4.Slices ![0, 0] S32768x1
  shapeCasts_S32768x1_S32768 : S32768x1.ShapeCasts S32768
  slices_S32768x4_S32768x1_0_1 : S32768x4.Slices ![0, 1] S32768x1
  slices_S32768x4_S32768x1_0_2 : S32768x4.Slices ![0, 2] S32768x1
  slices_S32768x4_S32768x1_0_3 : S32768x4.Slices ![0, 3] S32768x1
  bcast_S32768_S32768x1_0 : S32768.BroadcastsInDim S32768x1 (![0] : Fin 1 → Fin S32768x1.rank)
  concatenates_S32768x1_S32768x1_S32768x1_S32768x1_S32768x4_d1 : Shape.Concatenates [S32768x1, S32768x1, S32768x1, S32768x1] S32768x4 1
  concatenates_S32768x2_S32768x4_S32768x6_d1 : Shape.Concatenates [S32768x2, S32768x4] S32768x6 1
  bitsLt_bf16_f32 : FTy.bits .bf16 < FTy.bits .f32
  shapeCasts_S2048_S1x2048 : S2048.ShapeCasts S1x2048
  shapeCasts_S1_S1x1 : S1.ShapeCasts S1x1
  shapeCasts_S8_S1x8 : S8.ShapeCasts S1x8
  shapeCasts_S4_S1x4 : S4.ShapeCasts S1x4
  inb_S256x6_S256x6_0_0 : ∀ a, (![0, 0] : Fin 2 → Nat) a + S256x6.size a ≤ S256x6.size a
  h_S256x6 : 0 < S256x6.numel
  shapeCasts_S256x6_S256x6 : S256x6.ShapeCasts S256x6
  inb_S6x2048_S6x2048_0_0 : ∀ a, (![0, 0] : Fin 2 → Nat) a + S6x2048.size a ≤ S6x2048.size a
  h_S6x2048 : 0 < S6x2048.numel
  shapeCasts_S6x2048_S6x2048 : S6x2048.ShapeCasts S6x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S256x2048 : S1x2048.Broadcasts S256x2048
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S256x1 : S1x1.Broadcasts S256x1
  inb_S256x1_S256x1_0_0 : ∀ a, (![0, 0] : Fin 2 → Nat) a + S256x1.size a ≤ S256x1.size a
  h_S256x1 : 0 < S256x1.numel
  inb_S256x2_S256x2_0_0 : ∀ a, (![0, 0] : Fin 2 → Nat) a + S256x2.size a ≤ S256x2.size a
  h_S256x2 : 0 < S256x2.numel
  inb_S2x8_S2x8_0_0 : ∀ a, (![0, 0] : Fin 2 → Nat) a + S2x8.size a ≤ S2x8.size a
  h_S2x8 : 0 < S2x8.numel
  shapeCasts_S2x8_S2x8 : S2x8.ShapeCasts S2x8
  inb_S1x8_S1x8_0_0 : ∀ a, (![0, 0] : Fin 2 → Nat) a + S1x8.size a ≤ S1x8.size a
  h_S1x8 : 0 < S1x8.numel
  shapeCasts_S1x8_S1x8 : S1x8.ShapeCasts S1x8
  broadcasts_S1x8_S256x8 : S1x8.Broadcasts S256x8
  inb_S8x4_S8x4_0_0 : ∀ a, (![0, 0] : Fin 2 → Nat) a + S8x4.size a ≤ S8x4.size a
  h_S8x4 : 0 < S8x4.numel
  shapeCasts_S8x4_S8x4 : S8x4.ShapeCasts S8x4
  inb_S1x4_S1x4_0_0 : ∀ a, (![0, 0] : Fin 2 → Nat) a + S1x4.size a ≤ S1x4.size a
  h_S1x4 : 0 < S1x4.numel
  shapeCasts_S1x4_S1x4 : S1x4.ShapeCasts S1x4
  broadcasts_S1x4_S256x4 : S1x4.Broadcasts S256x4
  inb_S4x1_S4x1_0_0 : ∀ a, (![0, 0] : Fin 2 → Nat) a + S4x1.size a ≤ S4x1.size a
  h_S4x1 : 0 < S4x1.numel
  shapeCasts_S4x1_S4x1 : S4x1.ShapeCasts S4x1
  dot_S256x6_S6x2048_S256x2048_1_0_0_1_n_n_wf : DotDims.WF S256x6 S6x2048 S256x2048 [1] [0] [0] [1] [] []
  dot_S256x2048_S2048x2048_S256x2048_1_0_0_1_n_n_wf : DotDims.WF S256x2048 S2048x2048 S256x2048 [1] [0] [0] [1] [] []
  dot_S256x2048_S2048x1_S256x1_1_0_0_1_n_n_wf : DotDims.WF S256x2048 S2048x1 S256x1 [1] [0] [0] [1] [] []
  dot_S256x2_S2x8_S256x8_1_0_0_1_n_n_wf : DotDims.WF S256x2 S2x8 S256x8 [1] [0] [0] [1] [] []
  dot_S256x8_S8x4_S256x4_1_0_0_1_n_n_wf : DotDims.WF S256x8 S8x4 S256x4 [1] [0] [0] [1] [] []
  dot_S256x4_S4x1_S256x1_1_0_0_1_n_n_wf : DotDims.WF S256x4 S4x1 S256x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x2.size a ≤ S32768x2.size a
  hwx0_0 : ∀ i : grid0.Coords, EltTy.bits .f32 = 32 ∨ (Rect.block (s := S32768x2) S256x2.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x6.size a ≤ S32768x6.size a
  hwx0_1 : ∀ i : grid0.Coords, EltTy.bits .f32 = 32 ∨ (Rect.block (s := S32768x6) S256x6.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S6x2048.size a ≤ S6x2048.size a
  hwx0_2 : ∀ i : grid0.Coords, EltTy.bits .bf16 = 32 ∨ (Rect.block (s := S6x2048) S6x2048.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x2048.size a ≤ S1x2048.size a
  hwx0_3 : ∀ i : grid0.Coords, EltTy.bits .f32 = 32 ∨ (Rect.block (s := S1x2048) S1x2048.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S2048x2048.size a ≤ S2048x2048.size a
  hwx0_4 : ∀ i : grid0.Coords, EltTy.bits .bf16 = 32 ∨ (Rect.block (s := S2048x2048) S2048x2048.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x2048.size a ≤ S1x2048.size a
  hwx0_5 : ∀ i : grid0.Coords, EltTy.bits .f32 = 32 ∨ (Rect.block (s := S1x2048) S1x2048.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S2048x1.size a ≤ S2048x1.size a
  hwx0_6 : ∀ i : grid0.Coords, EltTy.bits .bf16 = 32 ∨ (Rect.block (s := S2048x1) S2048x1.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x1.size a ≤ S1x1.size a
  hwx0_7 : ∀ i : grid0.Coords, EltTy.bits .f32 = 32 ∨ (Rect.block (s := S1x1) S1x1.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S2x8.size a ≤ S2x8.size a
  hwx0_8 : ∀ i : grid0.Coords, EltTy.bits .bf16 = 32 ∨ (Rect.block (s := S2x8) S2x8.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x8.size a ≤ S1x8.size a
  hwx0_9 : ∀ i : grid0.Coords, EltTy.bits .f32 = 32 ∨ (Rect.block (s := S1x8) S1x8.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S8x4.size a ≤ S8x4.size a
  hwx0_10 : ∀ i : grid0.Coords, EltTy.bits .bf16 = 32 ∨ (Rect.block (s := S8x4) S8x4.size (cc0_transform_10 i) (hinb0_10 i)).WholeWords (EltTy.packing .bf16)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x4.size a ≤ S1x4.size a
  hwx0_11 : ∀ i : grid0.Coords, EltTy.bits .f32 = 32 ∨ (Rect.block (s := S1x4) S1x4.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S4x1.size a ≤ S4x1.size a
  hwx0_12 : ∀ i : grid0.Coords, EltTy.bits .bf16 = 32 ∨ (Rect.block (s := S4x1) S4x1.size (cc0_transform_12 i) (hinb0_12 i)).WholeWords (EltTy.packing .bf16)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1x1.size a ≤ S1x1.size a
  hwx0_13 : ∀ i : grid0.Coords, EltTy.bits .f32 = 32 ∨ (Rect.block (s := S1x1) S1x1.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S256x1.size a ≤ S32768x1.size a
  hwx0_14 : ∀ i : grid0.Coords, EltTy.bits .f32 = 32 ∨ (Rect.block (s := S32768x1) S256x1.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S256x1.size a ≤ S32768x1.size a
  hwx0_15 : ∀ i : grid0.Coords, EltTy.bits .f32 = 32 ∨ (Rect.block (s := S32768x1) S256x1.size (cc0_transform_15 i) (hinb0_15 i)).WholeWords (EltTy.packing .f32)

variable [Facts₀]

def dot_S256x6_S6x2048_S256x2048_1_0_0_1_n_n : DotDims S256x6 S6x2048 S256x2048 where
  lhsContracting := [1]
  rhsContracting := [0]
  lhsNonContracting := [0]
  rhsNonContracting := [1]
  lhsBatch := []
  rhsBatch := []
  wf := dot_S256x6_S6x2048_S256x2048_1_0_0_1_n_n_wf
def dot_S256x2048_S2048x2048_S256x2048_1_0_0_1_n_n : DotDims S256x2048 S2048x2048 S256x2048 where
  lhsContracting := [1]
  rhsContracting := [0]
  lhsNonContracting := [0]
  rhsNonContracting := [1]
  lhsBatch := []
  rhsBatch := []
  wf := dot_S256x2048_S2048x2048_S256x2048_1_0_0_1_n_n_wf
def dot_S256x2048_S2048x1_S256x1_1_0_0_1_n_n : DotDims S256x2048 S2048x1 S256x1 where
  lhsContracting := [1]
  rhsContracting := [0]
  lhsNonContracting := [0]
  rhsNonContracting := [1]
  lhsBatch := []
  rhsBatch := []
  wf := dot_S256x2048_S2048x1_S256x1_1_0_0_1_n_n_wf
def dot_S256x2_S2x8_S256x8_1_0_0_1_n_n : DotDims S256x2 S2x8 S256x8 where
  lhsContracting := [1]
  rhsContracting := [0]
  lhsNonContracting := [0]
  rhsNonContracting := [1]
  lhsBatch := []
  rhsBatch := []
  wf := dot_S256x2_S2x8_S256x8_1_0_0_1_n_n_wf
def dot_S256x8_S8x4_S256x4_1_0_0_1_n_n : DotDims S256x8 S8x4 S256x4 where
  lhsContracting := [1]
  rhsContracting := [0]
  lhsNonContracting := [0]
  rhsNonContracting := [1]
  lhsBatch := []
  rhsBatch := []
  wf := dot_S256x8_S8x4_S256x4_1_0_0_1_n_n_wf
def dot_S256x4_S4x1_S256x1_1_0_0_1_n_n : DotDims S256x4 S4x1 S256x1 where
  lhsContracting := [1]
  rhsContracting := [0]
  lhsNonContracting := [0]
  rhsNonContracting := [1]
  lhsBatch := []
  rhsBatch := []
  wf := dot_S256x4_S4x1_S256x1_1_0_0_1_n_n_wf

abbrev win0_0 : Pipeline.Window sig grid0 :=
  Pipeline.Window.ofSpec (Memref.whole main_arg0) S256x2.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v21) S256x6.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v22) S6x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v28) S1x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v23) S2048x2048.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v29) S1x2048.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v24) S2048x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v30) S1x1.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v25) S2x8.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v31) S1x8.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v26) S8x4.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v32) S1x4.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v27) S4x1.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v33) S1x1.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v34_0) S256x1.size cc0_transform_14 reads0_14 true false 2 stage0_14 sem0_14
    hrank0 hreads0_14 hinb0_14 nbuf0_14 (Memref.isWhole_whole _) hwx0_14 hstage0_14

abbrev win0_15 : Pipeline.Window sig grid0 :=
  Pipeline.Window.ofSpec (Memref.whole main_v34_1) S256x1.size cc0_transform_15 reads0_15 true false 2 stage0_15 sem0_15
    hrank0 hreads0_15 hinb0_15 nbuf0_15 (Memref.isWhole_whole _) hwx0_15 hstage0_15

abbrev win0 : Fin 16 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | ⟨_ + 16, h⟩ => absurd h (Nat.not_lt.2 (Nat.le_add_left _ _))
abbrev spec0 : Fin 16 → Pipeline.WinSpec sig grid0.rank := fun w => (win0 w).toWinSpec

class Facts : Prop extends Facts₀ where

variable [Facts]
-- ==== ReferenceIdeal.lean ====
abbrev S32768x2 : Shape := ⟨2, ![32768, 2]⟩
abbrev S6x2048 : Shape := ⟨2, ![6, 2048]⟩
abbrev S2048 : Shape := ⟨1, ![2048]⟩
abbrev S2048x2048 : Shape := ⟨2, ![2048, 2048]⟩
abbrev S2048x1 : Shape := ⟨2, ![2048, 1]⟩
abbrev S1 : Shape := ⟨1, ![1]⟩
abbrev S2x8 : Shape := ⟨2, ![2, 8]⟩
abbrev S8 : Shape := ⟨1, ![8]⟩
abbrev S8x4 : Shape := ⟨2, ![8, 4]⟩
abbrev S4 : Shape := ⟨1, ![4]⟩
abbrev S4x1 : Shape := ⟨2, ![4, 1]⟩
abbrev S_ : Shape := ⟨0, ![]⟩
abbrev S32768x4 : Shape := ⟨2, ![32768, 4]⟩
abbrev S32768x1 : Shape := ⟨2, ![32768, 1]⟩
abbrev S32768 : Shape := ⟨1, ![32768]⟩
abbrev S32768x6 : Shape := ⟨2, ![32768, 6]⟩
abbrev S32768x2048 : Shape := ⟨2, ![32768, 2048]⟩
abbrev S1x2048 : Shape := ⟨2, ![1, 2048]⟩
abbrev S1x1 : Shape := ⟨2, ![1, 1]⟩
abbrev S32768x8 : Shape := ⟨2, ![32768, 8]⟩
abbrev S1x8 : Shape := ⟨2, ![1, 8]⟩
abbrev S1x4 : Shape := ⟨2, ![1, 4]⟩

abbrev nBuf : Space → Nat
  | .hbm => 65
  | .vmem => 0
  | .smem => 0
  | _ => 0

abbrev bufTy : (tb : Table) → Fin (tcTables nBuf tb) → BufTy
  | .hbm, ⟨0, _⟩ => ⟨S32768x2, .f32⟩
  | .hbm, ⟨1, _⟩ => ⟨S6x2048, .f32⟩
  | .hbm, ⟨2, _⟩ => ⟨S2048, .f32⟩
  | .hbm, ⟨3, _⟩ => ⟨S2048x2048, .f32⟩
  | .hbm, ⟨4, _⟩ => ⟨S2048, .f32⟩
  | .hbm, ⟨5, _⟩ => ⟨S2048x1, .f32⟩
  | .hbm, ⟨6, _⟩ => ⟨S1, .f32⟩
  | .hbm, ⟨7, _⟩ => ⟨S2x8, .f32⟩
  | .hbm, ⟨8, _⟩ => ⟨S8, .f32⟩
  | .hbm, ⟨9, _⟩ => ⟨S8x4, .f32⟩
  | .hbm, ⟨10, _⟩ => ⟨S4, .f32⟩
  | .hbm, ⟨11, _⟩ => ⟨S4x1, .f32⟩
  | .hbm, ⟨12, _⟩ => ⟨S1, .f32⟩
  | .hbm, ⟨13, _⟩ => ⟨S_, .i32⟩
  | .hbm, ⟨14, _⟩ => ⟨S_, .f32⟩
  | .hbm, ⟨15, _⟩ => ⟨S32768x4, .f32⟩
  | .hbm, ⟨16, _⟩ => ⟨S32768x4, .f32⟩
  | .hbm, ⟨17, _⟩ => ⟨S32768x1, .f32⟩
  | .hbm, ⟨18, _⟩ => ⟨S32768, .f32⟩
  | .hbm, ⟨19, _⟩ => ⟨S32768x1, .f32⟩
  | .hbm, ⟨20, _⟩ => ⟨S32768, .f32⟩
  | .hbm, ⟨21, _⟩ => ⟨S32768x1, .f32⟩
  | .hbm, ⟨22, _⟩ => ⟨S32768, .f32⟩
  | .hbm, ⟨23, _⟩ => ⟨S32768, .f32⟩
  | .hbm, ⟨24, _⟩ => ⟨S32768x1, .f32⟩
  | .hbm, ⟨25, _⟩ => ⟨S32768, .f32⟩
  | .hbm, ⟨26, _⟩ => ⟨S32768x1, .f32⟩
  | .hbm, ⟨27, _⟩ => ⟨S32768, .f32⟩
  | .hbm, ⟨28, _⟩ => ⟨S32768x1, .f32⟩
  | .hbm, ⟨29, _⟩ => ⟨S32768, .f32⟩
  | .hbm, ⟨30, _⟩ => ⟨S32768, .f32⟩
  | .hbm, ⟨31, _⟩ => ⟨S32768x1, .f32⟩
  | .hbm, ⟨32, _⟩ => ⟨S32768x1, .f32⟩
  | .hbm, ⟨33, _⟩ => ⟨S32768x1, .f32⟩
  | .hbm, ⟨34, _⟩ => ⟨S32768x1, .f32⟩
  | .hbm, ⟨35, _⟩ => ⟨S32768x4, .f32⟩
  | .hbm, ⟨36, _⟩ => ⟨S32768x6, .f32⟩
  | .hbm, ⟨37, _⟩ => ⟨S32768x2048, .f32⟩
  | .hbm, ⟨38, _⟩ => ⟨S1x2048, .f32⟩
  | .hbm, ⟨39, _⟩ => ⟨S32768x2048, .f32⟩
  | .hbm, ⟨40, _⟩ => ⟨S32768x2048, .f32⟩
  | .hbm, ⟨41, _⟩ => ⟨S32768x2048, .f32⟩
  | .hbm, ⟨42, _⟩ => ⟨S32768x2048, .f32⟩
  | .hbm, ⟨43, _⟩ => ⟨S1x2048, .f32⟩
  | .hbm, ⟨44, _⟩ => ⟨S32768x2048, .f32⟩
  | .hbm, ⟨45, _⟩ => ⟨S32768x2048, .f32⟩
  | .hbm, ⟨46, _⟩ => ⟨S32768x2048, .f32⟩
  | .hbm, ⟨47, _⟩ => ⟨S32768x1, .f32⟩
  | .hbm, ⟨48, _⟩ => ⟨S1x1, .f32⟩
  | .hbm, ⟨49, _⟩ => ⟨S32768x1, .f32⟩
  | .hbm, ⟨50, _⟩ => ⟨S32768x1, .f32⟩
  | .hbm, ⟨51, _⟩ => ⟨S32768x8, .f32⟩
  | .hbm, ⟨52, _⟩ => ⟨S1x8, .f32⟩
  | .hbm, ⟨53, _⟩ => ⟨S32768x8, .f32⟩
  | .hbm, ⟨54, _⟩ => ⟨S32768x8, .f32⟩
  | .hbm, ⟨55, _⟩ => ⟨S32768x8, .f32⟩
  | .hbm, ⟨56, _⟩ => ⟨S32768x4, .f32⟩
  | .hbm, ⟨57, _⟩ => ⟨S1x4, .f32⟩
  | .hbm, ⟨58, _⟩ => ⟨S32768x4, .f32⟩
  | .hbm, ⟨59, _⟩ => ⟨S32768x4, .f32⟩
  | .hbm, ⟨60, _⟩ => ⟨S32768x4, .f32⟩
  | .hbm, ⟨61, _⟩ => ⟨S32768x1, .f32⟩
  | .hbm, ⟨62, _⟩ => ⟨S1x1, .f32⟩
  | .hbm, ⟨63, _⟩ => ⟨S32768x1, .f32⟩
  | .hbm, ⟨64, _⟩ => ⟨S32768x1, .f32⟩
  | _, _ => ⟨S32768x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_c : Ref sig .tc := ⟨.hbm, 13, rfl⟩
abbrev main_call0_v0 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩

abbrev nD : Nat := 1
abbrev τ : Topo := Topo.v7x

variable {F : FTy → Type} [FloatOps F]

class Facts₀ : Prop where
  pads_S32768x2_S32768x4_000_020 : S32768x2.Pads (![0, 0] : Fin 2 → Nat) ![0, 2] ![0, 0] S32768x4
  h_S_ : 0 < S_.numel
  slices_S32768x4_S32768x1_0_0 : S32768x4.Slices ![0, 0] S32768x1
  shapeCasts_S32768x1_S32768 : S32768x1.ShapeCasts S32768
  slices_S32768x4_S32768x1_0_1 : S32768x4.Slices ![0, 1] S32768x1
  slices_S32768x4_S32768x1_0_2 : S32768x4.Slices ![0, 2] S32768x1
  slices_S32768x4_S32768x1_0_3 : S32768x4.Slices ![0, 3] S32768x1
  bcast_S32768_S32768x1_0 : S32768.BroadcastsInDim S32768x1 (![0] : Fin 1 → Fin S32768x1.rank)
  concatenates_S32768x1_S32768x1_S32768x1_S32768x1_S32768x4_d1 : Shape.Concatenates [S32768x1, S32768x1, S32768x1, S32768x1] S32768x4 1
  concatenates_S32768x2_S32768x4_S32768x6_d1 : Shape.Concatenates [S32768x2, S32768x4] S32768x6 1
  bcast_S2048_S1x2048_1 : S2048.BroadcastsInDim S1x2048 (![1] : Fin 1 → Fin S1x2048.rank)
  bcast_S1x2048_S32768x2048_0_1 : S1x2048.BroadcastsInDim S32768x2048 (![0, 1] : Fin 2 → Fin S32768x2048.rank)
  bcast_S1_S1x1_1 : S1.BroadcastsInDim S1x1 (![1] : Fin 1 → Fin S1x1.rank)
  bcast_S1x1_S32768x1_0_1 : S1x1.BroadcastsInDim S32768x1 (![0, 1] : Fin 2 → Fin S32768x1.rank)
  bcast_S8_S1x8_1 : S8.BroadcastsInDim S1x8 (![1] : Fin 1 → Fin S1x8.rank)
  bcast_S1x8_S32768x8_0_1 : S1x8.BroadcastsInDim S32768x8 (![0, 1] : Fin 2 → Fin S32768x8.rank)
  bcast_S4_S1x4_1 : S4.BroadcastsInDim S1x4 (![1] : Fin 1 → Fin S1x4.rank)
  bcast_S1x4_S32768x4_0_1 : S1x4.BroadcastsInDim S32768x4 (![0, 1] : Fin 2 → Fin S32768x4.rank)
  dot_S32768x6_S6x2048_S32768x2048_1_0_0_1_n_n_wf : DotDims.WF S32768x6 S6x2048 S32768x2048 [1] [0] [0] [1] [] []
  dot_S32768x2048_S2048x2048_S32768x2048_1_0_0_1_n_n_wf : DotDims.WF S32768x2048 S2048x2048 S32768x2048 [1] [0] [0] [1] [] []
  dot_S32768x2048_S2048x1_S32768x1_1_0_0_1_n_n_wf : DotDims.WF S32768x2048 S2048x1 S32768x1 [1] [0] [0] [1] [] []
  dot_S32768x2_S2x8_S32768x8_1_0_0_1_n_n_wf : DotDims.WF S32768x2 S2x8 S32768x8 [1] [0] [0] [1] [] []
  dot_S32768x8_S8x4_S32768x4_1_0_0_1_n_n_wf : DotDims.WF S32768x8 S8x4 S32768x4 [1] [0] [0] [1] [] []
  dot_S32768x4_S4x1_S32768x1_1_0_0_1_n_n_wf : DotDims.WF S32768x4 S4x1 S32768x1 [1] [0] [0] [1] [] []

variable [Facts₀]

def dot_S32768x6_S6x2048_S32768x2048_1_0_0_1_n_n : DotDims S32768x6 S6x2048 S32768x2048 where
  lhsContracting := [1]
  rhsContracting := [0]
  lhsNonContracting := [0]
  rhsNonContracting := [1]
  lhsBatch := []
  rhsBatch := []
  wf := dot_S32768x6_S6x2048_S32768x2048_1_0_0_1_n_n_wf
def dot_S32768x2048_S2048x2048_S32768x2048_1_0_0_1_n_n : DotDims S32768x2048 S2048x2048 S32768x2048 where
  lhsContracting := [1]
  rhsContracting := [0]
  lhsNonContracting := [0]
  rhsNonContracting := [1]
  lhsBatch := []
  rhsBatch := []
  wf := dot_S32768x2048_S2048x2048_S32768x2048_1_0_0_1_n_n_wf
def dot_S32768x2048_S2048x1_S32768x1_1_0_0_1_n_n : DotDims S32768x2048 S2048x1 S32768x1 where
  lhsContracting := [1]
  rhsContracting := [0]
  lhsNonContracting := [0]
  rhsNonContracting := [1]
  lhsBatch := []
  rhsBatch := []
  wf := dot_S32768x2048_S2048x1_S32768x1_1_0_0_1_n_n_wf
def dot_S32768x2_S2x8_S32768x8_1_0_0_1_n_n : DotDims S32768x2 S2x8 S32768x8 where
  lhsContracting := [1]
  rhsContracting := [0]
  lhsNonContracting := [0]
  rhsNonContracting := [1]
  lhsBatch := []
  rhsBatch := []
  wf := dot_S32768x2_S2x8_S32768x8_1_0_0_1_n_n_wf
def dot_S32768x8_S8x4_S32768x4_1_0_0_1_n_n : DotDims S32768x8 S8x4 S32768x4 where
  lhsContracting := [1]
  rhsContracting := [0]
  lhsNonContracting := [0]
  rhsNonContracting := [1]
  lhsBatch := []
  rhsBatch := []
  wf := dot_S32768x8_S8x4_S32768x4_1_0_0_1_n_n_wf
def dot_S32768x4_S4x1_S32768x1_1_0_0_1_n_n : DotDims S32768x4 S4x1 S32768x1 where
  lhsContracting := [1]
  rhsContracting := [0]
  lhsNonContracting := [0]
  rhsNonContracting := [1]
  lhsBatch := []
  rhsBatch := []
  wf := dot_S32768x4_S4x1_S32768x1_1_0_0_1_n_n_wf

class Facts : Prop extends Facts₀ where

variable [Facts]
-- ==== Proof.EntryWord.lean ====
/-
  The region's entry for the program read on machine words: what the one kernel launch finds in memory, stated for ANY float model F.

  The program runs three stretches of host operations (a zero constant; a padding by two columns; then the cosine
  features, their products, the two concatenations that build the [32768, 6] feature matrix, the narrowing of the six
  weight matrices and the six biases reshaped to single rows) and then launches the kernel over 128 blocks of 256 rows.
  * V: core c's buffers when the launch is reached — the launch memory after those stretches, kept as one fold.
  * entry_main: the program up to the launch, in the form the launch theorem asks for.
  * V_main_argK: none of the thirteen argument arrays is written by a host operation, so the launch finds each as given.
  * blockAt: the block of a window's array that grid point t reads or writes, as a function on the block's indices.
  * found_W_of: every input window's buffer holds its block at every point — fetched there or, for the twelve
    operands whose block never moves, left there by the point before.
  * frame_of: from a run that ends with every array of the launch at what the launch's bookkeeping computes and every
    other buffer as the launch found it, the thirteen argument arrays end as given.
-/
import proofs.«119023_j65481071408210_1_alg».proof.Proof.Gen.Kernel.Launch
import proofs.«119023_j65481071408210_1_alg».proof.Proof.Gen.Kernel.Skeleton
import proofs.«119023_j65481071408210_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ## The program up to the launch -/

/-- Core c's buffers when the launch is reached: the launch memory after the three stretches of host operations. -/
abbrev V (c : Dev nD) (b : Ref sig .tc) : Buf (Elt F) ((c : Thread nD τ).loc b) :=
  StableHlo.after (List.flatten [hostOps0, hostOps0_1, hostOps0_2]) (fun b => m (c, b)) b

/-- No host operation of the first stretch allocates a buffer. -/
theorem stretch0_fresh : (hostOps0 : List (HloOp τ sig (Elt F))).Forall fun op => op.fresh = ∅ := by
  simp only [List.Forall]; repeat' constructor
/-- Nor of the second. -/
theorem stretch1_fresh : (hostOps0_1 : List (HloOp τ sig (Elt F))).Forall fun op => op.fresh = ∅ := by
  simp only [List.Forall]; repeat' constructor
/-- Nor of the third. -/
theorem stretch2_fresh : (hostOps0_2 : List (HloOp τ sig (Elt F))).Forall fun op => op.fresh = ∅ := by
  simp only [List.Forall]; repeat' constructor

/-- The program is the three stretches and then the launch, which finds the buffers at V. -/
theorem entry_main (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2]
    (by simp only [List.Forall]; exact ⟨hostOps0_sub, hostOps0_1_sub, hostOps0_2_sub⟩)
    (by simp only [List.Forall]; exact ⟨stretch0_fresh, stretch1_fresh, stretch2_fresh⟩) main_chain

/-- No host operation writes argument 0: the launch finds it as given. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.reshape_writes, StableHlo.nary_writes, Finset.mem_singleton]
    repeat' apply And.intro
    all_goals exact StableHlo.devRef_ne_of_ne (by decide)))
/-- No host operation writes argument 1: the launch finds it as given. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.reshape_writes, StableHlo.nary_writes, Finset.mem_singleton]
    repeat' apply And.intro
    all_goals exact StableHlo.devRef_ne_of_ne (by decide)))
/-- No host operation writes argument 2: the launch finds it as given. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.reshape_writes, StableHlo.nary_writes, Finset.mem_singleton]
    repeat' apply And.intro
    all_goals exact StableHlo.devRef_ne_of_ne (by decide)))
/-- No host operation writes argument 3: the launch finds it as given. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.reshape_writes, StableHlo.nary_writes, Finset.mem_singleton]
    repeat' apply And.intro
    all_goals exact StableHlo.devRef_ne_of_ne (by decide)))
/-- No host operation writes argument 4: the launch finds it as given. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.reshape_writes, StableHlo.nary_writes, Finset.mem_singleton]
    repeat' apply And.intro
    all_goals exact StableHlo.devRef_ne_of_ne (by decide)))
/-- No host operation writes argument 5: the launch finds it as given. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.reshape_writes, StableHlo.nary_writes, Finset.mem_singleton]
    repeat' apply And.intro
    all_goals exact StableHlo.devRef_ne_of_ne (by decide)))
/-- No host operation writes argument 6: the launch finds it as given. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.reshape_writes, StableHlo.nary_writes, Finset.mem_singleton]
    repeat' apply And.intro
    all_goals exact StableHlo.devRef_ne_of_ne (by decide)))
/-- No host operation writes argument 7: the launch finds it as given. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.reshape_writes, StableHlo.nary_writes, Finset.mem_singleton]
    repeat' apply And.intro
    all_goals exact StableHlo.devRef_ne_of_ne (by decide)))
/-- No host operation writes argument 8: the launch finds it as given. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.reshape_writes, StableHlo.nary_writes, Finset.mem_singleton]
    repeat' apply And.intro
    all_goals exact StableHlo.devRef_ne_of_ne (by decide)))
/-- No host operation writes argument 9: the launch finds it as given. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.reshape_writes, StableHlo.nary_writes, Finset.mem_singleton]
    repeat' apply And.intro
    all_goals exact StableHlo.devRef_ne_of_ne (by decide)))
/-- No host operation writes argument 10: the launch finds it as given. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.reshape_writes, StableHlo.nary_writes, Finset.mem_singleton]
    repeat' apply And.intro
    all_goals exact StableHlo.devRef_ne_of_ne (by decide)))
/-- No host operation writes argument 11: the launch finds it as given. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.reshape_writes, StableHlo.nary_writes, Finset.mem_singleton]
    repeat' apply And.intro
    all_goals exact StableHlo.devRef_ne_of_ne (by decide)))
/-- No host operation writes argument 12: the launch finds it as given. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.reshape_writes, StableHlo.nary_writes, Finset.mem_singleton]
    repeat' apply And.intro
    all_goals exact StableHlo.devRef_ne_of_ne (by decide)))

/-! ## The windows' blocks -/

/-- Window w's block at grid point t, read off its array as the launch finds it. -/
def blockAt (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's buffer holds its block at every point, fetched there or not, for any bookkeeping whose array is
    V's and whose body leaves the block in place. -/
theorem found_0_of {c : Dev nD} (dat : Dat τ (Elt F) Unit ℕ (UR sig nD τ) ℕ cfg0 c) (hA : dat.A 0 = V m c (Pipeline.arrRef spec0 0))
    (hafter : ∀ t, dat.after 0 t = blockAt m c 0 t) (t : Fin cfg0.N) (d) : dat.before 0 t d = blockAt m c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)
/-- Input window 1's buffer holds its block at every point, fetched there or not, for any bookkeeping whose array is
    V's and whose body leaves the block in place. -/
theorem found_1_of {c : Dev nD} (dat : Dat τ (Elt F) Unit ℕ (UR sig nD τ) ℕ cfg0 c) (hA : dat.A 1 = V m c (Pipeline.arrRef spec0 1))
    (hafter : ∀ t, dat.after 1 t = blockAt m c 1 t) (t : Fin cfg0.N) (d) : dat.before 1 t d = blockAt m c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)
/-- Input window 2's buffer holds its block at every point, fetched there or not, for any bookkeeping whose array is
    V's and whose body leaves the block in place. -/
theorem found_2_of {c : Dev nD} (dat : Dat τ (Elt F) Unit ℕ (UR sig nD τ) ℕ cfg0 c) (hA : dat.A 2 = V m c (Pipeline.arrRef spec0 2))
    (hafter : ∀ t, dat.after 2 t = blockAt m c 2 t) (t : Fin cfg0.N) (d) : dat.before 2 t d = blockAt m c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)
/-- Input window 3's buffer holds its block at every point, fetched there or not, for any bookkeeping whose array is
    V's and whose body leaves the block in place. -/
theorem found_3_of {c : Dev nD} (dat : Dat τ (Elt F) Unit ℕ (UR sig nD τ) ℕ cfg0 c) (hA : dat.A 3 = V m c (Pipeline.arrRef spec0 3))
    (hafter : ∀ t, dat.after 3 t = blockAt m c 3 t) (t : Fin cfg0.N) (d) : dat.before 3 t d = blockAt m c 3 t :=
  (dat.before_in_eq_fetched 3 rfl (fun _ => rfl) (fun _ _ _ => rfl) (fun t => by rw [hafter]; unfold Dat.blockOf blockAt; rw [hA]; try rfl) t d).trans
    (by unfold Dat.fetched Dat.blockOf blockAt; rw [hA]; try rfl)
/-- Input window 4's buffer holds its block at every point, fetched there or not, for any bookkeeping whose array is
    V's and whose body leaves the block in place. -/
theorem found_4_of {c : Dev nD} (dat : Dat τ (Elt F) Unit ℕ (UR sig nD τ) ℕ cfg0 c) (hA : dat.A 4 = V m c (Pipeline.arrRef spec0 4))
    (hafter : ∀ t, dat.after 4 t = blockAt m c 4 t) (t : Fin cfg0.N) (d) : dat.before 4 t d = blockAt m c 4 t :=
  (dat.before_in_eq_fetched 4 rfl (fun _ => rfl) (fun _ _ _ => rfl) (fun t => by rw [hafter]; unfold Dat.blockOf blockAt; rw [hA]; try rfl) t d).trans
    (by unfold Dat.fetched Dat.blockOf blockAt; rw [hA]; try rfl)
/-- Input window 5's buffer holds its block at every point, fetched there or not, for any bookkeeping whose array is
    V's and whose body leaves the block in place. -/
theorem found_5_of {c : Dev nD} (dat : Dat τ (Elt F) Unit ℕ (UR sig nD τ) ℕ cfg0 c) (hA : dat.A 5 = V m c (Pipeline.arrRef spec0 5))
    (hafter : ∀ t, dat.after 5 t = blockAt m c 5 t) (t : Fin cfg0.N) (d) : dat.before 5 t d = blockAt m c 5 t :=
  (dat.before_in_eq_fetched 5 rfl (fun _ => rfl) (fun _ _ _ => rfl) (fun t => by rw [hafter]; unfold Dat.blockOf blockAt; rw [hA]; try rfl) t d).trans
    (by unfold Dat.fetched Dat.blockOf blockAt; rw [hA]; try rfl)
/-- Input window 6's buffer holds its block at every point, fetched there or not, for any bookkeeping whose array is
    V's and whose body leaves the block in place. -/
theorem found_6_of {c : Dev nD} (dat : Dat τ (Elt F) Unit ℕ (UR sig nD τ) ℕ cfg0 c) (hA : dat.A 6 = V m c (Pipeline.arrRef spec0 6))
    (hafter : ∀ t, dat.after 6 t = blockAt m c 6 t) (t : Fin cfg0.N) (d) : dat.before 6 t d = blockAt m c 6 t :=
  (dat.before_in_eq_fetched 6 rfl (fun _ => rfl) (fun _ _ _ => rfl) (fun t => by rw [hafter]; unfold Dat.blockOf blockAt; rw [hA]; try rfl) t d).trans
    (by unfold Dat.fetched Dat.blockOf blockAt; rw [hA]; try rfl)
/-- Input window 7's buffer holds its block at every point, fetched there or not, for any bookkeeping whose array is
    V's and whose body leaves the block in place. -/
theorem found_7_of {c : Dev nD} (dat : Dat τ (Elt F) Unit ℕ (UR sig nD τ) ℕ cfg0 c) (hA : dat.A 7 = V m c (Pipeline.arrRef spec0 7))
    (hafter : ∀ t, dat.after 7 t = blockAt m c 7 t) (t : Fin cfg0.N) (d) : dat.before 7 t d = blockAt m c 7 t :=
  (dat.before_in_eq_fetched 7 rfl (fun _ => rfl) (fun _ _ _ => rfl) (fun t => by rw [hafter]; unfold Dat.blockOf blockAt; rw [hA]; try rfl) t d).trans
    (by unfold Dat.fetched Dat.blockOf blockAt; rw [hA]; try rfl)
/-- Input window 8's buffer holds its block at every point, fetched there or not, for any bookkeeping whose array is
    V's and whose body leaves the block in place. -/
theorem found_8_of {c : Dev nD} (dat : Dat τ (Elt F) Unit ℕ (UR sig nD τ) ℕ cfg0 c) (hA : dat.A 8 = V m c (Pipeline.arrRef spec0 8))
    (hafter : ∀ t, dat.after 8 t = blockAt m c 8 t) (t : Fin cfg0.N) (d) : dat.before 8 t d = blockAt m c 8 t :=
  (dat.before_in_eq_fetched 8 rfl (fun _ => rfl) (fun _ _ _ => rfl) (fun t => by rw [hafter]; unfold Dat.blockOf blockAt; rw [hA]; try rfl) t d).trans
    (by unfold Dat.fetched Dat.blockOf blockAt; rw [hA]; try rfl)
/-- Input window 9's buffer holds its block at every point, fetched there or not, for any bookkeeping whose array is
    V's and whose body leaves the block in place. -/
theorem found_9_of {c : Dev nD} (dat : Dat τ (Elt F) Unit ℕ (UR sig nD τ) ℕ cfg0 c) (hA : dat.A 9 = V m c (Pipeline.arrRef spec0 9))
    (hafter : ∀ t, dat.after 9 t = blockAt m c 9 t) (t : Fin cfg0.N) (d) : dat.before 9 t d = blockAt m c 9 t :=
  (dat.before_in_eq_fetched 9 rfl (fun _ => rfl) (fun _ _ _ => rfl) (fun t => by rw [hafter]; unfold Dat.blockOf blockAt; rw [hA]; try rfl) t d).trans
    (by unfold Dat.fetched Dat.blockOf blockAt; rw [hA]; try rfl)
/-- Input window 10's buffer holds its block at every point, fetched there or not, for any bookkeeping whose array is
    V's and whose body leaves the block in place. -/
theorem found_10_of {c : Dev nD} (dat : Dat τ (Elt F) Unit ℕ (UR sig nD τ) ℕ cfg0 c) (hA : dat.A 10 = V m c (Pipeline.arrRef spec0 10))
    (hafter : ∀ t, dat.after 10 t = blockAt m c 10 t) (t : Fin cfg0.N) (d) : dat.before 10 t d = blockAt m c 10 t :=
  (dat.before_in_eq_fetched 10 rfl (fun _ => rfl) (fun _ _ _ => rfl) (fun t => by rw [hafter]; unfold Dat.blockOf blockAt; rw [hA]; try rfl) t d).trans
    (by unfold Dat.fetched Dat.blockOf blockAt; rw [hA]; try rfl)
/-- Input window 11's buffer holds its block at every point, fetched there or not, for any bookkeeping whose array is
    V's and whose body leaves the block in place. -/
theorem found_11_of {c : Dev nD} (dat : Dat τ (Elt F) Unit ℕ (UR sig nD τ) ℕ cfg0 c) (hA : dat.A 11 = V m c (Pipeline.arrRef spec0 11))
    (hafter : ∀ t, dat.after 11 t = blockAt m c 11 t) (t : Fin cfg0.N) (d) : dat.before 11 t d = blockAt m c 11 t :=
  (dat.before_in_eq_fetched 11 rfl (fun _ => rfl) (fun _ _ _ => rfl) (fun t => by rw [hafter]; unfold Dat.blockOf blockAt; rw [hA]; try rfl) t d).trans
    (by unfold Dat.fetched Dat.blockOf blockAt; rw [hA]; try rfl)
/-- Input window 12's buffer holds its block at every point, fetched there or not, for any bookkeeping whose array is
    V's and whose body leaves the block in place. -/
theorem found_12_of {c : Dev nD} (dat : Dat τ (Elt F) Unit ℕ (UR sig nD τ) ℕ cfg0 c) (hA : dat.A 12 = V m c (Pipeline.arrRef spec0 12))
    (hafter : ∀ t, dat.after 12 t = blockAt m c 12 t) (t : Fin cfg0.N) (d) : dat.before 12 t d = blockAt m c 12 t :=
  (dat.before_in_eq_fetched 12 rfl (fun _ => rfl) (fun _ _ _ => rfl) (fun t => by rw [hafter]; unfold Dat.blockOf blockAt; rw [hA]; try rfl) t d).trans
    (by unfold Dat.fetched Dat.blockOf blockAt; rw [hA]; try rfl)
/-- Input window 13's buffer holds its block at every point, fetched there or not, for any bookkeeping whose array is
    V's and whose body leaves the block in place. -/
theorem found_13_of {c : Dev nD} (dat : Dat τ (Elt F) Unit ℕ (UR sig nD τ) ℕ cfg0 c) (hA : dat.A 13 = V m c (Pipeline.arrRef spec0 13))
    (hafter : ∀ t, dat.after 13 t = blockAt m c 13 t) (t : Fin cfg0.N) (d) : dat.before 13 t d = blockAt m c 13 t :=
  (dat.before_in_eq_fetched 13 rfl (fun _ => rfl) (fun _ _ _ => rfl) (fun t => by rw [hafter]; unfold Dat.blockOf blockAt; rw [hA]; try rfl) t d).trans
    (by unfold Dat.fetched Dat.blockOf blockAt; rw [hA]; try rfl)

/-! ## The argument arrays end as given -/

/-- From a run that ends with every array of the launch at what the bookkeeping computes and every other buffer as
    the launch found it: argument 0, which input window 0 stages and never writes back, and arguments 1 to 12, which
    no window stages, all end as given. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun _ h c => ⟨((h c).1 0).trans (((dats 0 c).arrAt_in 0 rfl _).trans ((hA c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c)⟩) h

end Cert.Kernel.Hand

end
-- ==== Proof.BodyWord.lean ====
/-
  The kernel body at one grid point, for ANY float model F: what it leaves in its two output buffers.

  The body loads its fourteen input blocks whole, computes, and stores one whole [256, 1] block into each output buffer
  (it also loads each output buffer before overwriting it, and never uses what it read there).
  * logitsLeft: the first output buffer after the body — its one store, the classifier head's value of the blocks of
    the feature matrix, the three weight matrices and the three bias rows.
  * riskLeft: the second output buffer after the body — its one store, the regressor head's value of the block of the
    raw inputs, its three weight matrices and three bias rows.
  * each store covers its buffer (it is the whole buffer).
  * body_triple: on whole buffers, the inputs' at given contents and the outputs' at anything, the body runs to its
    continuation with the inputs' as they were and the outputs' at logitsLeft and riskLeft of the inputs'.
-/
import proofs.«119023_j65481071408210_1_alg».proof.Proof.Gen.Kernel.Launch
import proofs.«119023_j65481071408210_1_alg».proof.Proof.Gen.Kernel.Skeleton
import proofs.«119023_j65481071408210_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's accesses: every load and store is of a whole buffer -/

abbrev box_S256x2 : Rect S256x2 := Rect.unit (s := S256x2) ![0, 0] S256x2.size inb_S256x2_S256x2_0_0
abbrev box_S256x6 : Rect S256x6 := Rect.unit (s := S256x6) ![0, 0] S256x6.size inb_S256x6_S256x6_0_0
abbrev box_S6x2048 : Rect S6x2048 := Rect.unit (s := S6x2048) ![0, 0] S6x2048.size inb_S6x2048_S6x2048_0_0
abbrev box_S1x2048 : Rect S1x2048 := Rect.unit (s := S1x2048) ![0, 0] S1x2048.size inb_S1x2048_S1x2048_0_0
abbrev box_S2048x2048 : Rect S2048x2048 := Rect.unit (s := S2048x2048) ![0, 0] S2048x2048.size inb_S2048x2048_S2048x2048_0_0
abbrev box_S2048x1 : Rect S2048x1 := Rect.unit (s := S2048x1) ![0, 0] S2048x1.size inb_S2048x1_S2048x1_0_0
abbrev box_S1x1 : Rect S1x1 := Rect.unit (s := S1x1) ![0, 0] S1x1.size inb_S1x1_S1x1_0_0
abbrev box_S2x8 : Rect S2x8 := Rect.unit (s := S2x8) ![0, 0] S2x8.size inb_S2x8_S2x8_0_0
abbrev box_S1x8 : Rect S1x8 := Rect.unit (s := S1x8) ![0, 0] S1x8.size inb_S1x8_S1x8_0_0
abbrev box_S8x4 : Rect S8x4 := Rect.unit (s := S8x4) ![0, 0] S8x4.size inb_S8x4_S8x4_0_0
abbrev box_S1x4 : Rect S1x4 := Rect.unit (s := S1x4) ![0, 0] S1x4.size inb_S1x4_S1x4_0_0
abbrev box_S4x1 : Rect S4x1 := Rect.unit (s := S4x1) ![0, 0] S4x1.size inb_S4x1_S4x1_0_0
abbrev box_S256x1 : Rect S256x1 := Rect.unit (s := S256x1) ![0, 0] S256x1.size inb_S256x1_S256x1_0_0

/-! ## What the body leaves in each output buffer -/

/-- The first output buffer after the body: its one store, over the blocks of the feature matrix (x1), the classifier's
    weights (x2, x4, x6) and bias rows (x3, x5, x7). -/
def logitsLeft (x1 : Vec F S256x6 .f32) (x2 : Vec F S6x2048 .bf16) (x3 : Vec F S1x2048 .f32) (x4 : Vec F S2048x2048 .bf16) (x5 : Vec F S1x2048 .f32) (x6 : Vec F S2048x1 .bf16) (x7 : Vec F S1x1 .f32) : Vec F S256x1 .f32 :=
  View.canon [⟨box_S256x1, k0_pay2 (View.ld x1 box_S256x6) (View.ld x2 box_S6x2048) (View.ld x3 box_S1x2048) (View.ld x4 box_S2048x2048) (View.ld x5 box_S1x2048) (View.ld x6 box_S2048x1) (View.ld x7 box_S1x1)⟩]

/-- The second output buffer after the body: its one store, over the block of the raw inputs (x0), the regressor's
    weights (x8, x10, x12) and bias rows (x9, x11, x13). -/
def riskLeft (x0 : Vec F S256x2 .f32) (x8 : Vec F S2x8 .bf16) (x9 : Vec F S1x8 .f32) (x10 : Vec F S8x4 .bf16) (x11 : Vec F S1x4 .f32) (x12 : Vec F S4x1 .bf16) (x13 : Vec F S1x1 .f32) : Vec F S256x1 .f32 :=
  View.canon [⟨box_S256x1, k0_pay1 (k0_pay3 (View.ld x0 box_S256x2) (View.ld x8 box_S2x8)) (View.ld x9 box_S1x8) (View.ld x10 box_S8x4) (View.ld x11 box_S1x4) (View.ld x12 box_S4x1) (View.ld x13 box_S1x1)⟩]

/-- A store of the whole [256, 1] buffer covers it. -/
theorem whole_covers (p0 : Vec F S256x1 .f32) (y : S256x1.Idx) :
    ∃ pc ∈ ([⟨box_S256x1, p0⟩] : List (View.Piece (Elt F) S256x1 .f32)), y ∈ pc.1.set :=
  View.cover_of_tiled [⟨box_S256x1, p0⟩] S256x1.size (by rfl) y

/-! ## The body's triple -/

set_option maxHeartbeats 4000000 in
/-- The body on whole buffers, the inputs' at contents x0 … x13 and the outputs' at anything, runs to the continuation
    holding the inputs' as they were and the outputs' at logitsLeft and riskLeft of the inputs'. -/
theorem body_triple (c : Dev nD) (E : Set ℕ) (i : grid0.Coords) (arg1 : Memref sig .tc .vmem S256x2 .f32) (harg1 : arg1.IsWhole) (arg2 : Memref sig .tc .vmem S256x6 .f32) (harg2 : arg2.IsWhole) (arg3 : Memref sig .tc .vmem S6x2048 .bf16) (harg3 : arg3.IsWhole) (arg4 : Memref sig .tc .vmem S1x2048 .f32) (harg4 : arg4.IsWhole) (arg5 : Memref sig .tc .vmem S2048x2048 .bf16) (harg5 : arg5.IsWhole) (arg6 : Memref sig .tc .vmem S1x2048 .f32) (harg6 : arg6.IsWhole) (arg7 : Memref sig .tc .vmem S2048x1 .bf16) (harg7 : arg7.IsWhole) (arg8 : Memref sig .tc .vmem S1x1 .f32) (harg8 : arg8.IsWhole) (arg9 : Memref sig .tc .vmem S2x8 .bf16) (harg9 : arg9.IsWhole) (arg10 : Memref sig .tc .vmem S1x8 .f32) (harg10 : arg10.IsWhole) (arg11 : Memref sig .tc .vmem S8x4 .bf16) (harg11 : arg11.IsWhole) (arg12 : Memref sig .tc .vmem S1x4 .f32) (harg12 : arg12.IsWhole) (arg13 : Memref sig .tc .vmem S4x1 .bf16) (harg13 : arg13.IsWhole) (arg14 : Memref sig .tc .vmem S1x1 .f32) (harg14 : arg14.IsWhole) (arg15 : Memref sig .tc .vmem S256x1 .f32) (harg15 : arg15.IsWhole) (arg16 : Memref sig .tc .vmem S256x1 .f32) (harg16 : arg16.IsWhole)
    (x0 : Vec F S256x2 .f32) (x1 : Vec F S256x6 .f32) (x2 : Vec F S6x2048 .bf16) (x3 : Vec F S1x2048 .f32) (x4 : Vec F S2048x2048 .bf16) (x5 : Vec F S1x2048 .f32) (x6 : Vec F S2048x1 .bf16) (x7 : Vec F S1x1 .f32) (x8 : Vec F S2x8 .bf16) (x9 : Vec F S1x8 .f32) (x10 : Vec F S8x4 .bf16) (x11 : Vec F S1x4 .f32) (x12 : Vec F S4x1 .bf16) (x13 : Vec F S1x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13
        ∗ (∃ d, owns (c : Thread nD τ) arg15 fullShare d) ∗ (∃ d, owns (c : Thread nD τ) arg16 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13
            ∗ owns (c : Thread nD τ) arg15 fullShare (logitsLeft x1 x2 x3 x4 x5 x6 x7)
            ∗ owns (c : Thread nD τ) arg16 fullShare (riskLeft x0 x8 x9 x10 x11 x12 x13)) -∗ K ⟨⟩))
      ⊢ wp frame (wpE (defs₀ (F := F)) Variants.none c none) E (cc0__mlp_head_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0__mlp_head_kernel_eq_skeleton]; unfold cc0__mlp_head_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%d15, %f15, -, H15⟩, Hk⟩
  subst hf0; subst hf1; subst hf2; subst hf3; subst hf4; subst hf5; subst hf6; subst hf7; subst hf8; subst hf9; subst hf10; subst hf11; subst hf12; subst hf13
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists _; isplitr
    swap; · iexact H14
    ipureintro
    exact View.read_writes_eq_canon _ _ _ (whole_covers _)
  iexists _; isplitr
  swap; · iexact H15
  ipureintro
  exact View.read_writes_eq_canon _ _ _ (whole_covers _)

end Cert.Kernel.Hand

end
-- ==== Proof.RunWord.lean ====
/-
  The frame run of the program, for ANY float model F: every weakly fair execution terminates, nothing faults, every
  array of the launch ends at what the launch's bookkeeping computes and every other buffer as the launch found it;
  hence the thirteen argument arrays end as given.

  * book: the launch's bookkeeping on core c — each array as the launch finds it; after the body at point t every input
    buffer at its block and the two output buffers at what the body leaves there (logitsLeft, riskLeft of the point's
    blocks); nothing kept between points besides the buffers; nothing owed.
  * found_W: every input buffer holds its block at every point.
  * point_triple: the body at any point, called on the point's buffers, meets the launch's per-point obligation.
  * frame_run, frame: the run, and the frame claim.
-/
import proofs.«119023_j65481071408210_1_alg».proof.Proof.EntryWord
import proofs.«119023_j65481071408210_1_alg».proof.Proof.BodyWord

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The launch's bookkeeping -/

/-- On core c: the arrays as the launch finds them; after the body at point t each input buffer at its block, the first
    output buffer at logitsLeft and the second at riskLeft of the point's blocks; the invariant the plain one (whatever
    else the core holds, untouched); nothing owed; whole shares. -/
def book (_ : Fin 1) (c : Dev nD) : Dat τ (Elt F) Unit ℕ (UR sig nD τ) ℕ cfg0 c where
  A w := V m c (Pipeline.arrRef spec0 w)
  after w t := match w with
    | ⟨0, _⟩ => blockAt m c 0 t
    | ⟨1, _⟩ => blockAt m c 1 t
    | ⟨2, _⟩ => blockAt m c 2 t
    | ⟨3, _⟩ => blockAt m c 3 t
    | ⟨4, _⟩ => blockAt m c 4 t
    | ⟨5, _⟩ => blockAt m c 5 t
    | ⟨6, _⟩ => blockAt m c 6 t
    | ⟨7, _⟩ => blockAt m c 7 t
    | ⟨8, _⟩ => blockAt m c 8 t
    | ⟨9, _⟩ => blockAt m c 9 t
    | ⟨10, _⟩ => blockAt m c 10 t
    | ⟨11, _⟩ => blockAt m c 11 t
    | ⟨12, _⟩ => blockAt m c 12 t
    | ⟨13, _⟩ => blockAt m c 13 t
    | ⟨14, _⟩ => logitsLeft (blockAt m c 1 t) (blockAt m c 2 t) (blockAt m c 3 t) (blockAt m c 4 t) (blockAt m c 5 t) (blockAt m c 6 t) (blockAt m c 7 t)
    | ⟨15, _⟩ => riskLeft (blockAt m c 0 t) (blockAt m c 8 t) (blockAt m c 9 t) (blockAt m c 10 t) (blockAt m c 11 t) (blockAt m c 12 t) (blockAt m c 13 t)
    | ⟨_ + 16, h⟩ => absurd h (Nat.not_lt.2 (Nat.le_add_left _ _))
  Φ _ := Pipeline.ΦA spec0 c
  q _ := fullShare
  owed _ := 0

/-- The bookkeeping's arrays are the launch's. -/
theorem A_eq (c : Dev nD) (w : Fin cfg0.W) : (book m 0 c).A w = V m c (Pipeline.arrRef spec0 w) := by
  dsimp only [book]

theorem left_0 (c : Dev nD) (t : Fin cfg0.N) : (book m 0 c).after 0 t = blockAt m c 0 t := by dsimp only [book]
theorem left_1 (c : Dev nD) (t : Fin cfg0.N) : (book m 0 c).after 1 t = blockAt m c 1 t := by dsimp only [book]
theorem left_2 (c : Dev nD) (t : Fin cfg0.N) : (book m 0 c).after 2 t = blockAt m c 2 t := by dsimp only [book]
theorem left_3 (c : Dev nD) (t : Fin cfg0.N) : (book m 0 c).after 3 t = blockAt m c 3 t := by dsimp only [book]
theorem left_4 (c : Dev nD) (t : Fin cfg0.N) : (book m 0 c).after 4 t = blockAt m c 4 t := by dsimp only [book]
theorem left_5 (c : Dev nD) (t : Fin cfg0.N) : (book m 0 c).after 5 t = blockAt m c 5 t := by dsimp only [book]
theorem left_6 (c : Dev nD) (t : Fin cfg0.N) : (book m 0 c).after 6 t = blockAt m c 6 t := by dsimp only [book]
theorem left_7 (c : Dev nD) (t : Fin cfg0.N) : (book m 0 c).after 7 t = blockAt m c 7 t := by dsimp only [book]
theorem left_8 (c : Dev nD) (t : Fin cfg0.N) : (book m 0 c).after 8 t = blockAt m c 8 t := by dsimp only [book]
theorem left_9 (c : Dev nD) (t : Fin cfg0.N) : (book m 0 c).after 9 t = blockAt m c 9 t := by dsimp only [book]
theorem left_10 (c : Dev nD) (t : Fin cfg0.N) : (book m 0 c).after 10 t = blockAt m c 10 t := by dsimp only [book]
theorem left_11 (c : Dev nD) (t : Fin cfg0.N) : (book m 0 c).after 11 t = blockAt m c 11 t := by dsimp only [book]
theorem left_12 (c : Dev nD) (t : Fin cfg0.N) : (book m 0 c).after 12 t = blockAt m c 12 t := by dsimp only [book]
theorem left_13 (c : Dev nD) (t : Fin cfg0.N) : (book m 0 c).after 13 t = blockAt m c 13 t := by dsimp only [book]
theorem left_14 (c : Dev nD) (t : Fin cfg0.N) : (book m 0 c).after 14 t = logitsLeft (blockAt m c 1 t) (blockAt m c 2 t) (blockAt m c 3 t) (blockAt m c 4 t) (blockAt m c 5 t) (blockAt m c 6 t) (blockAt m c 7 t) := by dsimp only [book]
theorem left_15 (c : Dev nD) (t : Fin cfg0.N) : (book m 0 c).after 15 t = riskLeft (blockAt m c 0 t) (blockAt m c 8 t) (blockAt m c 9 t) (blockAt m c 10 t) (blockAt m c 11 t) (blockAt m c 12 t) (blockAt m c 13 t) := by dsimp only [book]

/-- Input buffer 0 holds its block at every point. -/
theorem found_0 (c : Dev nD) (t : Fin cfg0.N) (d) : (book m 0 c).before 0 t d = blockAt m c 0 t :=
  found_0_of m (book m 0 c) (A_eq m c 0) (left_0 m c) t d
/-- Input buffer 1 holds its block at every point. -/
theorem found_1 (c : Dev nD) (t : Fin cfg0.N) (d) : (book m 0 c).before 1 t d = blockAt m c 1 t :=
  found_1_of m (book m 0 c) (A_eq m c 1) (left_1 m c) t d
/-- Input buffer 2 holds its block at every point. -/
theorem found_2 (c : Dev nD) (t : Fin cfg0.N) (d) : (book m 0 c).before 2 t d = blockAt m c 2 t :=
  found_2_of m (book m 0 c) (A_eq m c 2) (left_2 m c) t d
/-- Input buffer 3 holds its block at every point. -/
theorem found_3 (c : Dev nD) (t : Fin cfg0.N) (d) : (book m 0 c).before 3 t d = blockAt m c 3 t :=
  found_3_of m (book m 0 c) (A_eq m c 3) (left_3 m c) t d
/-- Input buffer 4 holds its block at every point. -/
theorem found_4 (c : Dev nD) (t : Fin cfg0.N) (d) : (book m 0 c).before 4 t d = blockAt m c 4 t :=
  found_4_of m (book m 0 c) (A_eq m c 4) (left_4 m c) t d
/-- Input buffer 5 holds its block at every point. -/
theorem found_5 (c : Dev nD) (t : Fin cfg0.N) (d) : (book m 0 c).before 5 t d = blockAt m c 5 t :=
  found_5_of m (book m 0 c) (A_eq m c 5) (left_5 m c) t d
/-- Input buffer 6 holds its block at every point. -/
theorem found_6 (c : Dev nD) (t : Fin cfg0.N) (d) : (book m 0 c).before 6 t d = blockAt m c 6 t :=
  found_6_of m (book m 0 c) (A_eq m c 6) (left_6 m c) t d
/-- Input buffer 7 holds its block at every point. -/
theorem found_7 (c : Dev nD) (t : Fin cfg0.N) (d) : (book m 0 c).before 7 t d = blockAt m c 7 t :=
  found_7_of m (book m 0 c) (A_eq m c 7) (left_7 m c) t d
/-- Input buffer 8 holds its block at every point. -/
theorem found_8 (c : Dev nD) (t : Fin cfg0.N) (d) : (book m 0 c).before 8 t d = blockAt m c 8 t :=
  found_8_of m (book m 0 c) (A_eq m c 8) (left_8 m c) t d
/-- Input buffer 9 holds its block at every point. -/
theorem found_9 (c : Dev nD) (t : Fin cfg0.N) (d) : (book m 0 c).before 9 t d = blockAt m c 9 t :=
  found_9_of m (book m 0 c) (A_eq m c 9) (left_9 m c) t d
/-- Input buffer 10 holds its block at every point. -/
theorem found_10 (c : Dev nD) (t : Fin cfg0.N) (d) : (book m 0 c).before 10 t d = blockAt m c 10 t :=
  found_10_of m (book m 0 c) (A_eq m c 10) (left_10 m c) t d
/-- Input buffer 11 holds its block at every point. -/
theorem found_11 (c : Dev nD) (t : Fin cfg0.N) (d) : (book m 0 c).before 11 t d = blockAt m c 11 t :=
  found_11_of m (book m 0 c) (A_eq m c 11) (left_11 m c) t d
/-- Input buffer 12 holds its block at every point. -/
theorem found_12 (c : Dev nD) (t : Fin cfg0.N) (d) : (book m 0 c).before 12 t d = blockAt m c 12 t :=
  found_12_of m (book m 0 c) (A_eq m c 12) (left_12 m c) t d
/-- Input buffer 13 holds its block at every point. -/
theorem found_13 (c : Dev nD) (t : Fin cfg0.N) (d) : (book m 0 c).before 13 t d = blockAt m c 13 t :=
  found_13_of m (book m 0 c) (A_eq m c 13) (left_13 m c) t d

/-! ## The per-point obligation -/

/-- What the body is called with at point t, -/
def pointPre (c : Dev nD) (t : Fin cfg0.N) : sProp 𝕄 :=
  iprop((book m 0 c).Φ t.castSucc ∗ (book m 0 c).owesAt () t.castSucc
    ∗ (∃ d, owns (c : Thread nD τ) (st0_0 t) fullShare ((book m 0 c).before 0 t d))
    ∗ (∃ d, owns (c : Thread nD τ) (st0_1 t) fullShare ((book m 0 c).before 1 t d))
    ∗ (∃ d, owns (c : Thread nD τ) (st0_2 t) fullShare ((book m 0 c).before 2 t d))
    ∗ (∃ d, owns (c : Thread nD τ) (st0_3 t) fullShare ((book m 0 c).before 3 t d))
    ∗ (∃ d, owns (c : Thread nD τ) (st0_4 t) fullShare ((book m 0 c).before 4 t d))
    ∗ (∃ d, owns (c : Thread nD τ) (st0_5 t) fullShare ((book m 0 c).before 5 t d))
    ∗ (∃ d, owns (c : Thread nD τ) (st0_6 t) fullShare ((book m 0 c).before 6 t d))
    ∗ (∃ d, owns (c : Thread nD τ) (st0_7 t) fullShare ((book m 0 c).before 7 t d))
    ∗ (∃ d, owns (c : Thread nD τ) (st0_8 t) fullShare ((book m 0 c).before 8 t d))
    ∗ (∃ d, owns (c : Thread nD τ) (st0_9 t) fullShare ((book m 0 c).before 9 t d))
    ∗ (∃ d, owns (c : Thread nD τ) (st0_10 t) fullShare ((book m 0 c).before 10 t d))
    ∗ (∃ d, owns (c : Thread nD τ) (st0_11 t) fullShare ((book m 0 c).before 11 t d))
    ∗ (∃ d, owns (c : Thread nD τ) (st0_12 t) fullShare ((book m 0 c).before 12 t d))
    ∗ (∃ d, owns (c : Thread nD τ) (st0_13 t) fullShare ((book m 0 c).before 13 t d))
    ∗ (∃ d, owns (c : Thread nD τ) (st0_14 t) fullShare ((book m 0 c).before 14 t d))
    ∗ (∃ d, owns (c : Thread nD τ) (st0_15 t) fullShare ((book m 0 c).before 15 t d)))

/-- and what it returns. -/
def pointPost (c : Dev nD) (t : Fin cfg0.N) : sProp 𝕄 :=
  iprop((book m 0 c).Φ t.succ ∗ (book m 0 c).owesAt () t.succ
    ∗ owns (c : Thread nD τ) (st0_0 t) fullShare ((book m 0 c).after 0 t)
    ∗ owns (c : Thread nD τ) (st0_1 t) fullShare ((book m 0 c).after 1 t)
    ∗ owns (c : Thread nD τ) (st0_2 t) fullShare ((book m 0 c).after 2 t)
    ∗ owns (c : Thread nD τ) (st0_3 t) fullShare ((book m 0 c).after 3 t)
    ∗ owns (c : Thread nD τ) (st0_4 t) fullShare ((book m 0 c).after 4 t)
    ∗ owns (c : Thread nD τ) (st0_5 t) fullShare ((book m 0 c).after 5 t)
    ∗ owns (c : Thread nD τ) (st0_6 t) fullShare ((book m 0 c).after 6 t)
    ∗ owns (c : Thread nD τ) (st0_7 t) fullShare ((book m 0 c).after 7 t)
    ∗ owns (c : Thread nD τ) (st0_8 t) fullShare ((book m 0 c).after 8 t)
    ∗ owns (c : Thread nD τ) (st0_9 t) fullShare ((book m 0 c).after 9 t)
    ∗ owns (c : Thread nD τ) (st0_10 t) fullShare ((book m 0 c).after 10 t)
    ∗ owns (c : Thread nD τ) (st0_11 t) fullShare ((book m 0 c).after 11 t)
    ∗ owns (c : Thread nD τ) (st0_12 t) fullShare ((book m 0 c).after 12 t)
    ∗ owns (c : Thread nD τ) (st0_13 t) fullShare ((book m 0 c).after 13 t)
    ∗ owns (c : Thread nD τ) (st0_14 t) fullShare ((book m 0 c).after 14 t)
    ∗ owns (c : Thread nD τ) (st0_15 t) fullShare ((book m 0 c).after 15 t))

set_option maxHeartbeats 2000000 in
/-- The body at any point: the input buffers hold their blocks, so the body's triple applies; the invariant and what
    the core owes pass through unread. -/
theorem point_triple (c : Dev nD) (t : Fin cfg0.N) :
    pointPre m c t ⊢ wp frame (wpE (defs₀ (F := F)) Variants.none c none) Set.univ (bodyAt0 t) (fun _ => pointPost m c t) := by
  unfold pointPre pointPost bodyAt0
  simp only [found_0, found_1, found_2, found_3, found_4, found_5, found_6, found_7, found_8, found_9, found_10, found_11, found_12, found_13]
  rw [show (book m 0 c).Φ t.succ = (book m 0 c).Φ t.castSucc from rfl,
    show (book m 0 c).owesAt () t.succ = (book m 0 c).owesAt () t.castSucc from rfl,
    left_0, left_1, left_2, left_3, left_4, left_5, left_6, left_7, left_8, left_9, left_10, left_11, left_12, left_13, left_14, left_15]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  iapply (body_triple c Set.univ _ _ _ _ _ _ _ _ _ _ _ _ _ _ _ _ _ _ _ _ _ _ _ _ _ _ _ _ _ _ _ _ _ (blockAt m c 0 t) (blockAt m c 1 t) (blockAt m c 2 t) (blockAt m c 3 t) (blockAt m c 4 t) (blockAt m c 5 t) (blockAt m c 6 t) (blockAt m c 7 t) (blockAt m c 8 t) (blockAt m c 9 t) (blockAt m c 10 t) (blockAt m c 11 t) (blockAt m c 12 t) (blockAt m c 13 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexists _; iexact H14
  isplitl [H15]; · iexists _; iexact H15
  iintro ⟨H0, H1, H2, H3, H4, H5, H6, H7, H8, H9, H10, H11, H12, H13, H14, H15⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15

/-- The launch's per-point obligation, at every point. -/
theorem point_obligation (c : Dev nD) : BodyObligation (book (F := F) m 0 c) (defs₀ (F := F)) Variants.none () Set.univ := fun t => by
  rw [bigSep_W0, bigSep_W0]
  exact point_triple m c t

/-! ## The run and the frame -/

set_option backward.isDefEq.respectTransparency.types false in
/-- Every weakly fair execution of the program terminates, nothing faulting, with every array of the launch at what
    the bookkeeping computes and every other buffer as the launch found it. -/
theorem frame_run : θ_run defs (onTc (τ := τ) (main (F := F))) (s₀ m ρ) (Pipeline.FramePost cfgs (book m) 0 (V m)) :=
  Pipeline.θ_run_frame cfgs (book m) (0 : Fin 1) launch0 defs₀ Variants.none m ρ main
    (hbody := fun c => (point_obligation m c).loose) (hshare := fun c => (book m 0 c).share_full fun _ => rfl)
    (howed := fun _ _ => rfl) (V := V m) (hmain := entry_main m Variants.none) (hA := A_eq m) (hΦ := fun _ _ => rfl)

/-- The frame: the program runs to the end, faults nowhere, and leaves its thirteen argument arrays as given. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  frame_of m ρ (book m) (A_eq m) (frame_run m ρ)

end Cert.Kernel.Hand

end
-- ==== Proof.EntryIdeal.lean ====
/-
  The region's entry for the program read on extended reals: what the one kernel launch finds in memory, stated for ANY float model F.

  The program runs three stretches of host operations (a zero constant; a padding by two columns; then the cosine
  features, their products, the two concatenations that build the [32768, 6] feature matrix, the narrowing of the six
  weight matrices and the six biases reshaped to single rows) and then launches the kernel over 128 blocks of 256 rows.
  * V: core c's buffers when the launch is reached — the launch memory after those stretches, kept as one fold.
  * entry_main: the program up to the launch, in the form the launch theorem asks for.
  * V_main_argK: none of the thirteen argument arrays is written by a host operation, so the launch finds each as given.
  * blockAt: the block of a window's array that grid point t reads or writes, as a function on the block's indices.
  * found_W_of: every input window's buffer holds its block at every point — fetched there or, for the twelve
    operands whose block never moves, left there by the point before.
  * frame_of: from a run that ends with every array of the launch at what the launch's bookkeeping computes and every
    other buffer as the launch found it, the thirteen argument arrays end as given.
-/
import proofs.«119023_j65481071408210_1_alg».proof.Proof.Gen.KernelIdeal.Launch
import proofs.«119023_j65481071408210_1_alg».proof.Proof.Gen.KernelIdeal.Skeleton
import proofs.«119023_j65481071408210_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ## The program up to the launch -/

/-- Core c's buffers when the launch is reached: the launch memory after the three stretches of host operations. -/
abbrev V (c : Dev nD) (b : Ref sig .tc) : Buf (Elt F) ((c : Thread nD τ).loc b) :=
  StableHlo.after (List.flatten [hostOps0, hostOps0_1, hostOps0_2]) (fun b => m (c, b)) b

/-- No host operation of the first stretch allocates a buffer. -/
theorem stretch0_fresh : (hostOps0 : List (HloOp τ sig (Elt F))).Forall fun op => op.fresh = ∅ := by
  simp only [List.Forall]; repeat' constructor
/-- Nor of the second. -/
theorem stretch1_fresh : (hostOps0_1 : List (HloOp τ sig (Elt F))).Forall fun op => op.fresh = ∅ := by
  simp only [List.Forall]; repeat' constructor
/-- Nor of the third. -/
theorem stretch2_fresh : (hostOps0_2 : List (HloOp τ sig (Elt F))).Forall fun op => op.fresh = ∅ := by
  simp only [List.Forall]; repeat' constructor

/-- The program is the three stretches and then the launch, which finds the buffers at V. -/
theorem entry_main (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2]
    (by simp only [List.Forall]; exact ⟨hostOps0_sub, hostOps0_1_sub, hostOps0_2_sub⟩)
    (by simp only [List.Forall]; exact ⟨stretch0_fresh, stretch1_fresh, stretch2_fresh⟩) main_chain

/-- No host operation writes argument 0: the launch finds it as given. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.reshape_writes, StableHlo.nary_writes, Finset.mem_singleton]
    repeat' apply And.intro
    all_goals exact StableHlo.devRef_ne_of_ne (by decide)))
/-- No host operation writes argument 1: the launch finds it as given. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.reshape_writes, StableHlo.nary_writes, Finset.mem_singleton]
    repeat' apply And.intro
    all_goals exact StableHlo.devRef_ne_of_ne (by decide)))
/-- No host operation writes argument 2: the launch finds it as given. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.reshape_writes, StableHlo.nary_writes, Finset.mem_singleton]
    repeat' apply And.intro
    all_goals exact StableHlo.devRef_ne_of_ne (by decide)))
/-- No host operation writes argument 3: the launch finds it as given. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.reshape_writes, StableHlo.nary_writes, Finset.mem_singleton]
    repeat' apply And.intro
    all_goals exact StableHlo.devRef_ne_of_ne (by decide)))
/-- No host operation writes argument 4: the launch finds it as given. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.reshape_writes, StableHlo.nary_writes, Finset.mem_singleton]
    repeat' apply And.intro
    all_goals exact StableHlo.devRef_ne_of_ne (by decide)))
/-- No host operation writes argument 5: the launch finds it as given. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.reshape_writes, StableHlo.nary_writes, Finset.mem_singleton]
    repeat' apply And.intro
    all_goals exact StableHlo.devRef_ne_of_ne (by decide)))
/-- No host operation writes argument 6: the launch finds it as given. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.reshape_writes, StableHlo.nary_writes, Finset.mem_singleton]
    repeat' apply And.intro
    all_goals exact StableHlo.devRef_ne_of_ne (by decide)))
/-- No host operation writes argument 7: the launch finds it as given. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.reshape_writes, StableHlo.nary_writes, Finset.mem_singleton]
    repeat' apply And.intro
    all_goals exact StableHlo.devRef_ne_of_ne (by decide)))
/-- No host operation writes argument 8: the launch finds it as given. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.reshape_writes, StableHlo.nary_writes, Finset.mem_singleton]
    repeat' apply And.intro
    all_goals exact StableHlo.devRef_ne_of_ne (by decide)))
/-- No host operation writes argument 9: the launch finds it as given. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.reshape_writes, StableHlo.nary_writes, Finset.mem_singleton]
    repeat' apply And.intro
    all_goals exact StableHlo.devRef_ne_of_ne (by decide)))
/-- No host operation writes argument 10: the launch finds it as given. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.reshape_writes, StableHlo.nary_writes, Finset.mem_singleton]
    repeat' apply And.intro
    all_goals exact StableHlo.devRef_ne_of_ne (by decide)))
/-- No host operation writes argument 11: the launch finds it as given. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.reshape_writes, StableHlo.nary_writes, Finset.mem_singleton]
    repeat' apply And.intro
    all_goals exact StableHlo.devRef_ne_of_ne (by decide)))
/-- No host operation writes argument 12: the launch finds it as given. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.reshape_writes, StableHlo.nary_writes, Finset.mem_singleton]
    repeat' apply And.intro
    all_goals exact StableHlo.devRef_ne_of_ne (by decide)))

/-! ## The windows' blocks -/

/-- Window w's block at grid point t, read off its array as the launch finds it. -/
def blockAt (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's buffer holds its block at every point, fetched there or not, for any bookkeeping whose array is
    V's and whose body leaves the block in place. -/
theorem found_0_of {c : Dev nD} (dat : Dat τ (Elt F) Unit ℕ (UR sig nD τ) ℕ cfg0 c) (hA : dat.A 0 = V m c (Pipeline.arrRef spec0 0))
    (hafter : ∀ t, dat.after 0 t = blockAt m c 0 t) (t : Fin cfg0.N) (d) : dat.before 0 t d = blockAt m c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)
/-- Input window 1's buffer holds its block at every point, fetched there or not, for any bookkeeping whose array is
    V's and whose body leaves the block in place. -/
theorem found_1_of {c : Dev nD} (dat : Dat τ (Elt F) Unit ℕ (UR sig nD τ) ℕ cfg0 c) (hA : dat.A 1 = V m c (Pipeline.arrRef spec0 1))
    (hafter : ∀ t, dat.after 1 t = blockAt m c 1 t) (t : Fin cfg0.N) (d) : dat.before 1 t d = blockAt m c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)
/-- Input window 2's buffer holds its block at every point, fetched there or not, for any bookkeeping whose array is
    V's and whose body leaves the block in place. -/
theorem found_2_of {c : Dev nD} (dat : Dat τ (Elt F) Unit ℕ (UR sig nD τ) ℕ cfg0 c) (hA : dat.A 2 = V m c (Pipeline.arrRef spec0 2))
    (hafter : ∀ t, dat.after 2 t = blockAt m c 2 t) (t : Fin cfg0.N) (d) : dat.before 2 t d = blockAt m c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)
/-- Input window 3's buffer holds its block at every point, fetched there or not, for any bookkeeping whose array is
    V's and whose body leaves the block in place. -/
theorem found_3_of {c : Dev nD} (dat : Dat τ (Elt F) Unit ℕ (UR sig nD τ) ℕ cfg0 c) (hA : dat.A 3 = V m c (Pipeline.arrRef spec0 3))
    (hafter : ∀ t, dat.after 3 t = blockAt m c 3 t) (t : Fin cfg0.N) (d) : dat.before 3 t d = blockAt m c 3 t :=
  (dat.before_in_eq_fetched 3 rfl (fun _ => rfl) (fun _ _ _ => rfl) (fun t => by rw [hafter]; unfold Dat.blockOf blockAt; rw [hA]; try rfl) t d).trans
    (by unfold Dat.fetched Dat.blockOf blockAt; rw [hA]; try rfl)
/-- Input window 4's buffer holds its block at every point, fetched there or not, for any bookkeeping whose array is
    V's and whose body leaves the block in place. -/
theorem found_4_of {c : Dev nD} (dat : Dat τ (Elt F) Unit ℕ (UR sig nD τ) ℕ cfg0 c) (hA : dat.A 4 = V m c (Pipeline.arrRef spec0 4))
    (hafter : ∀ t, dat.after 4 t = blockAt m c 4 t) (t : Fin cfg0.N) (d) : dat.before 4 t d = blockAt m c 4 t :=
  (dat.before_in_eq_fetched 4 rfl (fun _ => rfl) (fun _ _ _ => rfl) (fun t => by rw [hafter]; unfold Dat.blockOf blockAt; rw [hA]; try rfl) t d).trans
    (by unfold Dat.fetched Dat.blockOf blockAt; rw [hA]; try rfl)
/-- Input window 5's buffer holds its block at every point, fetched there or not, for any bookkeeping whose array is
    V's and whose body leaves the block in place. -/
theorem found_5_of {c : Dev nD} (dat : Dat τ (Elt F) Unit ℕ (UR sig nD τ) ℕ cfg0 c) (hA : dat.A 5 = V m c (Pipeline.arrRef spec0 5))
    (hafter : ∀ t, dat.after 5 t = blockAt m c 5 t) (t : Fin cfg0.N) (d) : dat.before 5 t d = blockAt m c 5 t :=
  (dat.before_in_eq_fetched 5 rfl (fun _ => rfl) (fun _ _ _ => rfl) (fun t => by rw [hafter]; unfold Dat.blockOf blockAt; rw [hA]; try rfl) t d).trans
    (by unfold Dat.fetched Dat.blockOf blockAt; rw [hA]; try rfl)
/-- Input window 6's buffer holds its block at every point, fetched there or not, for any bookkeeping whose array is
    V's and whose body leaves the block in place. -/
theorem found_6_of {c : Dev nD} (dat : Dat τ (Elt F) Unit ℕ (UR sig nD τ) ℕ cfg0 c) (hA : dat.A 6 = V m c (Pipeline.arrRef spec0 6))
    (hafter : ∀ t, dat.after 6 t = blockAt m c 6 t) (t : Fin cfg0.N) (d) : dat.before 6 t d = blockAt m c 6 t :=
  (dat.before_in_eq_fetched 6 rfl (fun _ => rfl) (fun _ _ _ => rfl) (fun t => by rw [hafter]; unfold Dat.blockOf blockAt; rw [hA]; try rfl) t d).trans
    (by unfold Dat.fetched Dat.blockOf blockAt; rw [hA]; try rfl)
/-- Input window 7's buffer holds its block at every point, fetched there or not, for any bookkeeping whose array is
    V's and whose body leaves the block in place. -/
theorem found_7_of {c : Dev nD} (dat : Dat τ (Elt F) Unit ℕ (UR sig nD τ) ℕ cfg0 c) (hA : dat.A 7 = V m c (Pipeline.arrRef spec0 7))
    (hafter : ∀ t, dat.after 7 t = blockAt m c 7 t) (t : Fin cfg0.N) (d) : dat.before 7 t d = blockAt m c 7 t :=
  (dat.before_in_eq_fetched 7 rfl (fun _ => rfl) (fun _ _ _ => rfl) (fun t => by rw [hafter]; unfold Dat.blockOf blockAt; rw [hA]; try rfl) t d).trans
    (by unfold Dat.fetched Dat.blockOf blockAt; rw [hA]; try rfl)
/-- Input window 8's buffer holds its block at every point, fetched there or not, for any bookkeeping whose array is
    V's and whose body leaves the block in place. -/
theorem found_8_of {c : Dev nD} (dat : Dat τ (Elt F) Unit ℕ (UR sig nD τ) ℕ cfg0 c) (hA : dat.A 8 = V m c (Pipeline.arrRef spec0 8))
    (hafter : ∀ t, dat.after 8 t = blockAt m c 8 t) (t : Fin cfg0.N) (d) : dat.before 8 t d = blockAt m c 8 t :=
  (dat.before_in_eq_fetched 8 rfl (fun _ => rfl) (fun _ _ _ => rfl) (fun t => by rw [hafter]; unfold Dat.blockOf blockAt; rw [hA]; try rfl) t d).trans
    (by unfold Dat.fetched Dat.blockOf blockAt; rw [hA]; try rfl)
/-- Input window 9's buffer holds its block at every point, fetched there or not, for any bookkeeping whose array is
    V's and whose body leaves the block in place. -/
theorem found_9_of {c : Dev nD} (dat : Dat τ (Elt F) Unit ℕ (UR sig nD τ) ℕ cfg0 c) (hA : dat.A 9 = V m c (Pipeline.arrRef spec0 9))
    (hafter : ∀ t, dat.after 9 t = blockAt m c 9 t) (t : Fin cfg0.N) (d) : dat.before 9 t d = blockAt m c 9 t :=
  (dat.before_in_eq_fetched 9 rfl (fun _ => rfl) (fun _ _ _ => rfl) (fun t => by rw [hafter]; unfold Dat.blockOf blockAt; rw [hA]; try rfl) t d).trans
    (by unfold Dat.fetched Dat.blockOf blockAt; rw [hA]; try rfl)
/-- Input window 10's buffer holds its block at every point, fetched there or not, for any bookkeeping whose array is
    V's and whose body leaves the block in place. -/
theorem found_10_of {c : Dev nD} (dat : Dat τ (Elt F) Unit ℕ (UR sig nD τ) ℕ cfg0 c) (hA : dat.A 10 = V m c (Pipeline.arrRef spec0 10))
    (hafter : ∀ t, dat.after 10 t = blockAt m c 10 t) (t : Fin cfg0.N) (d) : dat.before 10 t d = blockAt m c 10 t :=
  (dat.before_in_eq_fetched 10 rfl (fun _ => rfl) (fun _ _ _ => rfl) (fun t => by rw [hafter]; unfold Dat.blockOf blockAt; rw [hA]; try rfl) t d).trans
    (by unfold Dat.fetched Dat.blockOf blockAt; rw [hA]; try rfl)
/-- Input window 11's buffer holds its block at every point, fetched there or not, for any bookkeeping whose array is
    V's and whose body leaves the block in place. -/
theorem found_11_of {c : Dev nD} (dat : Dat τ (Elt F) Unit ℕ (UR sig nD τ) ℕ cfg0 c) (hA : dat.A 11 = V m c (Pipeline.arrRef spec0 11))
    (hafter : ∀ t, dat.after 11 t = blockAt m c 11 t) (t : Fin cfg0.N) (d) : dat.before 11 t d = blockAt m c 11 t :=
  (dat.before_in_eq_fetched 11 rfl (fun _ => rfl) (fun _ _ _ => rfl) (fun t => by rw [hafter]; unfold Dat.blockOf blockAt; rw [hA]; try rfl) t d).trans
    (by unfold Dat.fetched Dat.blockOf blockAt; rw [hA]; try rfl)
/-- Input window 12's buffer holds its block at every point, fetched there or not, for any bookkeeping whose array is
    V's and whose body leaves the block in place. -/
theorem found_12_of {c : Dev nD} (dat : Dat τ (Elt F) Unit ℕ (UR sig nD τ) ℕ cfg0 c) (hA : dat.A 12 = V m c (Pipeline.arrRef spec0 12))
    (hafter : ∀ t, dat.after 12 t = blockAt m c 12 t) (t : Fin cfg0.N) (d) : dat.before 12 t d = blockAt m c 12 t :=
  (dat.before_in_eq_fetched 12 rfl (fun _ => rfl) (fun _ _ _ => rfl) (fun t => by rw [hafter]; unfold Dat.blockOf blockAt; rw [hA]; try rfl) t d).trans
    (by unfold Dat.fetched Dat.blockOf blockAt; rw [hA]; try rfl)
/-- Input window 13's buffer holds its block at every point, fetched there or not, for any bookkeeping whose array is
    V's and whose body leaves the block in place. -/
theorem found_13_of {c : Dev nD} (dat : Dat τ (Elt F) Unit ℕ (UR sig nD τ) ℕ cfg0 c) (hA : dat.A 13 = V m c (Pipeline.arrRef spec0 13))
    (hafter : ∀ t, dat.after 13 t = blockAt m c 13 t) (t : Fin cfg0.N) (d) : dat.before 13 t d = blockAt m c 13 t :=
  (dat.before_in_eq_fetched 13 rfl (fun _ => rfl) (fun _ _ _ => rfl) (fun t => by rw [hafter]; unfold Dat.blockOf blockAt; rw [hA]; try rfl) t d).trans
    (by unfold Dat.fetched Dat.blockOf blockAt; rw [hA]; try rfl)

/-! ## The argument arrays end as given -/

/-- From a run that ends with every array of the launch at what the bookkeeping computes and every other buffer as
    the launch found it: argument 0, which input window 0 stages and never writes back, and arguments 1 to 12, which
    no window stages, all end as given. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun _ h c => ⟨((h c).1 0).trans (((dats 0 c).arrAt_in 0 rfl _).trans ((hA c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c)⟩) h

end Cert.KernelIdeal.Hand

end
-- ==== Proof.BodyIdeal.lean ====
/-
  The kernel body at one grid point, for ANY float model F: what it leaves in its two output buffers.

  The body loads its fourteen input blocks whole, computes, and stores one whole [256, 1] block into each output buffer
  (it also loads each output buffer before overwriting it, and never uses what it read there).
  * logitsLeft: the first output buffer after the body — its one store, the classifier head's value of the blocks of
    the feature matrix, the three weight matrices and the three bias rows.
  * riskLeft: the second output buffer after the body — its one store, the regressor head's value of the block of the
    raw inputs, its three weight matrices and three bias rows.
  * each store covers its buffer (it is the whole buffer).
  * body_triple: on whole buffers, the inputs' at given contents and the outputs' at anything, the body runs to its
    continuation with the inputs' as they were and the outputs' at logitsLeft and riskLeft of the inputs'.
-/
import proofs.«119023_j65481071408210_1_alg».proof.Proof.Gen.KernelIdeal.Launch
import proofs.«119023_j65481071408210_1_alg».proof.Proof.Gen.KernelIdeal.Skeleton
import proofs.«119023_j65481071408210_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's accesses: every load and store is of a whole buffer -/

abbrev box_S256x2 : Rect S256x2 := Rect.unit (s := S256x2) ![0, 0] S256x2.size inb_S256x2_S256x2_0_0
abbrev box_S256x6 : Rect S256x6 := Rect.unit (s := S256x6) ![0, 0] S256x6.size inb_S256x6_S256x6_0_0
abbrev box_S6x2048 : Rect S6x2048 := Rect.unit (s := S6x2048) ![0, 0] S6x2048.size inb_S6x2048_S6x2048_0_0
abbrev box_S1x2048 : Rect S1x2048 := Rect.unit (s := S1x2048) ![0, 0] S1x2048.size inb_S1x2048_S1x2048_0_0
abbrev box_S2048x2048 : Rect S2048x2048 := Rect.unit (s := S2048x2048) ![0, 0] S2048x2048.size inb_S2048x2048_S2048x2048_0_0
abbrev box_S2048x1 : Rect S2048x1 := Rect.unit (s := S2048x1) ![0, 0] S2048x1.size inb_S2048x1_S2048x1_0_0
abbrev box_S1x1 : Rect S1x1 := Rect.unit (s := S1x1) ![0, 0] S1x1.size inb_S1x1_S1x1_0_0
abbrev box_S2x8 : Rect S2x8 := Rect.unit (s := S2x8) ![0, 0] S2x8.size inb_S2x8_S2x8_0_0
abbrev box_S1x8 : Rect S1x8 := Rect.unit (s := S1x8) ![0, 0] S1x8.size inb_S1x8_S1x8_0_0
abbrev box_S8x4 : Rect S8x4 := Rect.unit (s := S8x4) ![0, 0] S8x4.size inb_S8x4_S8x4_0_0
abbrev box_S1x4 : Rect S1x4 := Rect.unit (s := S1x4) ![0, 0] S1x4.size inb_S1x4_S1x4_0_0
abbrev box_S4x1 : Rect S4x1 := Rect.unit (s := S4x1) ![0, 0] S4x1.size inb_S4x1_S4x1_0_0
abbrev box_S256x1 : Rect S256x1 := Rect.unit (s := S256x1) ![0, 0] S256x1.size inb_S256x1_S256x1_0_0

/-! ## What the body leaves in each output buffer -/

/-- The first output buffer after the body: its one store, over the blocks of the feature matrix (x1), the classifier's
    weights (x2, x4, x6) and bias rows (x3, x5, x7). -/
def logitsLeft (x1 : Vec F S256x6 .f32) (x2 : Vec F S6x2048 .bf16) (x3 : Vec F S1x2048 .f32) (x4 : Vec F S2048x2048 .bf16) (x5 : Vec F S1x2048 .f32) (x6 : Vec F S2048x1 .bf16) (x7 : Vec F S1x1 .f32) : Vec F S256x1 .f32 :=
  View.canon [⟨box_S256x1, k0_pay2 (View.ld x1 box_S256x6) (View.ld x2 box_S6x2048) (View.ld x3 box_S1x2048) (View.ld x4 box_S2048x2048) (View.ld x5 box_S1x2048) (View.ld x6 box_S2048x1) (View.ld x7 box_S1x1)⟩]

/-- The second output buffer after the body: its one store, over the block of the raw inputs (x0), the regressor's
    weights (x8, x10, x12) and bias rows (x9, x11, x13). -/
def riskLeft (x0 : Vec F S256x2 .f32) (x8 : Vec F S2x8 .bf16) (x9 : Vec F S1x8 .f32) (x10 : Vec F S8x4 .bf16) (x11 : Vec F S1x4 .f32) (x12 : Vec F S4x1 .bf16) (x13 : Vec F S1x1 .f32) : Vec F S256x1 .f32 :=
  View.canon [⟨box_S256x1, k0_pay1 (k0_pay3 (View.ld x0 box_S256x2) (View.ld x8 box_S2x8)) (View.ld x9 box_S1x8) (View.ld x10 box_S8x4) (View.ld x11 box_S1x4) (View.ld x12 box_S4x1) (View.ld x13 box_S1x1)⟩]

/-- A store of the whole [256, 1] buffer covers it. -/
theorem whole_covers (p0 : Vec F S256x1 .f32) (y : S256x1.Idx) :
    ∃ pc ∈ ([⟨box_S256x1, p0⟩] : List (View.Piece (Elt F) S256x1 .f32)), y ∈ pc.1.set :=
  View.cover_of_tiled [⟨box_S256x1, p0⟩] S256x1.size (by rfl) y

/-! ## The body's triple -/

set_option maxHeartbeats 4000000 in
/-- The body on whole buffers, the inputs' at contents x0 … x13 and the outputs' at anything, runs to the continuation
    holding the inputs' as they were and the outputs' at logitsLeft and riskLeft of the inputs'. -/
theorem body_triple (c : Dev nD) (E : Set ℕ) (i : grid0.Coords) (arg1 : Memref sig .tc .vmem S256x2 .f32) (harg1 : arg1.IsWhole) (arg2 : Memref sig .tc .vmem S256x6 .f32) (harg2 : arg2.IsWhole) (arg3 : Memref sig .tc .vmem S6x2048 .bf16) (harg3 : arg3.IsWhole) (arg4 : Memref sig .tc .vmem S1x2048 .f32) (harg4 : arg4.IsWhole) (arg5 : Memref sig .tc .vmem S2048x2048 .bf16) (harg5 : arg5.IsWhole) (arg6 : Memref sig .tc .vmem S1x2048 .f32) (harg6 : arg6.IsWhole) (arg7 : Memref sig .tc .vmem S2048x1 .bf16) (harg7 : arg7.IsWhole) (arg8 : Memref sig .tc .vmem S1x1 .f32) (harg8 : arg8.IsWhole) (arg9 : Memref sig .tc .vmem S2x8 .bf16) (harg9 : arg9.IsWhole) (arg10 : Memref sig .tc .vmem S1x8 .f32) (harg10 : arg10.IsWhole) (arg11 : Memref sig .tc .vmem S8x4 .bf16) (harg11 : arg11.IsWhole) (arg12 : Memref sig .tc .vmem S1x4 .f32) (harg12 : arg12.IsWhole) (arg13 : Memref sig .tc .vmem S4x1 .bf16) (harg13 : arg13.IsWhole) (arg14 : Memref sig .tc .vmem S1x1 .f32) (harg14 : arg14.IsWhole) (arg15 : Memref sig .tc .vmem S256x1 .f32) (harg15 : arg15.IsWhole) (arg16 : Memref sig .tc .vmem S256x1 .f32) (harg16 : arg16.IsWhole)
    (x0 : Vec F S256x2 .f32) (x1 : Vec F S256x6 .f32) (x2 : Vec F S6x2048 .bf16) (x3 : Vec F S1x2048 .f32) (x4 : Vec F S2048x2048 .bf16) (x5 : Vec F S1x2048 .f32) (x6 : Vec F S2048x1 .bf16) (x7 : Vec F S1x1 .f32) (x8 : Vec F S2x8 .bf16) (x9 : Vec F S1x8 .f32) (x10 : Vec F S8x4 .bf16) (x11 : Vec F S1x4 .f32) (x12 : Vec F S4x1 .bf16) (x13 : Vec F S1x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13
        ∗ (∃ d, owns (c : Thread nD τ) arg15 fullShare d) ∗ (∃ d, owns (c : Thread nD τ) arg16 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13
            ∗ owns (c : Thread nD τ) arg15 fullShare (logitsLeft x1 x2 x3 x4 x5 x6 x7)
            ∗ owns (c : Thread nD τ) arg16 fullShare (riskLeft x0 x8 x9 x10 x11 x12 x13)) -∗ K ⟨⟩))
      ⊢ wp frame (wpE (defs₀ (F := F)) Variants.none c none) E (cc0__mlp_head_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0__mlp_head_kernel_eq_skeleton]; unfold cc0__mlp_head_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%d15, %f15, -, H15⟩, Hk⟩
  subst hf0; subst hf1; subst hf2; subst hf3; subst hf4; subst hf5; subst hf6; subst hf7; subst hf8; subst hf9; subst hf10; subst hf11; subst hf12; subst hf13
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists _; isplitr
    swap; · iexact H14
    ipureintro
    exact View.read_writes_eq_canon _ _ _ (whole_covers _)
  iexists _; isplitr
  swap; · iexact H15
  ipureintro
  exact View.read_writes_eq_canon _ _ _ (whole_covers _)

end Cert.KernelIdeal.Hand

end
-- ==== Proof.RunIdeal.lean ====
/-
  The frame run of the program, for ANY float model F: every weakly fair execution terminates, nothing faults, every
  array of the launch ends at what the launch's bookkeeping computes and every other buffer as the launch found it;
  hence the thirteen argument arrays end as given.

  * book: the launch's bookkeeping on core c — each array as the launch finds it; after the body at point t every input
    buffer at its block and the two output buffers at what the body leaves there (logitsLeft, riskLeft of the point's
    blocks); nothing kept between points besides the buffers; nothing owed.
  * found_W: every input buffer holds its block at every point.
  * point_triple: the body at any point, called on the point's buffers, meets the launch's per-point obligation.
  * frame_run, frame: the run, and the frame claim.
-/
import proofs.«119023_j65481071408210_1_alg».proof.Proof.EntryIdeal
import proofs.«119023_j65481071408210_1_alg».proof.Proof.BodyIdeal

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The launch's bookkeeping -/

/-- On core c: the arrays as the launch finds them; after the body at point t each input buffer at its block, the first
    output buffer at logitsLeft and the second at riskLeft of the point's blocks; the invariant the plain one (whatever
    else the core holds, untouched); nothing owed; whole shares. -/
def book (_ : Fin 1) (c : Dev nD) : Dat τ (Elt F) Unit ℕ (UR sig nD τ) ℕ cfg0 c where
  A w := V m c (Pipeline.arrRef spec0 w)
  after w t := match w with
    | ⟨0, _⟩ => blockAt m c 0 t
    | ⟨1, _⟩ => blockAt m c 1 t
    | ⟨2, _⟩ => blockAt m c 2 t
    | ⟨3, _⟩ => blockAt m c 3 t
    | ⟨4, _⟩ => blockAt m c 4 t
    | ⟨5, _⟩ => blockAt m c 5 t
    | ⟨6, _⟩ => blockAt m c 6 t
    | ⟨7, _⟩ => blockAt m c 7 t
    | ⟨8, _⟩ => blockAt m c 8 t
    | ⟨9, _⟩ => blockAt m c 9 t
    | ⟨10, _⟩ => blockAt m c 10 t
    | ⟨11, _⟩ => blockAt m c 11 t
    | ⟨12, _⟩ => blockAt m c 12 t
    | ⟨13, _⟩ => blockAt m c 13 t
    | ⟨14, _⟩ => logitsLeft (blockAt m c 1 t) (blockAt m c 2 t) (blockAt m c 3 t) (blockAt m c 4 t) (blockAt m c 5 t) (blockAt m c 6 t) (blockAt m c 7 t)
    | ⟨15, _⟩ => riskLeft (blockAt m c 0 t) (blockAt m c 8 t) (blockAt m c 9 t) (blockAt m c 10 t) (blockAt m c 11 t) (blockAt m c 12 t) (blockAt m c 13 t)
    | ⟨_ + 16, h⟩ => absurd h (Nat.not_lt.2 (Nat.le_add_left _ _))
  Φ _ := Pipeline.ΦA spec0 c
  q _ := fullShare
  owed _ := 0

/-- The bookkeeping's arrays are the launch's. -/
theorem A_eq (c : Dev nD) (w : Fin cfg0.W) : (book m 0 c).A w = V m c (Pipeline.arrRef spec0 w) := by
  dsimp only [book]

theorem left_0 (c : Dev nD) (t : Fin cfg0.N) : (book m 0 c).after 0 t = blockAt m c 0 t := by dsimp only [book]
theorem left_1 (c : Dev nD) (t : Fin cfg0.N) : (book m 0 c).after 1 t = blockAt m c 1 t := by dsimp only [book]
theorem left_2 (c : Dev nD) (t : Fin cfg0.N) : (book m 0 c).after 2 t = blockAt m c 2 t := by dsimp only [book]
theorem left_3 (c : Dev nD) (t : Fin cfg0.N) : (book m 0 c).after 3 t = blockAt m c 3 t := by dsimp only [book]
theorem left_4 (c : Dev nD) (t : Fin cfg0.N) : (book m 0 c).after 4 t = blockAt m c 4 t := by dsimp only [book]
theorem left_5 (c : Dev nD) (t : Fin cfg0.N) : (book m 0 c).after 5 t = blockAt m c 5 t := by dsimp only [book]
theorem left_6 (c : Dev nD) (t : Fin cfg0.N) : (book m 0 c).after 6 t = blockAt m c 6 t := by dsimp only [book]
theorem left_7 (c : Dev nD) (t : Fin cfg0.N) : (book m 0 c).after 7 t = blockAt m c 7 t := by dsimp only [book]
theorem left_8 (c : Dev nD) (t : Fin cfg0.N) : (book m 0 c).after 8 t = blockAt m c 8 t := by dsimp only [book]
theorem left_9 (c : Dev nD) (t : Fin cfg0.N) : (book m 0 c).after 9 t = blockAt m c 9 t := by dsimp only [book]
theorem left_10 (c : Dev nD) (t : Fin cfg0.N) : (book m 0 c).after 10 t = blockAt m c 10 t := by dsimp only [book]
theorem left_11 (c : Dev nD) (t : Fin cfg0.N) : (book m 0 c).after 11 t = blockAt m c 11 t := by dsimp only [book]
theorem left_12 (c : Dev nD) (t : Fin cfg0.N) : (book m 0 c).after 12 t = blockAt m c 12 t := by dsimp only [book]
theorem left_13 (c : Dev nD) (t : Fin cfg0.N) : (book m 0 c).after 13 t = blockAt m c 13 t := by dsimp only [book]
theorem left_14 (c : Dev nD) (t : Fin cfg0.N) : (book m 0 c).after 14 t = logitsLeft (blockAt m c 1 t) (blockAt m c 2 t) (blockAt m c 3 t) (blockAt m c 4 t) (blockAt m c 5 t) (blockAt m c 6 t) (blockAt m c 7 t) := by dsimp only [book]
theorem left_15 (c : Dev nD) (t : Fin cfg0.N) : (book m 0 c).after 15 t = riskLeft (blockAt m c 0 t) (blockAt m c 8 t) (blockAt m c 9 t) (blockAt m c 10 t) (blockAt m c 11 t) (blockAt m c 12 t) (blockAt m c 13 t) := by dsimp only [book]

/-- Input buffer 0 holds its block at every point. -/
theorem found_0 (c : Dev nD) (t : Fin cfg0.N) (d) : (book m 0 c).before 0 t d = blockAt m c 0 t :=
  found_0_of m (book m 0 c) (A_eq m c 0) (left_0 m c) t d
/-- Input buffer 1 holds its block at every point. -/
theorem found_1 (c : Dev nD) (t : Fin cfg0.N) (d) : (book m 0 c).before 1 t d = blockAt m c 1 t :=
  found_1_of m (book m 0 c) (A_eq m c 1) (left_1 m c) t d
/-- Input buffer 2 holds its block at every point. -/
theorem found_2 (c : Dev nD) (t : Fin cfg0.N) (d) : (book m 0 c).before 2 t d = blockAt m c 2 t :=
  found_2_of m (book m 0 c) (A_eq m c 2) (left_2 m c) t d
/-- Input buffer 3 holds its block at every point. -/
theorem found_3 (c : Dev nD) (t : Fin cfg0.N) (d) : (book m 0 c).before 3 t d = blockAt m c 3 t :=
  found_3_of m (book m 0 c) (A_eq m c 3) (left_3 m c) t d
/-- Input buffer 4 holds its block at every point. -/
theorem found_4 (c : Dev nD) (t : Fin cfg0.N) (d) : (book m 0 c).before 4 t d = blockAt m c 4 t :=
  found_4_of m (book m 0 c) (A_eq m c 4) (left_4 m c) t d
/-- Input buffer 5 holds its block at every point. -/
theorem found_5 (c : Dev nD) (t : Fin cfg0.N) (d) : (book m 0 c).before 5 t d = blockAt m c 5 t :=
  found_5_of m (book m 0 c) (A_eq m c 5) (left_5 m c) t d
/-- Input buffer 6 holds its block at every point. -/
theorem found_6 (c : Dev nD) (t : Fin cfg0.N) (d) : (book m 0 c).before 6 t d = blockAt m c 6 t :=
  found_6_of m (book m 0 c) (A_eq m c 6) (left_6 m c) t d
/-- Input buffer 7 holds its block at every point. -/
theorem found_7 (c : Dev nD) (t : Fin cfg0.N) (d) : (book m 0 c).before 7 t d = blockAt m c 7 t :=
  found_7_of m (book m 0 c) (A_eq m c 7) (left_7 m c) t d
/-- Input buffer 8 holds its block at every point. -/
theorem found_8 (c : Dev nD) (t : Fin cfg0.N) (d) : (book m 0 c).before 8 t d = blockAt m c 8 t :=
  found_8_of m (book m 0 c) (A_eq m c 8) (left_8 m c) t d
/-- Input buffer 9 holds its block at every point. -/
theorem found_9 (c : Dev nD) (t : Fin cfg0.N) (d) : (book m 0 c).before 9 t d = blockAt m c 9 t :=
  found_9_of m (book m 0 c) (A_eq m c 9) (left_9 m c) t d
/-- Input buffer 10 holds its block at every point. -/
theorem found_10 (c : Dev nD) (t : Fin cfg0.N) (d) : (book m 0 c).before 10 t d = blockAt m c 10 t :=
  found_10_of m (book m 0 c) (A_eq m c 10) (left_10 m c) t d
/-- Input buffer 11 holds its block at every point. -/
theorem found_11 (c : Dev nD) (t : Fin cfg0.N) (d) : (book m 0 c).before 11 t d = blockAt m c 11 t :=
  found_11_of m (book m 0 c) (A_eq m c 11) (left_11 m c) t d
/-- Input buffer 12 holds its block at every point. -/
theorem found_12 (c : Dev nD) (t : Fin cfg0.N) (d) : (book m 0 c).before 12 t d = blockAt m c 12 t :=
  found_12_of m (book m 0 c) (A_eq m c 12) (left_12 m c) t d
/-- Input buffer 13 holds its block at every point. -/
theorem found_13 (c : Dev nD) (t : Fin cfg0.N) (d) : (book m 0 c).before 13 t d = blockAt m c 13 t :=
  found_13_of m (book m 0 c) (A_eq m c 13) (left_13 m c) t d

/-! ## The per-point obligation -/

/-- What the body is called with at point t, -/
def pointPre (c : Dev nD) (t : Fin cfg0.N) : sProp 𝕄 :=
  iprop((book m 0 c).Φ t.castSucc ∗ (book m 0 c).owesAt () t.castSucc
    ∗ (∃ d, owns (c : Thread nD τ) (st0_0 t) fullShare ((book m 0 c).before 0 t d))
    ∗ (∃ d, owns (c : Thread nD τ) (st0_1 t) fullShare ((book m 0 c).before 1 t d))
    ∗ (∃ d, owns (c : Thread nD τ) (st0_2 t) fullShare ((book m 0 c).before 2 t d))
    ∗ (∃ d, owns (c : Thread nD τ) (st0_3 t) fullShare ((book m 0 c).before 3 t d))
    ∗ (∃ d, owns (c : Thread nD τ) (st0_4 t) fullShare ((book m 0 c).before 4 t d))
    ∗ (∃ d, owns (c : Thread nD τ) (st0_5 t) fullShare ((book m 0 c).before 5 t d))
    ∗ (∃ d, owns (c : Thread nD τ) (st0_6 t) fullShare ((book m 0 c).before 6 t d))
    ∗ (∃ d, owns (c : Thread nD τ) (st0_7 t) fullShare ((book m 0 c).before 7 t d))
    ∗ (∃ d, owns (c : Thread nD τ) (st0_8 t) fullShare ((book m 0 c).before 8 t d))
    ∗ (∃ d, owns (c : Thread nD τ) (st0_9 t) fullShare ((book m 0 c).before 9 t d))
    ∗ (∃ d, owns (c : Thread nD τ) (st0_10 t) fullShare ((book m 0 c).before 10 t d))
    ∗ (∃ d, owns (c : Thread nD τ) (st0_11 t) fullShare ((book m 0 c).before 11 t d))
    ∗ (∃ d, owns (c : Thread nD τ) (st0_12 t) fullShare ((book m 0 c).before 12 t d))
    ∗ (∃ d, owns (c : Thread nD τ) (st0_13 t) fullShare ((book m 0 c).before 13 t d))
    ∗ (∃ d, owns (c : Thread nD τ) (st0_14 t) fullShare ((book m 0 c).before 14 t d))
    ∗ (∃ d, owns (c : Thread nD τ) (st0_15 t) fullShare ((book m 0 c).before 15 t d)))

/-- and what it returns. -/
def pointPost (c : Dev nD) (t : Fin cfg0.N) : sProp 𝕄 :=
  iprop((book m 0 c).Φ t.succ ∗ (book m 0 c).owesAt () t.succ
    ∗ owns (c : Thread nD τ) (st0_0 t) fullShare ((book m 0 c).after 0 t)
    ∗ owns (c : Thread nD τ) (st0_1 t) fullShare ((book m 0 c).after 1 t)
    ∗ owns (c : Thread nD τ) (st0_2 t) fullShare ((book m 0 c).after 2 t)
    ∗ owns (c : Thread nD τ) (st0_3 t) fullShare ((book m 0 c).after 3 t)
    ∗ owns (c : Thread nD τ) (st0_4 t) fullShare ((book m 0 c).after 4 t)
    ∗ owns (c : Thread nD τ) (st0_5 t) fullShare ((book m 0 c).after 5 t)
    ∗ owns (c : Thread nD τ) (st0_6 t) fullShare ((book m 0 c).after 6 t)
    ∗ owns (c : Thread nD τ) (st0_7 t) fullShare ((book m 0 c).after 7 t)
    ∗ owns (c : Thread nD τ) (st0_8 t) fullShare ((book m 0 c).after 8 t)
    ∗ owns (c : Thread nD τ) (st0_9 t) fullShare ((book m 0 c).after 9 t)
    ∗ owns (c : Thread nD τ) (st0_10 t) fullShare ((book m 0 c).after 10 t)
    ∗ owns (c : Thread nD τ) (st0_11 t) fullShare ((book m 0 c).after 11 t)
    ∗ owns (c : Thread nD τ) (st0_12 t) fullShare ((book m 0 c).after 12 t)
    ∗ owns (c : Thread nD τ) (st0_13 t) fullShare ((book m 0 c).after 13 t)
    ∗ owns (c : Thread nD τ) (st0_14 t) fullShare ((book m 0 c).after 14 t)
    ∗ owns (c : Thread nD τ) (st0_15 t) fullShare ((book m 0 c).after 15 t))

set_option maxHeartbeats 2000000 in
/-- The body at any point: the input buffers hold their blocks, so the body's triple applies; the invariant and what
    the core owes pass through unread. -/
theorem point_triple (c : Dev nD) (t : Fin cfg0.N) :
    pointPre m c t ⊢ wp frame (wpE (defs₀ (F := F)) Variants.none c none) Set.univ (bodyAt0 t) (fun _ => pointPost m c t) := by
  unfold pointPre pointPost bodyAt0
  simp only [found_0, found_1, found_2, found_3, found_4, found_5, found_6, found_7, found_8, found_9, found_10, found_11, found_12, found_13]
  rw [show (book m 0 c).Φ t.succ = (book m 0 c).Φ t.castSucc from rfl,
    show (book m 0 c).owesAt () t.succ = (book m 0 c).owesAt () t.castSucc from rfl,
    left_0, left_1, left_2, left_3, left_4, left_5, left_6, left_7, left_8, left_9, left_10, left_11, left_12, left_13, left_14, left_15]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  iapply (body_triple c Set.univ _ _ _ _ _ _ _ _ _ _ _ _ _ _ _ _ _ _ _ _ _ _ _ _ _ _ _ _ _ _ _ _ _ (blockAt m c 0 t) (blockAt m c 1 t) (blockAt m c 2 t) (blockAt m c 3 t) (blockAt m c 4 t) (blockAt m c 5 t) (blockAt m c 6 t) (blockAt m c 7 t) (blockAt m c 8 t) (blockAt m c 9 t) (blockAt m c 10 t) (blockAt m c 11 t) (blockAt m c 12 t) (blockAt m c 13 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexists _; iexact H14
  isplitl [H15]; · iexists _; iexact H15
  iintro ⟨H0, H1, H2, H3, H4, H5, H6, H7, H8, H9, H10, H11, H12, H13, H14, H15⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15

/-- The launch's per-point obligation, at every point. -/
theorem point_obligation (c : Dev nD) : BodyObligation (book (F := F) m 0 c) (defs₀ (F := F)) Variants.none () Set.univ := fun t => by
  rw [bigSep_W0, bigSep_W0]
  exact point_triple m c t

/-! ## The run and the frame -/

set_option backward.isDefEq.respectTransparency.types false in
/-- Every weakly fair execution of the program terminates, nothing faulting, with every array of the launch at what
    the bookkeeping computes and every other buffer as the launch found it. -/
theorem frame_run : θ_run defs (onTc (τ := τ) (main (F := F))) (s₀ m ρ) (Pipeline.FramePost cfgs (book m) 0 (V m)) :=
  Pipeline.θ_run_frame cfgs (book m) (0 : Fin 1) launch0 defs₀ Variants.none m ρ main
    (hbody := fun c => (point_obligation m c).loose) (hshare := fun c => (book m 0 c).share_full fun _ => rfl)
    (howed := fun _ _ => rfl) (V := V m) (hmain := entry_main m Variants.none) (hA := A_eq m) (hΦ := fun _ _ => rfl)

/-- The frame: the program runs to the end, faults nowhere, and leaves its thirteen argument arrays as given. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  frame_of m ρ (book m) (A_eq m) (frame_run m ρ)

end Cert.KernelIdeal.Hand

end
-- ==== Proof.EntryValues.lean ====
/-
  What the kernel launch finds in the arrays it stages, for ANY float model F, as functions of the argument arrays.

  * features x — the [32768, 6] feature matrix the host operations build from the raw inputs x: columns 0 and 1 are x
    itself; with c the cosine of x padded by two zero columns, column 2 is c₀, column 3 is c₀ · c₁, column 4 is c₂ and
    column 5 is c₂ · c₃ (each a column of c, or a product of two, laid as a [32768, 1] column and joined).
  * staged_features: the launch finds the feature matrix in the second operand's array.
  * staged_W…: each weight matrix is staged narrowed to the short float format.
  * staged_b…: each bias vector is staged reshaped to a single row.
-/
import proofs.«119023_j65481071408210_1_alg».proof.Proof.EntryIdeal
import Idealize.ShloMosaic.Lib.StableHlo.Run

set_option maxRecDepth 16384

noncomputable section

namespace Cert.KernelIdeal.Bridge

open Cert.KernelIdeal Cert.KernelIdeal.Gen Cert.KernelIdeal.Hand
open Idealize.ShloMosaic Idealize.ShloMosaic.TcCoe Idealize.SL.Sem Idealize.ShloMosaic.StableHlo

variable {F : FTy → Type} [FloatOps F]

/-- The feature matrix built from the raw inputs: x beside four columns of cosines and their products. -/
def features (x : S32768x2.Idx → Elt F .f32) : S32768x6.Idx → Elt F .f32 :=
  (concatenate S32768x6 1 [⟨S32768x2, x⟩, ⟨S32768x4, (concatenate S32768x4 1 [⟨S32768x1, (broadcastInDim S32768x1 ![0] bcast_S32768_S32768x1_0 (shapeCast S32768 (extractStridedSlice S32768x1 ![0, 0] (Host.cos (pad S32768x4 ![0, 0] ![0, 2] ![0, 0] x (sitofp .f32 (constantI S_ 32 0#32)) pads_S32768x2_S32768x4_000_020 h_S_)) slices_S32768x4_S32768x1_0_0) shapeCasts_S32768x1_S32768))⟩, ⟨S32768x1, (broadcastInDim S32768x1 ![0] bcast_S32768_S32768x1_0 (mulf (shapeCast S32768 (extractStridedSlice S32768x1 ![0, 0] (Host.cos (pad S32768x4 ![0, 0] ![0, 2] ![0, 0] x (sitofp .f32 (constantI S_ 32 0#32)) pads_S32768x2_S32768x4_000_020 h_S_)) slices_S32768x4_S32768x1_0_0) shapeCasts_S32768x1_S32768) (shapeCast S32768 (extractStridedSlice S32768x1 ![0, 1] (Host.cos (pad S32768x4 ![0, 0] ![0, 2] ![0, 0] x (sitofp .f32 (constantI S_ 32 0#32)) pads_S32768x2_S32768x4_000_020 h_S_)) slices_S32768x4_S32768x1_0_1) shapeCasts_S32768x1_S32768)))⟩, ⟨S32768x1, (broadcastInDim S32768x1 ![0] bcast_S32768_S32768x1_0 (shapeCast S32768 (extractStridedSlice S32768x1 ![0, 2] (Host.cos (pad S32768x4 ![0, 0] ![0, 2] ![0, 0] x (sitofp .f32 (constantI S_ 32 0#32)) pads_S32768x2_S32768x4_000_020 h_S_)) slices_S32768x4_S32768x1_0_2) shapeCasts_S32768x1_S32768))⟩, ⟨S32768x1, (broadcastInDim S32768x1 ![0] bcast_S32768_S32768x1_0 (mulf (shapeCast S32768 (extractStridedSlice S32768x1 ![0, 2] (Host.cos (pad S32768x4 ![0, 0] ![0, 2] ![0, 0] x (sitofp .f32 (constantI S_ 32 0#32)) pads_S32768x2_S32768x4_000_020 h_S_)) slices_S32768x4_S32768x1_0_2) shapeCasts_S32768x1_S32768) (shapeCast S32768 (extractStridedSlice S32768x1 ![0, 3] (Host.cos (pad S32768x4 ![0, 0] ![0, 2] ![0, 0] x (sitofp .f32 (constantI S_ 32 0#32)) pads_S32768x2_S32768x4_000_020 h_S_)) slices_S32768x4_S32768x1_0_3) shapeCasts_S32768x1_S32768)))⟩] concatenates_S32768x1_S32768x1_S32768x1_S32768x1_S32768x4_d1)⟩] concatenates_S32768x2_S32768x4_S32768x6_d1)

variable (m : (ℓ : Loc nD τ sig) → Buf (Elt F) ℓ)

/-- The launch finds the feature matrix of argument 0 in the array of its second operand. -/
theorem staged_features (c : Dev nD) :
    (V m c main_v21 : S32768x6.Idx → Elt F .f32) = features (m ((c : Thread nD τ).loc main_arg0)) := by
  dsimp only [V]
  simp only [hostOps0, hostOps0_1, hostOps0_2, List.flatten_cons, List.flatten_nil, List.append_nil, List.cons_append, List.nil_append]
  after_results <;> rfl

/-- The launch finds argument 1 narrowed to the short float format. -/
theorem staged_W1 (c : Dev nD) :
    (V m c main_v22 : S6x2048.Idx → Elt F .bf16) = truncf .bf16 (m ((c : Thread nD τ).loc main_arg1)) bitsLt_bf16_f32 := by
  dsimp only [V]
  simp only [hostOps0, hostOps0_1, hostOps0_2, List.flatten_cons, List.flatten_nil, List.append_nil, List.cons_append, List.nil_append]
  after_results <;> rfl

/-- The launch finds argument 2 reshaped to a single row. -/
theorem staged_b1 (c : Dev nD) :
    (V m c main_v28 : S1x2048.Idx → Elt F .f32) = shapeCast S1x2048 (m ((c : Thread nD τ).loc main_arg2)) shapeCasts_S2048_S1x2048 := by
  dsimp only [V]
  simp only [hostOps0, hostOps0_1, hostOps0_2, List.flatten_cons, List.flatten_nil, List.append_nil, List.cons_append, List.nil_append]
  after_results <;> rfl

/-- The launch finds argument 3 narrowed to the short float format. -/
theorem staged_W2 (c : Dev nD) :
    (V m c main_v23 : S2048x2048.Idx → Elt F .bf16) = truncf .bf16 (m ((c : Thread nD τ).loc main_arg3)) bitsLt_bf16_f32 := by
  dsimp only [V]
  simp only [hostOps0, hostOps0_1, hostOps0_2, List.flatten_cons, List.flatten_nil, List.append_nil, List.cons_append, List.nil_append]
  after_results <;> rfl

/-- The launch finds argument 4 reshaped to a single row. -/
theorem staged_b2 (c : Dev nD) :
    (V m c main_v29 : S1x2048.Idx → Elt F .f32) = shapeCast S1x2048 (m ((c : Thread nD τ).loc main_arg4)) shapeCasts_S2048_S1x2048 := by
  dsimp only [V]
  simp only [hostOps0, hostOps0_1, hostOps0_2, List.flatten_cons, List.flatten_nil, List.append_nil, List.cons_append, List.nil_append]
  after_results <;> rfl

/-- The launch finds argument 5 narrowed to the short float format. -/
theorem staged_Wc (c : Dev nD) :
    (V m c main_v24 : S2048x1.Idx → Elt F .bf16) = truncf .bf16 (m ((c : Thread nD τ).loc main_arg5)) bitsLt_bf16_f32 := by
  dsimp only [V]
  simp only [hostOps0, hostOps0_1, hostOps0_2, List.flatten_cons, List.flatten_nil, List.append_nil, List.cons_append, List.nil_append]
  after_results <;> rfl

/-- The launch finds argument 6 reshaped to a single row. -/
theorem staged_bc (c : Dev nD) :
    (V m c main_v30 : S1x1.Idx → Elt F .f32) = shapeCast S1x1 (m ((c : Thread nD τ).loc main_arg6)) shapeCasts_S1_S1x1 := by
  dsimp only [V]
  simp only [hostOps0, hostOps0_1, hostOps0_2, List.flatten_cons, List.flatten_nil, List.append_nil, List.cons_append, List.nil_append]
  after_results <;> rfl

/-- The launch finds argument 7 narrowed to the short float format. -/
theorem staged_Wr1 (c : Dev nD) :
    (V m c main_v25 : S2x8.Idx → Elt F .bf16) = truncf .bf16 (m ((c : Thread nD τ).loc main_arg7)) bitsLt_bf16_f32 := by
  dsimp only [V]
  simp only [hostOps0, hostOps0_1, hostOps0_2, List.flatten_cons, List.flatten_nil, List.append_nil, List.cons_append, List.nil_append]
  after_results <;> rfl

/-- The launch finds argument 8 reshaped to a single row. -/
theorem staged_br1 (c : Dev nD) :
    (V m c main_v31 : S1x8.Idx → Elt F .f32) = shapeCast S1x8 (m ((c : Thread nD τ).loc main_arg8)) shapeCasts_S8_S1x8 := by
  dsimp only [V]
  simp only [hostOps0, hostOps0_1, hostOps0_2, List.flatten_cons, List.flatten_nil, List.append_nil, List.cons_append, List.nil_append]
  after_results <;> rfl

/-- The launch finds argument 9 narrowed to the short float format. -/
theorem staged_Wr2 (c : Dev nD) :
    (V m c main_v26 : S8x4.Idx → Elt F .bf16) = truncf .bf16 (m ((c : Thread nD τ).loc main_arg9)) bitsLt_bf16_f32 := by
  dsimp only [V]
  simp only [hostOps0, hostOps0_1, hostOps0_2, List.flatten_cons, List.flatten_nil, List.append_nil, List.cons_append, List.nil_append]
  after_results <;> rfl

/-- The launch finds argument 10 reshaped to a single row. -/
theorem staged_br2 (c : Dev nD) :
    (V m c main_v32 : S1x4.Idx → Elt F .f32) = shapeCast S1x4 (m ((c : Thread nD τ).loc main_arg10)) shapeCasts_S4_S1x4 := by
  dsimp only [V]
  simp only [hostOps0, hostOps0_1, hostOps0_2, List.flatten_cons, List.flatten_nil, List.append_nil, List.cons_append, List.nil_append]
  after_results <;> rfl

/-- The launch finds argument 11 narrowed to the short float format. -/
theorem staged_Wr3 (c : Dev nD) :
    (V m c main_v27 : S4x1.Idx → Elt F .bf16) = truncf .bf16 (m ((c : Thread nD τ).loc main_arg11)) bitsLt_bf16_f32 := by
  dsimp only [V]
  simp only [hostOps0, hostOps0_1, hostOps0_2, List.flatten_cons, List.flatten_nil, List.append_nil, List.cons_append, List.nil_append]
  after_results <;> rfl

/-- The launch finds argument 12 reshaped to a single row. -/
theorem staged_br3 (c : Dev nD) :
    (V m c main_v33 : S1x1.Idx → Elt F .f32) = shapeCast S1x1 (m ((c : Thread nD τ).loc main_arg12)) shapeCasts_S1_S1x1 := by
  dsimp only [V]
  simp only [hostOps0, hostOps0_1, hostOps0_2, List.flatten_cons, List.flatten_nil, List.append_nil, List.cons_append, List.nil_append]
  after_results <;> rfl

end Cert.KernelIdeal.Bridge

end
-- ==== Proof.LibMatmulRows.lean ====
/-
  GENERAL LEMMAS: the product of an [R, K] matrix with a [K, N] matrix — (A * B)(p, q) = sum over k of A(p, k) * B(k, q) —
  read at an index on extended reals, in the two spellings a kernel and a host program give it. Nothing here mentions a
  program; the extents R, K (the contracted axis: the lanes of A, the rows of B) and N are arbitrary.

  * idx2_ext: two rank-2 indices with the same coordinates are one index.
  * contraction_rows: a contraction of axis 1 of an [R, K] array with axis 0 of a [K, N] array (no batch axes), read at
    (p, q), is the sum over k : Fin K of l (p, k) * r (k, q); the dimension record enters only through four coordinate facts
    about its operand indices and the rank and extent of its contraction shape.
  * matmul_rows: the kernel's spelling — the matrix unit's product into a zero accumulator — at (p, q).
  * hostdot_rows: the host's spelling — dot_general — at (p, q).
  No law of extended-real arithmetic beyond reindexing a finite sum is used, so none of these needs finite inputs.
-/
import Idealize.ShloMosaic.PureOps.Ideal
import Idealize.ShloMosaic.PureOps.Ideal.Laws
import Idealize.ShloMosaic.Lib.ValueIdx

noncomputable section

namespace Cert.LibMatmulRows

open Idealize.ShloMosaic Idealize.ShloMosaic.ValueIdx
open scoped BigOperators

/-- Two rank-2 indices with the same coordinates are one index. -/
theorem idx2_ext {n0 n1 : ℕ} (f g : (⟨2, ![n0, n1]⟩ : Shape).Idx) (h0 : (f 0).val = (g 0).val) (h1 : (f 1).val = (g 1).val) :
    f = g :=
  funext fun d => Fin.ext (by
    match d with
    | ⟨0, _⟩ => exact h0
    | ⟨1, _⟩ => exact h1)

/-- A contraction of the lanes of an [R, K] array with the rows of a [K, N] array, read at (p, q): the sum over k of
    l(p, k) * r(k, q). The dimension record enters through four coordinate facts and the extent of its one contracted
    axis. -/
theorem contraction_rows {R K N : ℕ} (d : DotDims ⟨2, ![R, K]⟩ ⟨2, ![K, N]⟩ ⟨2, ![R, N]⟩)
    (hrank : d.contr.rank = 1) (hsize : d.contr.size ⟨0, by omega⟩ = K)
    (hl0 : ∀ (i : (⟨2, ![R, N]⟩ : Shape).Idx) (s : d.contr.Idx), (d.lhsIdx i s 0).val = (i 0).val)
    (hl1 : ∀ (i : (⟨2, ![R, N]⟩ : Shape).Idx) (s : d.contr.Idx), (d.lhsIdx i s 1).val = (s ⟨0, by omega⟩).val)
    (hr0 : ∀ (i : (⟨2, ![R, N]⟩ : Shape).Idx) (s : d.contr.Idx), (d.rhsIdx i s 0).val = (s ⟨0, by omega⟩).val)
    (hr1 : ∀ (i : (⟨2, ![R, N]⟩ : Shape).Idx) (s : d.contr.Idx), (d.rhsIdx i s 1).val = (i 1).val)
    (l : (⟨2, ![R, K]⟩ : Shape).Idx → EReal) (r : (⟨2, ![K, N]⟩ : Shape).Idx → EReal) (p : Fin R) (q : Fin N) :
    ∑ s : d.contr.Idx, l (d.lhsIdx (ix2 p q) s) * r (d.rhsIdx (ix2 p q) s) = ∑ k : Fin K, l (ix2 p k) * r (ix2 k q) := by
  rw [← Equiv.sum_comp (contrEquiv1 d K hrank hsize).symm]
  refine Finset.sum_congr rfl fun k _ => ?_
  have hk := contrEquiv1_symm_val d K hrank hsize k
  have el : d.lhsIdx (ix2 p q) ((contrEquiv1 d K hrank hsize).symm k) = ix2 p k :=
    idx2_ext _ _ (hl0 _ _) ((hl1 _ _).trans hk)
  have er : d.rhsIdx (ix2 p q) ((contrEquiv1 d K hrank hsize).symm k) = ix2 k q :=
    idx2_ext _ _ ((hr0 _ _).trans hk) (hr1 _ _)
  rw [el, er]

/-- The matrix unit's product into a zero accumulator, read at (p, q). -/
theorem matmul_rows {R K N : ℕ} (d : DotDims ⟨2, ![R, K]⟩ ⟨2, ![K, N]⟩ ⟨2, ![R, N]⟩)
    (hrank : d.contr.rank = 1) (hsize : d.contr.size ⟨0, by omega⟩ = K)
    (hl0 : ∀ (i : (⟨2, ![R, N]⟩ : Shape).Idx) (s : d.contr.Idx), (d.lhsIdx i s 0).val = (i 0).val)
    (hl1 : ∀ (i : (⟨2, ![R, N]⟩ : Shape).Idx) (s : d.contr.Idx), (d.lhsIdx i s 1).val = (s ⟨0, by omega⟩).val)
    (hr0 : ∀ (i : (⟨2, ![R, N]⟩ : Shape).Idx) (s : d.contr.Idx), (d.rhsIdx i s 0).val = (s ⟨0, by omega⟩).val)
    (hr1 : ∀ (i : (⟨2, ![R, N]⟩ : Shape).Idx) (s : d.contr.Idx), (d.rhsIdx i s 1).val = (i 1).val)
    {φ₁ φ₂ : FTy} (l : FVec Ideal ⟨2, ![R, K]⟩ φ₁) (r : FVec Ideal ⟨2, ![K, N]⟩ φ₂) (p : Fin R) (q : Fin N) :
    matmul d none l r (constant (F := Ideal) ⟨2, ![R, N]⟩ .f32 0x00000000#32) (ix2 p q)
      = ∑ k : Fin K, l (ix2 p k) * r (ix2 k q) :=
  (Ideal.matmul_constant_zero_apply d none l r (ix2 p q)).trans
    (contraction_rows d hrank hsize hl0 hl1 hr0 hr1 l r p q)

/-- The host's dot_general, read at (p, q). -/
theorem hostdot_rows {R K N : ℕ} (d : DotDims ⟨2, ![R, K]⟩ ⟨2, ![K, N]⟩ ⟨2, ![R, N]⟩)
    (hrank : d.contr.rank = 1) (hsize : d.contr.size ⟨0, by omega⟩ = K)
    (hl0 : ∀ (i : (⟨2, ![R, N]⟩ : Shape).Idx) (s : d.contr.Idx), (d.lhsIdx i s 0).val = (i 0).val)
    (hl1 : ∀ (i : (⟨2, ![R, N]⟩ : Shape).Idx) (s : d.contr.Idx), (d.lhsIdx i s 1).val = (s ⟨0, by omega⟩).val)
    (hr0 : ∀ (i : (⟨2, ![R, N]⟩ : Shape).Idx) (s : d.contr.Idx), (d.rhsIdx i s 0).val = (s ⟨0, by omega⟩).val)
    (hr1 : ∀ (i : (⟨2, ![R, N]⟩ : Shape).Idx) (s : d.contr.Idx), (d.rhsIdx i s 1).val = (i 1).val)
    (l : FVec Ideal ⟨2, ![R, K]⟩ .f32) (r : FVec Ideal ⟨2, ![K, N]⟩ .f32) (p : Fin R) (q : Fin N) :
    Host.dotGeneral d none l r (ix2 p q) = ∑ k : Fin K, l (ix2 p k) * r (ix2 k q) :=
  (Ideal.dotGeneral_apply d none .single l r (ix2 p q)).trans
    (contraction_rows d hrank hsize hl0 hl1 hr0 hr1 l r p q)

end Cert.LibMatmulRows

end
-- ==== Proof.LibBiasRows.lean ====
/-
  GENERAL LEMMAS: a bias vector laid along the rows of a matrix, read at an entry, in the two spellings a kernel and a
  host program give it. Nothing here mentions a program; the number of rows R and the bias's length n are arbitrary.

  * bias_rows: the kernel's spelling — a length-n vector cast to one row [1, n] and broadcast to [R, n] — at (p, c) is the
    vector at c.
  * bias_host: the host's spelling — a length-n vector broadcast along axis 1 to [1, n] and then along both axes to [R, n]
    — at (r, c) is the vector at c, for n other than 1 (a length-1 axis is the one that a broadcast stretches).
  Both hold for entries of any type: no arithmetic is involved.
-/
import Idealize.ShloMosaic.Lib.Pipeline.Value
import Idealize.ShloMosaic.Lib.ValueLayout
import Idealize.ShloMosaic.Lib.ValueIdx

noncomputable section

namespace Cert.LibBiasRows

open Idealize.ShloMosaic Idealize.ShloMosaic.ValueIdx

variable {α : Type}

/-- A vector of length n cast to one row and laid along R rows reads, at (p, c), the vector at c. -/
theorem bias_rows {R n : ℕ} (b : (⟨1, ![n]⟩ : Shape).Idx → α) (hc : (⟨1, ![n]⟩ : Shape).ShapeCasts ⟨2, ![1, n]⟩)
    (hb : (⟨2, ![1, n]⟩ : Shape).Broadcasts ⟨2, ![R, n]⟩) (p : Fin R) (c : Fin n) :
    broadcastTo ⟨2, ![R, n]⟩ (shapeCast ⟨2, ![1, n]⟩ b hc) hb (ix2 p c) = b (ix1 c) :=
  (broadcastTo_1b_ab_apply _ hb p c).trans (shapeCast_a_1a_apply b hc 0 c)

/-- A vector of length n (n not 1) broadcast to one row and then along R rows reads, at (r, c), the vector at c. -/
theorem bias_host {R n : ℕ} (hn : n ≠ 1) (b : (⟨1, ![n]⟩ : Shape).Idx → α)
    (h1 : (⟨1, ![n]⟩ : Shape).BroadcastsInDim ⟨2, ![1, n]⟩ (![1] : Fin 1 → Fin 2))
    (h2 : (⟨2, ![1, n]⟩ : Shape).BroadcastsInDim ⟨2, ![R, n]⟩ (![0, 1] : Fin 2 → Fin 2)) (r : Fin R) (c : Fin n) :
    broadcastInDim ⟨2, ![R, n]⟩ ![0, 1] h2 (broadcastInDim ⟨2, ![1, n]⟩ ![1] h1 b) (ix2 r c) = b (ix1 c) := by
  refine (broadcastInDim_apply _ h2 _ (ix2 r c) (ix2 (0 : Fin 1) c) fun a => ?_).trans
    (broadcastInDim_apply _ h1 b (ix2 (0 : Fin 1) c) (ix1 c) fun a => ?_)
  · match a with
    | ⟨0, _⟩ => show (0 : ℕ) = if (1 : ℕ) = 1 then 0 else r.val; rw [if_pos rfl]
    | ⟨1, _⟩ => show c.val = if n = 1 then 0 else c.val; rw [if_neg hn]
  · match a with
    | ⟨0, _⟩ => show c.val = if n = 1 then 0 else c.val; rw [if_neg hn]

end Cert.LibBiasRows

end
-- ==== Proof.LibDenseLayers.lean ====
/-
  GENERAL LEMMAS: dense layers as functions on extended reals. Nothing here mentions a program; every extent is arbitrary.

  An affine layer sends a matrix h of R rows and K columns to h · W + b: entry (p, q) is the sum over k of
  h(p, k) * W(k, q), plus b(q). The rectifier replaces every entry by the larger of it and zero. Two compositions
  are named: stage1 = rectifier ∘ affine, and stage2 = affine ∘ affine ∘ rectifier ∘ affine.

  Two facts are proved here, for any extents.
  * ROW-LOCALITY: row p of an affine layer's result depends only on row p of h. So a stage applied to a block of
    consecutive rows of a matrix is that block of rows of the stage applied to the whole matrix: this is what lets a
    computation tiled over blocks of rows be read as one computation on the whole matrix.
  * THE TWO SPELLINGS: a matrix product into a zero accumulator plus a vector cast to one row and laid along the rows,
    and a dot_general plus a vector broadcast twice, are both the affine layer.
  No law of extended-real arithmetic is used beyond re-indexing a finite sum, so nothing here needs finite entries.
-/
import Idealize.ShloMosaic.PureOps.Ideal
import Idealize.ShloMosaic.PureOps.Ideal.Laws
import Idealize.ShloMosaic.Lib.ValueIdx
import proofs.«119023_j65481071408210_1_alg».proof.Proof.LibMatmulRows
import proofs.«119023_j65481071408210_1_alg».proof.Proof.LibBiasRows

noncomputable section

namespace Cert.LibDenseLayers

open Idealize.ShloMosaic Idealize.ShloMosaic.ValueIdx
open scoped BigOperators

/-- Entry (p, q) of the affine layer h · W + b: row p of h against column q of W, plus the bias at q. -/
def affineAt {R K N : ℕ} (h : (⟨2, ![R, K]⟩ : Shape).Idx → EReal) (W : (⟨2, ![K, N]⟩ : Shape).Idx → EReal)
    (b : (⟨1, ![N]⟩ : Shape).Idx → EReal) (p : Fin R) (q : Fin N) : EReal :=
  (∑ k : Fin K, h (ix2 p k) * W (ix2 k q)) + b (ix1 q)

/-- The affine layer h · W + b as a matrix of R rows and N columns. -/
def affine {R K N : ℕ} (h : (⟨2, ![R, K]⟩ : Shape).Idx → EReal) (W : (⟨2, ![K, N]⟩ : Shape).Idx → EReal)
    (b : (⟨1, ![N]⟩ : Shape).Idx → EReal) : (⟨2, ![R, N]⟩ : Shape).Idx → EReal :=
  fun i => affineAt h W b (i 0) (i 1)

/-- The rectifier: every entry replaced by the larger of it and the single-precision zero. -/
def relu {s : Shape} (a : s.Idx → EReal) : s.Idx → EReal :=
  fun i => max (a i) (Ideal.ofBits .f32 0x00000000#32)

/-- The first dense stage: rectified affine layer. -/
def stage1 {R K N : ℕ} (h : (⟨2, ![R, K]⟩ : Shape).Idx → EReal) (W : (⟨2, ![K, N]⟩ : Shape).Idx → EReal)
    (b : (⟨1, ![N]⟩ : Shape).Idx → EReal) : (⟨2, ![R, N]⟩ : Shape).Idx → EReal :=
  relu (affine h W b)

/-- The second dense stage: a rectified affine layer followed by two affine layers. -/
def stage2 {R K N M L : ℕ} (h : (⟨2, ![R, K]⟩ : Shape).Idx → EReal)
    (W2 : (⟨2, ![K, N]⟩ : Shape).Idx → EReal) (b2 : (⟨1, ![N]⟩ : Shape).Idx → EReal)
    (W3 : (⟨2, ![N, M]⟩ : Shape).Idx → EReal) (b3 : (⟨1, ![M]⟩ : Shape).Idx → EReal)
    (W4 : (⟨2, ![M, L]⟩ : Shape).Idx → EReal) (b4 : (⟨1, ![L]⟩ : Shape).Idx → EReal) :
    (⟨2, ![R, L]⟩ : Shape).Idx → EReal :=
  affine (affine (relu (affine h W2 b2)) W3 b3) W4 b4

/-! ## Row-locality -/

/-- Row p of an affine layer of h is row p' of the affine layer of h' when row p of h is row p' of h'. -/
theorem affineAt_congr {R R' K N : ℕ} (h : (⟨2, ![R, K]⟩ : Shape).Idx → EReal) (h' : (⟨2, ![R', K]⟩ : Shape).Idx → EReal)
    (W : (⟨2, ![K, N]⟩ : Shape).Idx → EReal) (b : (⟨1, ![N]⟩ : Shape).Idx → EReal) (p : Fin R) (p' : Fin R')
    (hh : ∀ k : Fin K, h (ix2 p k) = h' (ix2 p' k)) (q : Fin N) :
    affineAt h W b p q = affineAt h' W b p' q := by
  unfold affineAt
  exact congrArg (· + b (ix1 q)) (Finset.sum_congr rfl fun k _ => by rw [hh k])

/-- The first stage on a matrix whose row p is row p' of another: the same row of results. -/
theorem stage1_row {R R' K N : ℕ} (h : (⟨2, ![R, K]⟩ : Shape).Idx → EReal) (h' : (⟨2, ![R', K]⟩ : Shape).Idx → EReal)
    (W : (⟨2, ![K, N]⟩ : Shape).Idx → EReal) (b : (⟨1, ![N]⟩ : Shape).Idx → EReal) (p : Fin R) (p' : Fin R')
    (hh : ∀ k : Fin K, h (ix2 p k) = h' (ix2 p' k)) (q : Fin N) :
    stage1 h W b (ix2 p q) = stage1 h' W b (ix2 p' q) := by
  show max (affineAt h W b p q) _ = max (affineAt h' W b p' q) _
  rw [affineAt_congr h h' W b p p' hh q]

/-- The second stage on a matrix whose row p is row p' of another: the same row of results. -/
theorem stage2_row {R R' K N M L : ℕ} (h : (⟨2, ![R, K]⟩ : Shape).Idx → EReal) (h' : (⟨2, ![R', K]⟩ : Shape).Idx → EReal)
    (W2 : (⟨2, ![K, N]⟩ : Shape).Idx → EReal) (b2 : (⟨1, ![N]⟩ : Shape).Idx → EReal)
    (W3 : (⟨2, ![N, M]⟩ : Shape).Idx → EReal) (b3 : (⟨1, ![M]⟩ : Shape).Idx → EReal)
    (W4 : (⟨2, ![M, L]⟩ : Shape).Idx → EReal) (b4 : (⟨1, ![L]⟩ : Shape).Idx → EReal) (p : Fin R) (p' : Fin R')
    (hh : ∀ k : Fin K, h (ix2 p k) = h' (ix2 p' k)) (q : Fin L) :
    stage2 h W2 b2 W3 b3 W4 b4 (ix2 p q) = stage2 h' W2 b2 W3 b3 W4 b4 (ix2 p' q) := by
  show affineAt (affine (relu (affine h W2 b2)) W3 b3) W4 b4 p q
     = affineAt (affine (relu (affine h' W2 b2)) W3 b3) W4 b4 p' q
  refine affineAt_congr _ _ W4 b4 p p' (fun k => ?_) q
  show affineAt (relu (affine h W2 b2)) W3 b3 p k = affineAt (relu (affine h' W2 b2)) W3 b3 p' k
  refine affineAt_congr _ _ W3 b3 p p' (fun k' => ?_) k
  show max (affineAt h W2 b2 p k') _ = max (affineAt h' W2 b2 p' k') _
  rw [affineAt_congr h h' W2 b2 p p' hh k']

/-! ## The two spellings of an affine layer -/

/-- The matrix unit's product into a zero accumulator, plus a vector cast to one row and laid along the rows, is the
    affine layer. The operands of the product may carry any float format: on extended reals a format is no change. -/
theorem affine_of_matmul {R K N : ℕ} (d : DotDims ⟨2, ![R, K]⟩ ⟨2, ![K, N]⟩ ⟨2, ![R, N]⟩)
    (hrank : d.contr.rank = 1) (hsize : d.contr.size ⟨0, by omega⟩ = K)
    (hl0 : ∀ (i : (⟨2, ![R, N]⟩ : Shape).Idx) (s : d.contr.Idx), (d.lhsIdx i s 0).val = (i 0).val)
    (hl1 : ∀ (i : (⟨2, ![R, N]⟩ : Shape).Idx) (s : d.contr.Idx), (d.lhsIdx i s 1).val = (s ⟨0, by omega⟩).val)
    (hr0 : ∀ (i : (⟨2, ![R, N]⟩ : Shape).Idx) (s : d.contr.Idx), (d.rhsIdx i s 0).val = (s ⟨0, by omega⟩).val)
    (hr1 : ∀ (i : (⟨2, ![R, N]⟩ : Shape).Idx) (s : d.contr.Idx), (d.rhsIdx i s 1).val = (i 1).val)
    (hc : (⟨1, ![N]⟩ : Shape).ShapeCasts ⟨2, ![1, N]⟩) (hb : (⟨2, ![1, N]⟩ : Shape).Broadcasts ⟨2, ![R, N]⟩)
    {φ₁ φ₂ : FTy} (h : FVec Ideal ⟨2, ![R, K]⟩ φ₁) (W : FVec Ideal ⟨2, ![K, N]⟩ φ₂) (b : FVec Ideal ⟨1, ![N]⟩ .f32) :
    addf (matmul d none h W (constant (F := Ideal) ⟨2, ![R, N]⟩ .f32 0x00000000#32))
      (broadcastTo ⟨2, ![R, N]⟩ (shapeCast ⟨2, ![1, N]⟩ b hc) hb) = affine h W b := by
  funext j
  obtain ⟨p, q, rfl⟩ : ∃ (p : Fin R) (q : Fin N), j = ix2 p q := ⟨j 0, j 1, eq_ix2 j⟩
  show matmul d none h W (constant (F := Ideal) ⟨2, ![R, N]⟩ .f32 0x00000000#32) (ix2 p q)
      + broadcastTo ⟨2, ![R, N]⟩ (shapeCast ⟨2, ![1, N]⟩ b hc) hb (ix2 p q) = affineAt h W b p q
  rw [Cert.LibMatmulRows.matmul_rows d hrank hsize hl0 hl1 hr0 hr1 h W p q, Cert.LibBiasRows.bias_rows b hc hb p q]
  rfl

/-- The host's dot_general, plus a vector broadcast to one row and then along the rows, is the affine layer. -/
theorem affine_of_dot {R K N : ℕ} (hN : N ≠ 1) (d : DotDims ⟨2, ![R, K]⟩ ⟨2, ![K, N]⟩ ⟨2, ![R, N]⟩)
    (hrank : d.contr.rank = 1) (hsize : d.contr.size ⟨0, by omega⟩ = K)
    (hl0 : ∀ (i : (⟨2, ![R, N]⟩ : Shape).Idx) (s : d.contr.Idx), (d.lhsIdx i s 0).val = (i 0).val)
    (hl1 : ∀ (i : (⟨2, ![R, N]⟩ : Shape).Idx) (s : d.contr.Idx), (d.lhsIdx i s 1).val = (s ⟨0, by omega⟩).val)
    (hr0 : ∀ (i : (⟨2, ![R, N]⟩ : Shape).Idx) (s : d.contr.Idx), (d.rhsIdx i s 0).val = (s ⟨0, by omega⟩).val)
    (hr1 : ∀ (i : (⟨2, ![R, N]⟩ : Shape).Idx) (s : d.contr.Idx), (d.rhsIdx i s 1).val = (i 1).val)
    (h1 : (⟨1, ![N]⟩ : Shape).BroadcastsInDim ⟨2, ![1, N]⟩ (![1] : Fin 1 → Fin 2))
    (h2 : (⟨2, ![1, N]⟩ : Shape).BroadcastsInDim ⟨2, ![R, N]⟩ (![0, 1] : Fin 2 → Fin 2))
    (h : FVec Ideal ⟨2, ![R, K]⟩ .f32) (W : FVec Ideal ⟨2, ![K, N]⟩ .f32) (b : FVec Ideal ⟨1, ![N]⟩ .f32) :
    addf (Host.dotGeneral d none h W)
      (broadcastInDim ⟨2, ![R, N]⟩ ![0, 1] h2 (broadcastInDim ⟨2, ![1, N]⟩ ![1] h1 b)) = affine h W b := by
  funext j
  obtain ⟨p, q, rfl⟩ : ∃ (p : Fin R) (q : Fin N), j = ix2 p q := ⟨j 0, j 1, eq_ix2 j⟩
  show Host.dotGeneral d none h W (ix2 p q)
      + broadcastInDim ⟨2, ![R, N]⟩ ![0, 1] h2 (broadcastInDim ⟨2, ![1, N]⟩ ![1] h1 b) (ix2 p q) = affineAt h W b p q
  rw [Cert.LibMatmulRows.hostdot_rows d hrank hsize hl0 hl1 hr0 hr1 h W p q, Cert.LibBiasRows.bias_host hN b h1 h2 p q]
  rfl

end Cert.LibDenseLayers

end
-- ==== Proof.LibTanhLayers.lean ====
/-
  GENERAL LEMMAS: dense layers with the hyperbolic tangent between them, as functions on extended reals. Nothing here
  mentions a program; every extent is arbitrary.

  With affine h W b the matrix h · W + b (entry (p, q) the sum over k of h(p, k) * W(k, q), plus b(q)) and tanhAll the
  hyperbolic tangent of every entry, head3 is three affine layers with a tangent after the first and after the second:
      head3 h W1 b1 W2 b2 W3 b3 = affine (tanhAll (affine (tanhAll (affine h W1 b1)) W2 b2)) W3 b3.

  * head3_row — ROW-LOCALITY: row p of head3 of h depends only on row p of h. So head3 of a block of consecutive rows of a
    matrix is that block of rows of head3 of the whole matrix.
  * bias_host_any — a vector of ANY length n broadcast along axis 1 to one row [1, n] and then along both axes to [R, n]
    reads the vector at the column (for n = 1 the one entry, the axis a broadcast stretches).
  * affine_of_dot_any — so a dot_general plus such a doubly broadcast vector is the affine layer, for any N (N = 1: a
    layer with a single output column).
  * tanh_kernel, tanh_host — the entrywise tangent in a kernel's and in a host program's spelling is tanhAll.
  * narrow_eq — narrowing the float format of a vector is no change on extended reals.
  No law of extended-real arithmetic is used beyond re-indexing a finite sum, so nothing here needs finite entries.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import proofs.«119023_j65481071408210_1_alg».proof.Proof.LibDenseLayers

noncomputable section

namespace Cert.LibTanhLayers

open Idealize.ShloMosaic Idealize.ShloMosaic.ValueIdx Cert.LibDenseLayers
open scoped BigOperators

/-- The hyperbolic tangent of every entry (at the infinities its limits -1 and 1). -/
def tanhAll {s : Shape} (a : s.Idx → EReal) : s.Idx → EReal := fun i => Ideal.tanh (a i)

/-- Three affine layers, a tangent after the first and after the second. -/
def head3 {R K N M L : ℕ} (h : (⟨2, ![R, K]⟩ : Shape).Idx → EReal)
    (W1 : (⟨2, ![K, N]⟩ : Shape).Idx → EReal) (b1 : (⟨1, ![N]⟩ : Shape).Idx → EReal)
    (W2 : (⟨2, ![N, M]⟩ : Shape).Idx → EReal) (b2 : (⟨1, ![M]⟩ : Shape).Idx → EReal)
    (W3 : (⟨2, ![M, L]⟩ : Shape).Idx → EReal) (b3 : (⟨1, ![L]⟩ : Shape).Idx → EReal) :
    (⟨2, ![R, L]⟩ : Shape).Idx → EReal :=
  affine (tanhAll (affine (tanhAll (affine h W1 b1)) W2 b2)) W3 b3

/-- Row p of the three layers of h is row p' of the three layers of h' when row p of h is row p' of h'. -/
theorem head3_row {R R' K N M L : ℕ} (h : (⟨2, ![R, K]⟩ : Shape).Idx → EReal) (h' : (⟨2, ![R', K]⟩ : Shape).Idx → EReal)
    (W1 : (⟨2, ![K, N]⟩ : Shape).Idx → EReal) (b1 : (⟨1, ![N]⟩ : Shape).Idx → EReal)
    (W2 : (⟨2, ![N, M]⟩ : Shape).Idx → EReal) (b2 : (⟨1, ![M]⟩ : Shape).Idx → EReal)
    (W3 : (⟨2, ![M, L]⟩ : Shape).Idx → EReal) (b3 : (⟨1, ![L]⟩ : Shape).Idx → EReal) (p : Fin R) (p' : Fin R')
    (hh : ∀ k : Fin K, h (ix2 p k) = h' (ix2 p' k)) (q : Fin L) :
    head3 h W1 b1 W2 b2 W3 b3 (ix2 p q) = head3 h' W1 b1 W2 b2 W3 b3 (ix2 p' q) := by
  show affineAt (tanhAll (affine (tanhAll (affine h W1 b1)) W2 b2)) W3 b3 p q
     = affineAt (tanhAll (affine (tanhAll (affine h' W1 b1)) W2 b2)) W3 b3 p' q
  refine affineAt_congr _ _ W3 b3 p p' (fun k => ?_) q
  show Ideal.tanh (affineAt (tanhAll (affine h W1 b1)) W2 b2 p k)
     = Ideal.tanh (affineAt (tanhAll (affine h' W1 b1)) W2 b2 p' k)
  refine congrArg Ideal.tanh (affineAt_congr _ _ W2 b2 p p' (fun k' => ?_) k)
  show Ideal.tanh (affineAt h W1 b1 p k') = Ideal.tanh (affineAt h' W1 b1 p' k')
  exact congrArg Ideal.tanh (affineAt_congr h h' W1 b1 p p' hh k')

/-- A vector of any length n broadcast to one row and then along R rows reads, at (r, c), the vector at c. -/
theorem bias_host_any {α : Type} {R n : ℕ} (b : (⟨1, ![n]⟩ : Shape).Idx → α)
    (h1 : (⟨1, ![n]⟩ : Shape).BroadcastsInDim ⟨2, ![1, n]⟩ (![1] : Fin 1 → Fin 2))
    (h2 : (⟨2, ![1, n]⟩ : Shape).BroadcastsInDim ⟨2, ![R, n]⟩ (![0, 1] : Fin 2 → Fin 2)) (r : Fin R) (c : Fin n) :
    broadcastInDim ⟨2, ![R, n]⟩ ![0, 1] h2 (broadcastInDim ⟨2, ![1, n]⟩ ![1] h1 b) (ix2 r c) = b (ix1 c) := by
  by_cases hn : n = 1
  · subst hn
    have hc : c.val = 0 := by omega
    refine (broadcastInDim_apply _ h2 _ (ix2 r c) (ix2 (0 : Fin 1) c) fun a => ?_).trans
      (broadcastInDim_apply _ h1 b (ix2 (0 : Fin 1) c) (ix1 c) fun a => ?_)
    · match a with
      | ⟨0, _⟩ => show (0 : ℕ) = if (1 : ℕ) = 1 then 0 else r.val; rw [if_pos rfl]
      | ⟨1, _⟩ => show c.val = if (1 : ℕ) = 1 then 0 else c.val; rw [if_pos rfl]; exact hc
    · match a with
      | ⟨0, _⟩ => show c.val = if (1 : ℕ) = 1 then 0 else c.val; rw [if_pos rfl]; exact hc
  · exact Cert.LibBiasRows.bias_host hn b h1 h2 r c

/-- The host's dot_general, plus a vector broadcast to one row and then along the rows, is the affine layer — for any
    number N of output columns. -/
theorem affine_of_dot_any {R K N : ℕ} (d : DotDims ⟨2, ![R, K]⟩ ⟨2, ![K, N]⟩ ⟨2, ![R, N]⟩)
    (hrank : d.contr.rank = 1) (hsize : d.contr.size ⟨0, by omega⟩ = K)
    (hl0 : ∀ (i : (⟨2, ![R, N]⟩ : Shape).Idx) (s : d.contr.Idx), (d.lhsIdx i s 0).val = (i 0).val)
    (hl1 : ∀ (i : (⟨2, ![R, N]⟩ : Shape).Idx) (s : d.contr.Idx), (d.lhsIdx i s 1).val = (s ⟨0, by omega⟩).val)
    (hr0 : ∀ (i : (⟨2, ![R, N]⟩ : Shape).Idx) (s : d.contr.Idx), (d.rhsIdx i s 0).val = (s ⟨0, by omega⟩).val)
    (hr1 : ∀ (i : (⟨2, ![R, N]⟩ : Shape).Idx) (s : d.contr.Idx), (d.rhsIdx i s 1).val = (i 1).val)
    (h1 : (⟨1, ![N]⟩ : Shape).BroadcastsInDim ⟨2, ![1, N]⟩ (![1] : Fin 1 → Fin 2))
    (h2 : (⟨2, ![1, N]⟩ : Shape).BroadcastsInDim ⟨2, ![R, N]⟩ (![0, 1] : Fin 2 → Fin 2))
    (h : FVec Ideal ⟨2, ![R, K]⟩ .f32) (W : FVec Ideal ⟨2, ![K, N]⟩ .f32) (b : FVec Ideal ⟨1, ![N]⟩ .f32) :
    addf (Host.dotGeneral d none h W)
      (broadcastInDim ⟨2, ![R, N]⟩ ![0, 1] h2 (broadcastInDim ⟨2, ![1, N]⟩ ![1] h1 b)) = affine h W b := by
  funext j
  obtain ⟨p, q, rfl⟩ : ∃ (p : Fin R) (q : Fin N), j = ix2 p q := ⟨j 0, j 1, eq_ix2 j⟩
  show Host.dotGeneral d none h W (ix2 p q)
      + broadcastInDim ⟨2, ![R, N]⟩ ![0, 1] h2 (broadcastInDim ⟨2, ![1, N]⟩ ![1] h1 b) (ix2 p q) = affineAt h W b p q
  rw [Cert.LibMatmulRows.hostdot_rows d hrank hsize hl0 hl1 hr0 hr1 h W p q, bias_host_any b h1 h2 p q]
  rfl

/-- A kernel's entrywise tangent is tanhAll. -/
theorem tanh_kernel {s : Shape} (a : FVec Ideal s .f32) : tanh a = tanhAll a := rfl

/-- A host program's entrywise tangent is tanhAll. -/
theorem tanh_host {s : Shape} (a : FVec Ideal s .f32) : Host.tanh a = tanhAll a := rfl

/-- Narrowing the float format of a vector changes nothing on extended reals. -/
theorem narrow_eq {s : Shape} {φ ψ : FTy} (a : FVec Ideal s φ) (hb : ψ.bits < φ.bits) :
    truncf ψ a hb = (a : s.Idx → EReal) := rfl

end Cert.LibTanhLayers

end
-- ==== Proof.PayloadLayers.lean ====
/-
  THE KERNEL'S TWO STORED VALUES AS THREE AFFINE LAYERS.

  On extended reals the kernel computes, for a block of 256 rows, each of the two values it stores as a matrix product
  into a zero accumulator plus a one-row array laid along the rows, three times over, with the hyperbolic tangent of
  every entry after the first and after the second; between the layers it narrows the float format and recasts an
  array to its own shape, neither of which changes a value. With affine h W b the matrix h · W + b and
      head3 h W1 b1 W2 b2 W3 b3 = affine (tanhAll (affine (tanhAll (affine h W1 b1)) W2 b2)) W3 b3,
  the two theorems here say that each stored value IS head3 of what was loaded, once the one-row arrays are read as
  the vectors they are a reshape of: the wide head on 6 columns through layers of 2048, 2048 and 1 columns, and the
  narrow head on 2 columns through layers of 8, 4 and 1 columns.

  For each of the six products the module first records which coordinates it reads: the left operand at (row of the
  result, summation index) and the right operand at (summation index, column of the result). These are the hypotheses
  under which a product into a zero accumulator plus a vector cast to one row and laid along the rows is the affine
  layer. Nothing about the entries is used, so the operands may be any extended reals.
-/
import proofs.«119023_j65481071408210_1_alg».proof.Proof.Gen.KernelIdeal.Skeleton
import proofs.«119023_j65481071408210_1_alg».proof.Proof.LibTanhLayers
import Idealize.ShloMosaic.Lib.Pipeline.Value

noncomputable section

namespace Cert.KernelIdeal.Bridge

open Cert.KernelIdeal Cert.KernelIdeal.Gen Cert.LibDenseLayers Cert.LibTanhLayers
open Idealize.ShloMosaic

/-! ## Which coordinates each product reads -/

/-! Coordinates read by the wide head's first product (256 by 6 against 6 by 2048): the left operand at (row of the result, summation index), the right operand at
(summation index, column of the result). -/

theorem lhs_logits1_0 (i : S256x2048.Idx) (q : dot_S256x6_S6x2048_S256x2048_1_0_0_1_n_n.contr.Idx) :
    (dot_S256x6_S6x2048_S256x2048_1_0_0_1_n_n.lhsIdx i q 0).val = (i 0).val := by
  unfold DotDims.lhsIdx
  rw [dif_neg (show ¬(0 : Fin S256x6.rank) ∈ dot_S256x6_S6x2048_S256x2048_1_0_0_1_n_n.lhsBatch by decide), dif_pos (show (0 : Fin S256x6.rank) ∈ dot_S256x6_S6x2048_S256x2048_1_0_0_1_n_n.lhsNonContracting by decide)]
  rfl
theorem lhs_logits1_1 (i : S256x2048.Idx) (q : dot_S256x6_S6x2048_S256x2048_1_0_0_1_n_n.contr.Idx) :
    (dot_S256x6_S6x2048_S256x2048_1_0_0_1_n_n.lhsIdx i q 1).val = (q ⟨0, by decide⟩).val :=
  dot_S256x6_S6x2048_S256x2048_1_0_0_1_n_n.lhsIdx_val_of_single rfl i q
theorem rhs_logits1_0 (i : S256x2048.Idx) (q : dot_S256x6_S6x2048_S256x2048_1_0_0_1_n_n.contr.Idx) :
    (dot_S256x6_S6x2048_S256x2048_1_0_0_1_n_n.rhsIdx i q 0).val = (q ⟨0, by decide⟩).val :=
  dot_S256x6_S6x2048_S256x2048_1_0_0_1_n_n.rhsIdx_val_of_single rfl i q
theorem rhs_logits1_1 (i : S256x2048.Idx) (q : dot_S256x6_S6x2048_S256x2048_1_0_0_1_n_n.contr.Idx) :
    (dot_S256x6_S6x2048_S256x2048_1_0_0_1_n_n.rhsIdx i q 1).val = (i 1).val := by
  unfold DotDims.rhsIdx
  rw [dif_neg (show ¬(1 : Fin S6x2048.rank) ∈ dot_S256x6_S6x2048_S256x2048_1_0_0_1_n_n.rhsBatch by decide), dif_pos (show (1 : Fin S6x2048.rank) ∈ dot_S256x6_S6x2048_S256x2048_1_0_0_1_n_n.rhsNonContracting by decide)]
  rfl

/-! Coordinates read by the wide head's second product (256 by 2048 against 2048 by 2048): the left operand at (row of the result, summation index), the right operand at
(summation index, column of the result). -/

theorem lhs_logits2_0 (i : S256x2048.Idx) (q : dot_S256x2048_S2048x2048_S256x2048_1_0_0_1_n_n.contr.Idx) :
    (dot_S256x2048_S2048x2048_S256x2048_1_0_0_1_n_n.lhsIdx i q 0).val = (i 0).val := by
  unfold DotDims.lhsIdx
  rw [dif_neg (show ¬(0 : Fin S256x2048.rank) ∈ dot_S256x2048_S2048x2048_S256x2048_1_0_0_1_n_n.lhsBatch by decide), dif_pos (show (0 : Fin S256x2048.rank) ∈ dot_S256x2048_S2048x2048_S256x2048_1_0_0_1_n_n.lhsNonContracting by decide)]
  rfl
theorem lhs_logits2_1 (i : S256x2048.Idx) (q : dot_S256x2048_S2048x2048_S256x2048_1_0_0_1_n_n.contr.Idx) :
    (dot_S256x2048_S2048x2048_S256x2048_1_0_0_1_n_n.lhsIdx i q 1).val = (q ⟨0, by decide⟩).val :=
  dot_S256x2048_S2048x2048_S256x2048_1_0_0_1_n_n.lhsIdx_val_of_single rfl i q
theorem rhs_logits2_0 (i : S256x2048.Idx) (q : dot_S256x2048_S2048x2048_S256x2048_1_0_0_1_n_n.contr.Idx) :
    (dot_S256x2048_S2048x2048_S256x2048_1_0_0_1_n_n.rhsIdx i q 0).val = (q ⟨0, by decide⟩).val :=
  dot_S256x2048_S2048x2048_S256x2048_1_0_0_1_n_n.rhsIdx_val_of_single rfl i q
theorem rhs_logits2_1 (i : S256x2048.Idx) (q : dot_S256x2048_S2048x2048_S256x2048_1_0_0_1_n_n.contr.Idx) :
    (dot_S256x2048_S2048x2048_S256x2048_1_0_0_1_n_n.rhsIdx i q 1).val = (i 1).val := by
  unfold DotDims.rhsIdx
  rw [dif_neg (show ¬(1 : Fin S2048x2048.rank) ∈ dot_S256x2048_S2048x2048_S256x2048_1_0_0_1_n_n.rhsBatch by decide), dif_pos (show (1 : Fin S2048x2048.rank) ∈ dot_S256x2048_S2048x2048_S256x2048_1_0_0_1_n_n.rhsNonContracting by decide)]
  rfl

/-! Coordinates read by the wide head's third product (256 by 2048 against 2048 by 1): the left operand at (row of the result, summation index), the right operand at
(summation index, column of the result). -/

theorem lhs_logits3_0 (i : S256x1.Idx) (q : dot_S256x2048_S2048x1_S256x1_1_0_0_1_n_n.contr.Idx) :
    (dot_S256x2048_S2048x1_S256x1_1_0_0_1_n_n.lhsIdx i q 0).val = (i 0).val := by
  unfold DotDims.lhsIdx
  rw [dif_neg (show ¬(0 : Fin S256x2048.rank) ∈ dot_S256x2048_S2048x1_S256x1_1_0_0_1_n_n.lhsBatch by decide), dif_pos (show (0 : Fin S256x2048.rank) ∈ dot_S256x2048_S2048x1_S256x1_1_0_0_1_n_n.lhsNonContracting by decide)]
  rfl
theorem lhs_logits3_1 (i : S256x1.Idx) (q : dot_S256x2048_S2048x1_S256x1_1_0_0_1_n_n.contr.Idx) :
    (dot_S256x2048_S2048x1_S256x1_1_0_0_1_n_n.lhsIdx i q 1).val = (q ⟨0, by decide⟩).val :=
  dot_S256x2048_S2048x1_S256x1_1_0_0_1_n_n.lhsIdx_val_of_single rfl i q
theorem rhs_logits3_0 (i : S256x1.Idx) (q : dot_S256x2048_S2048x1_S256x1_1_0_0_1_n_n.contr.Idx) :
    (dot_S256x2048_S2048x1_S256x1_1_0_0_1_n_n.rhsIdx i q 0).val = (q ⟨0, by decide⟩).val :=
  dot_S256x2048_S2048x1_S256x1_1_0_0_1_n_n.rhsIdx_val_of_single rfl i q
theorem rhs_logits3_1 (i : S256x1.Idx) (q : dot_S256x2048_S2048x1_S256x1_1_0_0_1_n_n.contr.Idx) :
    (dot_S256x2048_S2048x1_S256x1_1_0_0_1_n_n.rhsIdx i q 1).val = (i 1).val := by
  unfold DotDims.rhsIdx
  rw [dif_neg (show ¬(1 : Fin S2048x1.rank) ∈ dot_S256x2048_S2048x1_S256x1_1_0_0_1_n_n.rhsBatch by decide), dif_pos (show (1 : Fin S2048x1.rank) ∈ dot_S256x2048_S2048x1_S256x1_1_0_0_1_n_n.rhsNonContracting by decide)]
  rfl

/-! Coordinates read by the narrow head's first product (256 by 2 against 2 by 8): the left operand at (row of the result, summation index), the right operand at
(summation index, column of the result). -/

theorem lhs_risk1_0 (i : S256x8.Idx) (q : dot_S256x2_S2x8_S256x8_1_0_0_1_n_n.contr.Idx) :
    (dot_S256x2_S2x8_S256x8_1_0_0_1_n_n.lhsIdx i q 0).val = (i 0).val := by
  unfold DotDims.lhsIdx
  rw [dif_neg (show ¬(0 : Fin S256x2.rank) ∈ dot_S256x2_S2x8_S256x8_1_0_0_1_n_n.lhsBatch by decide), dif_pos (show (0 : Fin S256x2.rank) ∈ dot_S256x2_S2x8_S256x8_1_0_0_1_n_n.lhsNonContracting by decide)]
  rfl
theorem lhs_risk1_1 (i : S256x8.Idx) (q : dot_S256x2_S2x8_S256x8_1_0_0_1_n_n.contr.Idx) :
    (dot_S256x2_S2x8_S256x8_1_0_0_1_n_n.lhsIdx i q 1).val = (q ⟨0, by decide⟩).val :=
  dot_S256x2_S2x8_S256x8_1_0_0_1_n_n.lhsIdx_val_of_single rfl i q
theorem rhs_risk1_0 (i : S256x8.Idx) (q : dot_S256x2_S2x8_S256x8_1_0_0_1_n_n.contr.Idx) :
    (dot_S256x2_S2x8_S256x8_1_0_0_1_n_n.rhsIdx i q 0).val = (q ⟨0, by decide⟩).val :=
  dot_S256x2_S2x8_S256x8_1_0_0_1_n_n.rhsIdx_val_of_single rfl i q
theorem rhs_risk1_1 (i : S256x8.Idx) (q : dot_S256x2_S2x8_S256x8_1_0_0_1_n_n.contr.Idx) :
    (dot_S256x2_S2x8_S256x8_1_0_0_1_n_n.rhsIdx i q 1).val = (i 1).val := by
  unfold DotDims.rhsIdx
  rw [dif_neg (show ¬(1 : Fin S2x8.rank) ∈ dot_S256x2_S2x8_S256x8_1_0_0_1_n_n.rhsBatch by decide), dif_pos (show (1 : Fin S2x8.rank) ∈ dot_S256x2_S2x8_S256x8_1_0_0_1_n_n.rhsNonContracting by decide)]
  rfl

/-! Coordinates read by the narrow head's second product (256 by 8 against 8 by 4): the left operand at (row of the result, summation index), the right operand at
(summation index, column of the result). -/

theorem lhs_risk2_0 (i : S256x4.Idx) (q : dot_S256x8_S8x4_S256x4_1_0_0_1_n_n.contr.Idx) :
    (dot_S256x8_S8x4_S256x4_1_0_0_1_n_n.lhsIdx i q 0).val = (i 0).val := by
  unfold DotDims.lhsIdx
  rw [dif_neg (show ¬(0 : Fin S256x8.rank) ∈ dot_S256x8_S8x4_S256x4_1_0_0_1_n_n.lhsBatch by decide), dif_pos (show (0 : Fin S256x8.rank) ∈ dot_S256x8_S8x4_S256x4_1_0_0_1_n_n.lhsNonContracting by decide)]
  rfl
theorem lhs_risk2_1 (i : S256x4.Idx) (q : dot_S256x8_S8x4_S256x4_1_0_0_1_n_n.contr.Idx) :
    (dot_S256x8_S8x4_S256x4_1_0_0_1_n_n.lhsIdx i q 1).val = (q ⟨0, by decide⟩).val :=
  dot_S256x8_S8x4_S256x4_1_0_0_1_n_n.lhsIdx_val_of_single rfl i q
theorem rhs_risk2_0 (i : S256x4.Idx) (q : dot_S256x8_S8x4_S256x4_1_0_0_1_n_n.contr.Idx) :
    (dot_S256x8_S8x4_S256x4_1_0_0_1_n_n.rhsIdx i q 0).val = (q ⟨0, by decide⟩).val :=
  dot_S256x8_S8x4_S256x4_1_0_0_1_n_n.rhsIdx_val_of_single rfl i q
theorem rhs_risk2_1 (i : S256x4.Idx) (q : dot_S256x8_S8x4_S256x4_1_0_0_1_n_n.contr.Idx) :
    (dot_S256x8_S8x4_S256x4_1_0_0_1_n_n.rhsIdx i q 1).val = (i 1).val := by
  unfold DotDims.rhsIdx
  rw [dif_neg (show ¬(1 : Fin S8x4.rank) ∈ dot_S256x8_S8x4_S256x4_1_0_0_1_n_n.rhsBatch by decide), dif_pos (show (1 : Fin S8x4.rank) ∈ dot_S256x8_S8x4_S256x4_1_0_0_1_n_n.rhsNonContracting by decide)]
  rfl

/-! Coordinates read by the narrow head's third product (256 by 4 against 4 by 1): the left operand at (row of the result, summation index), the right operand at
(summation index, column of the result). -/

theorem lhs_risk3_0 (i : S256x1.Idx) (q : dot_S256x4_S4x1_S256x1_1_0_0_1_n_n.contr.Idx) :
    (dot_S256x4_S4x1_S256x1_1_0_0_1_n_n.lhsIdx i q 0).val = (i 0).val := by
  unfold DotDims.lhsIdx
  rw [dif_neg (show ¬(0 : Fin S256x4.rank) ∈ dot_S256x4_S4x1_S256x1_1_0_0_1_n_n.lhsBatch by decide), dif_pos (show (0 : Fin S256x4.rank) ∈ dot_S256x4_S4x1_S256x1_1_0_0_1_n_n.lhsNonContracting by decide)]
  rfl
theorem lhs_risk3_1 (i : S256x1.Idx) (q : dot_S256x4_S4x1_S256x1_1_0_0_1_n_n.contr.Idx) :
    (dot_S256x4_S4x1_S256x1_1_0_0_1_n_n.lhsIdx i q 1).val = (q ⟨0, by decide⟩).val :=
  dot_S256x4_S4x1_S256x1_1_0_0_1_n_n.lhsIdx_val_of_single rfl i q
theorem rhs_risk3_0 (i : S256x1.Idx) (q : dot_S256x4_S4x1_S256x1_1_0_0_1_n_n.contr.Idx) :
    (dot_S256x4_S4x1_S256x1_1_0_0_1_n_n.rhsIdx i q 0).val = (q ⟨0, by decide⟩).val :=
  dot_S256x4_S4x1_S256x1_1_0_0_1_n_n.rhsIdx_val_of_single rfl i q
theorem rhs_risk3_1 (i : S256x1.Idx) (q : dot_S256x4_S4x1_S256x1_1_0_0_1_n_n.contr.Idx) :
    (dot_S256x4_S4x1_S256x1_1_0_0_1_n_n.rhsIdx i q 1).val = (i 1).val := by
  unfold DotDims.rhsIdx
  rw [dif_neg (show ¬(1 : Fin S4x1.rank) ∈ dot_S256x4_S4x1_S256x1_1_0_0_1_n_n.rhsBatch by decide), dif_pos (show (1 : Fin S4x1.rank) ∈ dot_S256x4_S4x1_S256x1_1_0_0_1_n_n.rhsNonContracting by decide)]
  rfl

/-! ## The two stored values -/

/-- The value stored for the wide head, from a block v0 of 256 rows and 6 columns:
    tanh(tanh(v0 · W1 + b1) · W2 + b2) · W3 + b3 with layers of 2048, 2048 and 1 columns, the one-row arrays being the
    reshapes of the vectors b1, b2, b3. Recasting to the same shape and narrowing the format change nothing. -/
theorem logits_payload (v0 : Vec Ideal S256x6 .f32) (W1 : Vec Ideal S6x2048 .bf16) (b1 : Vec Ideal S2048 .f32)
    (W2 : Vec Ideal S2048x2048 .bf16) (b2 : Vec Ideal S2048 .f32) (W3 : Vec Ideal S2048x1 .bf16)
    (b3 : Vec Ideal S1 .f32) :
    k0_pay2 (F := Ideal) v0 W1 (shapeCast S1x2048 b1 shapeCasts_S2048_S1x2048) W2 (shapeCast S1x2048 b2 shapeCasts_S2048_S1x2048) W3 (shapeCast S1x1 b3 shapeCasts_S1_S1x1)
      = head3 v0 W1 b1 W2 b2 W3 b3 := by
  unfold k0_pay2
  simp only [shapeCast_self]
  rw [affine_of_matmul dot_S256x6_S6x2048_S256x2048_1_0_0_1_n_n rfl rfl
        lhs_logits1_0 lhs_logits1_1 rhs_logits1_0 rhs_logits1_1
        shapeCasts_S2048_S1x2048 broadcasts_S1x2048_S256x2048
        (truncf (F := Ideal) .bf16 v0 bitsLt_bf16_f32) W1 b1,
      narrow_eq v0 bitsLt_bf16_f32,
      tanh_kernel (affine v0 W1 b1),
      affine_of_matmul dot_S256x2048_S2048x2048_S256x2048_1_0_0_1_n_n rfl rfl
        lhs_logits2_0 lhs_logits2_1 rhs_logits2_0 rhs_logits2_1
        shapeCasts_S2048_S1x2048 broadcasts_S1x2048_S256x2048
        (truncf (F := Ideal) .bf16 (tanhAll (affine v0 W1 b1)) bitsLt_bf16_f32) W2 b2,
      narrow_eq (tanhAll (affine v0 W1 b1)) bitsLt_bf16_f32,
      tanh_kernel (affine (tanhAll (affine v0 W1 b1)) W2 b2),
      affine_of_matmul dot_S256x2048_S2048x1_S256x1_1_0_0_1_n_n rfl rfl
        lhs_logits3_0 lhs_logits3_1 rhs_logits3_0 rhs_logits3_1
        shapeCasts_S1_S1x1 broadcasts_S1x1_S256x1
        (truncf (F := Ideal) .bf16 (tanhAll (affine (tanhAll (affine v0 W1 b1)) W2 b2)) bitsLt_bf16_f32) W3 b3,
      narrow_eq (tanhAll (affine (tanhAll (affine v0 W1 b1)) W2 b2)) bitsLt_bf16_f32]
  rfl

/-- The value stored for the narrow head, from a block x of 256 rows and 2 columns:
    tanh(tanh(x · W1 + b1) · W2 + b2) · W3 + b3 with layers of 8, 4 and 1 columns, the one-row arrays being the
    reshapes of the vectors b1, b2, b3. The first product is computed ahead of the rest; it is the same product. -/
theorem risk_payload (x : Vec Ideal S256x2 .f32) (W1 : Vec Ideal S2x8 .bf16) (b1 : Vec Ideal S8 .f32)
    (W2 : Vec Ideal S8x4 .bf16) (b2 : Vec Ideal S4 .f32) (W3 : Vec Ideal S4x1 .bf16) (b3 : Vec Ideal S1 .f32) :
    k0_pay1 (F := Ideal) (k0_pay3 (F := Ideal) x W1) (shapeCast S1x8 b1 shapeCasts_S8_S1x8) W2 (shapeCast S1x4 b2 shapeCasts_S4_S1x4) W3 (shapeCast S1x1 b3 shapeCasts_S1_S1x1)
      = head3 x W1 b1 W2 b2 W3 b3 := by
  unfold k0_pay1 k0_pay3
  simp only [shapeCast_self]
  rw [affine_of_matmul dot_S256x2_S2x8_S256x8_1_0_0_1_n_n rfl rfl
        lhs_risk1_0 lhs_risk1_1 rhs_risk1_0 rhs_risk1_1
        shapeCasts_S8_S1x8 broadcasts_S1x8_S256x8
        (truncf (F := Ideal) .bf16 x bitsLt_bf16_f32) W1 b1,
      narrow_eq x bitsLt_bf16_f32,
      tanh_kernel (affine x W1 b1),
      affine_of_matmul dot_S256x8_S8x4_S256x4_1_0_0_1_n_n rfl rfl
        lhs_risk2_0 lhs_risk2_1 rhs_risk2_0 rhs_risk2_1
        shapeCasts_S4_S1x4 broadcasts_S1x4_S256x4
        (truncf (F := Ideal) .bf16 (tanhAll (affine x W1 b1)) bitsLt_bf16_f32) W2 b2,
      narrow_eq (tanhAll (affine x W1 b1)) bitsLt_bf16_f32,
      tanh_kernel (affine (tanhAll (affine x W1 b1)) W2 b2),
      affine_of_matmul dot_S256x4_S4x1_S256x1_1_0_0_1_n_n rfl rfl
        lhs_risk3_0 lhs_risk3_1 rhs_risk3_0 rhs_risk3_1
        shapeCasts_S1_S1x1 broadcasts_S1x1_S256x1
        (truncf (F := Ideal) .bf16 (tanhAll (affine (tanhAll (affine x W1 b1)) W2 b2)) bitsLt_bf16_f32) W3 b3,
      narrow_eq (tanhAll (affine (tanhAll (affine x W1 b1)) W2 b2)) bitsLt_bf16_f32]
  rfl

end Cert.KernelIdeal.Bridge

end
-- ==== Proof.BlocksToArray.lean ====
/-
  The kernel's two result arrays after the run, on extended reals, each as ONE function of the argument arrays.

  With head3 the three affine layers with a tangent after the first two (LibTanhLayers) and features the feature matrix
  (EntryValues):
      logitsAll = head3 (features x) W1 b1 W2 b2 Wc bc,        riskAll = head3 x Wr1 br1 Wr2 br2 Wr3 br3,
  both [32768, 1] columns. The kernel computes them 256 rows at a time:
  * grid_rows, grid_fixed: at grid point t the windows of x, of the feature matrix and of the two results are at block
    row t; the twelve other windows are the whole of their arrays.
  * block_whole_W: so each of those twelve blocks is its array; row p of point t's block of x or of the feature matrix
    is row 256·t + p of the array.
  * wrote_logits, wrote_risk: what point t writes back is block t of logitsAll (riskAll) — the body's value there is
    head3 of the point's block of rows, and head3 of a block of rows is that block of rows of head3 (row-locality).
  * every row lies in the block of point row / 256, so the blocks cover each result array: final_logits, final_risk.
  * value_run: the program's run with both result arrays at these functions and the thirteen arguments as given.
-/
import proofs.«119023_j65481071408210_1_alg».proof.Proof.RunIdeal
import proofs.«119023_j65481071408210_1_alg».proof.Proof.EntryValues
import proofs.«119023_j65481071408210_1_alg».proof.Proof.PayloadLayers
import proofs.«119023_j65481071408210_1_alg».proof.Proof.LibTanhLayers
import Idealize.ShloMosaic.Lib.Pipeline.Value
import Idealize.ShloMosaic.Lib.ValueIdx

set_option maxRecDepth 16384

noncomputable section

namespace Cert.KernelIdeal.Bridge

open Cert.KernelIdeal Cert.KernelIdeal.Gen Cert.KernelIdeal.Hand
open Cert.LibDenseLayers Cert.LibTanhLayers Cert.LibMatmulRows
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-! ## The two results as functions of the arguments -/

/-- The classifier's column of logits for the whole batch on core c. -/
def logitsAll (c : Dev nD) : S32768x1.Idx → EReal :=
  head3 (features (F := Ideal) (m ((c : Thread nD τ).loc main_arg0) : S32768x2.Idx → EReal)) (m ((c : Thread nD τ).loc main_arg1) : S6x2048.Idx → EReal) (m ((c : Thread nD τ).loc main_arg2) : S2048.Idx → EReal) (m ((c : Thread nD τ).loc main_arg3) : S2048x2048.Idx → EReal) (m ((c : Thread nD τ).loc main_arg4) : S2048.Idx → EReal) (m ((c : Thread nD τ).loc main_arg5) : S2048x1.Idx → EReal) (m ((c : Thread nD τ).loc main_arg6) : S1.Idx → EReal)

/-- The regressor's column of risks for the whole batch on core c. -/
def riskAll (c : Dev nD) : S32768x1.Idx → EReal :=
  head3 (m ((c : Thread nD τ).loc main_arg0) : S32768x2.Idx → EReal) (m ((c : Thread nD τ).loc main_arg7) : S2x8.Idx → EReal) (m ((c : Thread nD τ).loc main_arg8) : S8.Idx → EReal) (m ((c : Thread nD τ).loc main_arg9) : S8x4.Idx → EReal) (m ((c : Thread nD τ).loc main_arg10) : S4.Idx → EReal) (m ((c : Thread nD τ).loc main_arg11) : S4x1.Idx → EReal) (m ((c : Thread nD τ).loc main_arg12) : S1.Idx → EReal)

/-! ## Where each window's block lies -/

theorem zeros2 : (![0, 0] : Fin 2 → Nat) = fun _ => 0 := funext fun a => by fin_cases a <;> rfl

/-- At grid point t the windows of x, of the feature matrix and of the two results sit at block row t, column block 0. -/
theorem grid_rows : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_14.index t (0 : Fin 2) = t.val ∧ win0_14.index t (1 : Fin 2) = 0)
    ∧ (win0_15.index t (0 : Fin 2) = t.val ∧ win0_15.index t (1 : Fin 2) = 0) :=
  (by decide +kernel : ∀ t : Fin grid0.N, _)

/-- The twelve other windows sit at block (0, 0) at every point. -/
theorem grid_fixed : ∀ t : Fin cfg0.N,
    (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 2) = 0 ∧ win0_10.index t (1 : Fin 2) = 0)
    ∧ (win0_11.index t (0 : Fin 2) = 0 ∧ win0_11.index t (1 : Fin 2) = 0)
    ∧ (win0_12.index t (0 : Fin 2) = 0 ∧ win0_12.index t (1 : Fin 2) = 0)
    ∧ (win0_13.index t (0 : Fin 2) = 0 ∧ win0_13.index t (1 : Fin 2) = 0) :=
  (by decide +kernel : ∀ t : Fin grid0.N, _)

/-- Window 2 is the whole of its array at every point. -/
theorem block_whole_2 (c : Dev nD) (t : Fin cfg0.N) (y : S6x2048.Idx) : blockAt m c 2 t y = V m c main_v22 y := by
  show V m c main_v22 (((cfg0.win 2).blk t).view.emb y) = V m c main_v22 y
  refine congrArg _ (funext fun a => Fin.ext ?_)
  obtain ⟨h0, h1⟩ := (grid_fixed t).1
  match a with
  | ⟨0, _⟩ => show win0_2.index t (0 : Fin 2) * 6 + 1 * (y 0).val = (y 0).val; omega
  | ⟨1, _⟩ => show win0_2.index t (1 : Fin 2) * 2048 + 1 * (y 1).val = (y 1).val; omega

/-- Window 3 is the whole of its array at every point. -/
theorem block_whole_3 (c : Dev nD) (t : Fin cfg0.N) (y : S1x2048.Idx) : blockAt m c 3 t y = V m c main_v28 y := by
  show V m c main_v28 (((cfg0.win 3).blk t).view.emb y) = V m c main_v28 y
  refine congrArg _ (funext fun a => Fin.ext ?_)
  obtain ⟨h0, h1⟩ := (grid_fixed t).2.1
  match a with
  | ⟨0, _⟩ => show win0_3.index t (0 : Fin 2) * 1 + 1 * (y 0).val = (y 0).val; omega
  | ⟨1, _⟩ => show win0_3.index t (1 : Fin 2) * 2048 + 1 * (y 1).val = (y 1).val; omega

/-- Window 4 is the whole of its array at every point. -/
theorem block_whole_4 (c : Dev nD) (t : Fin cfg0.N) (y : S2048x2048.Idx) : blockAt m c 4 t y = V m c main_v23 y := by
  show V m c main_v23 (((cfg0.win 4).blk t).view.emb y) = V m c main_v23 y
  refine congrArg _ (funext fun a => Fin.ext ?_)
  obtain ⟨h0, h1⟩ := (grid_fixed t).2.2.1
  match a with
  | ⟨0, _⟩ => show win0_4.index t (0 : Fin 2) * 2048 + 1 * (y 0).val = (y 0).val; omega
  | ⟨1, _⟩ => show win0_4.index t (1 : Fin 2) * 2048 + 1 * (y 1).val = (y 1).val; omega

/-- Window 5 is the whole of its array at every point. -/
theorem block_whole_5 (c : Dev nD) (t : Fin cfg0.N) (y : S1x2048.Idx) : blockAt m c 5 t y = V m c main_v29 y := by
  show V m c main_v29 (((cfg0.win 5).blk t).view.emb y) = V m c main_v29 y
  refine congrArg _ (funext fun a => Fin.ext ?_)
  obtain ⟨h0, h1⟩ := (grid_fixed t).2.2.2.1
  match a with
  | ⟨0, _⟩ => show win0_5.index t (0 : Fin 2) * 1 + 1 * (y 0).val = (y 0).val; omega
  | ⟨1, _⟩ => show win0_5.index t (1 : Fin 2) * 2048 + 1 * (y 1).val = (y 1).val; omega

/-- Window 6 is the whole of its array at every point. -/
theorem block_whole_6 (c : Dev nD) (t : Fin cfg0.N) (y : S2048x1.Idx) : blockAt m c 6 t y = V m c main_v24 y := by
  show V m c main_v24 (((cfg0.win 6).blk t).view.emb y) = V m c main_v24 y
  refine congrArg _ (funext fun a => Fin.ext ?_)
  obtain ⟨h0, h1⟩ := (grid_fixed t).2.2.2.2.1
  match a with
  | ⟨0, _⟩ => show win0_6.index t (0 : Fin 2) * 2048 + 1 * (y 0).val = (y 0).val; omega
  | ⟨1, _⟩ => show win0_6.index t (1 : Fin 2) * 1 + 1 * (y 1).val = (y 1).val; omega

/-- Window 7 is the whole of its array at every point. -/
theorem block_whole_7 (c : Dev nD) (t : Fin cfg0.N) (y : S1x1.Idx) : blockAt m c 7 t y = V m c main_v30 y := by
  show V m c main_v30 (((cfg0.win 7).blk t).view.emb y) = V m c main_v30 y
  refine congrArg _ (funext fun a => Fin.ext ?_)
  obtain ⟨h0, h1⟩ := (grid_fixed t).2.2.2.2.2.1
  match a with
  | ⟨0, _⟩ => show win0_7.index t (0 : Fin 2) * 1 + 1 * (y 0).val = (y 0).val; omega
  | ⟨1, _⟩ => show win0_7.index t (1 : Fin 2) * 1 + 1 * (y 1).val = (y 1).val; omega

/-- Window 8 is the whole of its array at every point. -/
theorem block_whole_8 (c : Dev nD) (t : Fin cfg0.N) (y : S2x8.Idx) : blockAt m c 8 t y = V m c main_v25 y := by
  show V m c main_v25 (((cfg0.win 8).blk t).view.emb y) = V m c main_v25 y
  refine congrArg _ (funext fun a => Fin.ext ?_)
  obtain ⟨h0, h1⟩ := (grid_fixed t).2.2.2.2.2.2.1
  match a with
  | ⟨0, _⟩ => show win0_8.index t (0 : Fin 2) * 2 + 1 * (y 0).val = (y 0).val; omega
  | ⟨1, _⟩ => show win0_8.index t (1 : Fin 2) * 8 + 1 * (y 1).val = (y 1).val; omega

/-- Window 9 is the whole of its array at every point. -/
theorem block_whole_9 (c : Dev nD) (t : Fin cfg0.N) (y : S1x8.Idx) : blockAt m c 9 t y = V m c main_v31 y := by
  show V m c main_v31 (((cfg0.win 9).blk t).view.emb y) = V m c main_v31 y
  refine congrArg _ (funext fun a => Fin.ext ?_)
  obtain ⟨h0, h1⟩ := (grid_fixed t).2.2.2.2.2.2.2.1
  match a with
  | ⟨0, _⟩ => show win0_9.index t (0 : Fin 2) * 1 + 1 * (y 0).val = (y 0).val; omega
  | ⟨1, _⟩ => show win0_9.index t (1 : Fin 2) * 8 + 1 * (y 1).val = (y 1).val; omega

/-- Window 10 is the whole of its array at every point. -/
theorem block_whole_10 (c : Dev nD) (t : Fin cfg0.N) (y : S8x4.Idx) : blockAt m c 10 t y = V m c main_v26 y := by
  show V m c main_v26 (((cfg0.win 10).blk t).view.emb y) = V m c main_v26 y
  refine congrArg _ (funext fun a => Fin.ext ?_)
  obtain ⟨h0, h1⟩ := (grid_fixed t).2.2.2.2.2.2.2.2.1
  match a with
  | ⟨0, _⟩ => show win0_10.index t (0 : Fin 2) * 8 + 1 * (y 0).val = (y 0).val; omega
  | ⟨1, _⟩ => show win0_10.index t (1 : Fin 2) * 4 + 1 * (y 1).val = (y 1).val; omega

/-- Window 11 is the whole of its array at every point. -/
theorem block_whole_11 (c : Dev nD) (t : Fin cfg0.N) (y : S1x4.Idx) : blockAt m c 11 t y = V m c main_v32 y := by
  show V m c main_v32 (((cfg0.win 11).blk t).view.emb y) = V m c main_v32 y
  refine congrArg _ (funext fun a => Fin.ext ?_)
  obtain ⟨h0, h1⟩ := (grid_fixed t).2.2.2.2.2.2.2.2.2.1
  match a with
  | ⟨0, _⟩ => show win0_11.index t (0 : Fin 2) * 1 + 1 * (y 0).val = (y 0).val; omega
  | ⟨1, _⟩ => show win0_11.index t (1 : Fin 2) * 4 + 1 * (y 1).val = (y 1).val; omega

/-- Window 12 is the whole of its array at every point. -/
theorem block_whole_12 (c : Dev nD) (t : Fin cfg0.N) (y : S4x1.Idx) : blockAt m c 12 t y = V m c main_v27 y := by
  show V m c main_v27 (((cfg0.win 12).blk t).view.emb y) = V m c main_v27 y
  refine congrArg _ (funext fun a => Fin.ext ?_)
  obtain ⟨h0, h1⟩ := (grid_fixed t).2.2.2.2.2.2.2.2.2.2.1
  match a with
  | ⟨0, _⟩ => show win0_12.index t (0 : Fin 2) * 4 + 1 * (y 0).val = (y 0).val; omega
  | ⟨1, _⟩ => show win0_12.index t (1 : Fin 2) * 1 + 1 * (y 1).val = (y 1).val; omega

/-- Window 13 is the whole of its array at every point. -/
theorem block_whole_13 (c : Dev nD) (t : Fin cfg0.N) (y : S1x1.Idx) : blockAt m c 13 t y = V m c main_v33 y := by
  show V m c main_v33 (((cfg0.win 13).blk t).view.emb y) = V m c main_v33 y
  refine congrArg _ (funext fun a => Fin.ext ?_)
  obtain ⟨h0, h1⟩ := (grid_fixed t).2.2.2.2.2.2.2.2.2.2.2
  match a with
  | ⟨0, _⟩ => show win0_13.index t (0 : Fin 2) * 1 + 1 * (y 0).val = (y 0).val; omega
  | ⟨1, _⟩ => show win0_13.index t (1 : Fin 2) * 1 + 1 * (y 1).val = (y 1).val; omega

/-- A point of the grid is below 128, so its 256 rows end within the 32768. -/
theorem row_lt (t : Fin cfg0.N) (p : Fin 256) : 256 * t.val + p.val < 32768 := by
  have ht : t.val < 128 := lt_of_lt_of_eq t.isLt N_0
  have hp := p.isLt
  omega

/-- Row p of point t's block of the raw inputs is row 256·t + p of the raw inputs. -/
theorem rows_of_inputs (c : Dev nD) (t : Fin cfg0.N) (p : Fin 256) (k : Fin 2) :
    blockAt m c 0 t (ix2 p k) = (m ((c : Thread nD τ).loc main_arg0) : S32768x2.Idx → EReal) (ix2 (⟨256 * t.val + p.val, row_lt t p⟩ : Fin 32768) k) := by
  show V m c main_arg0 (((cfg0.win 0).blk t).view.emb (ix2 p k)) = _
  rw [V_main_arg0]
  obtain ⟨h0, h1⟩ := (grid_rows t).1
  refine congrArg _ (idx2_ext _ _ ?_ ?_)
  · show win0_0.index t (0 : Fin 2) * 256 + 1 * p.val = 256 * t.val + p.val; omega
  · show win0_0.index t (1 : Fin 2) * 2 + 1 * k.val = k.val; omega

/-- Row p of point t's block of the feature matrix is row 256·t + p of the feature matrix. -/
theorem rows_of_features (c : Dev nD) (t : Fin cfg0.N) (p : Fin 256) (k : Fin 6) :
    blockAt m c 1 t (ix2 p k) = features (F := Ideal) (m ((c : Thread nD τ).loc main_arg0) : S32768x2.Idx → EReal) (ix2 (⟨256 * t.val + p.val, row_lt t p⟩ : Fin 32768) k) := by
  show (V m c main_v21 : S32768x6.Idx → EReal) (((cfg0.win 1).blk t).view.emb (ix2 p k)) = _
  rw [staged_features]
  obtain ⟨h0, h1⟩ := (grid_rows t).2.1
  refine congrArg _ (idx2_ext _ _ ?_ ?_)
  · show win0_1.index t (0 : Fin 2) * 256 + 1 * p.val = 256 * t.val + p.val; omega
  · show win0_1.index t (1 : Fin 2) * 6 + 1 * k.val = k.val; omega

/-! ## What each point writes back -/

/-- What point t writes back to the logits array is block t of logitsAll. -/
theorem wrote_logits (c : Dev nD) (t : Fin cfg0.N) :
    (book m 0 c).flushed 14 t = ((cfg0.win 14).blk t).view.read (Elt Ideal) (logitsAll m c) := by
  show (cfg0.win 14).cut (grid0.coords t) ((book m 0 c).after 14 t) = _
  rw [left_14]
  unfold logitsLeft
  rw [View.canon_unit_zero zeros2]
  simp only [View.ld_unit_zero (S := S256x2) zeros2, View.ld_unit_zero (S := S256x6) zeros2, View.ld_unit_zero (S := S6x2048) zeros2, View.ld_unit_zero (S := S1x2048) zeros2, View.ld_unit_zero (S := S2048x2048) zeros2, View.ld_unit_zero (S := S2048x1) zeros2, View.ld_unit_zero (S := S1x1) zeros2, View.ld_unit_zero (S := S2x8) zeros2, View.ld_unit_zero (S := S1x8) zeros2, View.ld_unit_zero (S := S8x4) zeros2, View.ld_unit_zero (S := S1x4) zeros2, View.ld_unit_zero (S := S4x1) zeros2, View.ld_unit_zero (S := S256x1) zeros2]
  have e2 : @Eq (S6x2048.Idx → EReal) (blockAt m c 2 t) (truncf (F := Ideal) .bf16 (m ((c : Thread nD τ).loc main_arg1)) bitsLt_bf16_f32) := by
    funext y; rw [block_whole_2 m c t y]; exact congrFun (staged_W1 m c) y
  have e3 : @Eq (S1x2048.Idx → EReal) (blockAt m c 3 t) (shapeCast S1x2048 (m ((c : Thread nD τ).loc main_arg2)) shapeCasts_S2048_S1x2048) := by
    funext y; rw [block_whole_3 m c t y]; exact congrFun (staged_b1 m c) y
  have e4 : @Eq (S2048x2048.Idx → EReal) (blockAt m c 4 t) (truncf (F := Ideal) .bf16 (m ((c : Thread nD τ).loc main_arg3)) bitsLt_bf16_f32) := by
    funext y; rw [block_whole_4 m c t y]; exact congrFun (staged_W2 m c) y
  have e5 : @Eq (S1x2048.Idx → EReal) (blockAt m c 5 t) (shapeCast S1x2048 (m ((c : Thread nD τ).loc main_arg4)) shapeCasts_S2048_S1x2048) := by
    funext y; rw [block_whole_5 m c t y]; exact congrFun (staged_b2 m c) y
  have e6 : @Eq (S2048x1.Idx → EReal) (blockAt m c 6 t) (truncf (F := Ideal) .bf16 (m ((c : Thread nD τ).loc main_arg5)) bitsLt_bf16_f32) := by
    funext y; rw [block_whole_6 m c t y]; exact congrFun (staged_Wc m c) y
  have e7 : @Eq (S1x1.Idx → EReal) (blockAt m c 7 t) (shapeCast S1x1 (m ((c : Thread nD τ).loc main_arg6)) shapeCasts_S1_S1x1) := by
    funext y; rw [block_whole_7 m c t y]; exact congrFun (staged_bc m c) y
  rw [e2, e3, e4, e5, e6, e7, logits_payload]
  obtain ⟨h0, h1⟩ := (grid_rows t).2.2.1
  funext j
  obtain ⟨p, q, rfl⟩ : ∃ (p : Fin 256) (q : Fin 1), j = ix2 p q := ⟨j 0, j 1, eq_ix2 j⟩
  have hemb : ((cfg0.win 14).blk t).view.emb (ix2 p q) = ix2 (⟨256 * t.val + p.val, row_lt t p⟩ : Fin 32768) q :=
    idx2_ext _ _ (by show win0_14.index t (0 : Fin 2) * 256 + 1 * p.val = 256 * t.val + p.val; omega)
      (by show win0_14.index t (1 : Fin 2) * 1 + 1 * q.val = q.val; omega)
  show head3 (blockAt m c 1 t) _ _ _ _ _ _ (ix2 p q) = logitsAll m c (((cfg0.win 14).blk t).view.emb (ix2 p q))
  rw [hemb]
  exact head3_row _ _ _ _ _ _ _ _ p _ (rows_of_features m c t p) q

/-- What point t writes back to the risk array is block t of riskAll. -/
theorem wrote_risk (c : Dev nD) (t : Fin cfg0.N) :
    (book m 0 c).flushed 15 t = ((cfg0.win 15).blk t).view.read (Elt Ideal) (riskAll m c) := by
  show (cfg0.win 15).cut (grid0.coords t) ((book m 0 c).after 15 t) = _
  rw [left_15]
  unfold riskLeft
  rw [View.canon_unit_zero zeros2]
  simp only [View.ld_unit_zero (S := S256x2) zeros2, View.ld_unit_zero (S := S256x6) zeros2, View.ld_unit_zero (S := S6x2048) zeros2, View.ld_unit_zero (S := S1x2048) zeros2, View.ld_unit_zero (S := S2048x2048) zeros2, View.ld_unit_zero (S := S2048x1) zeros2, View.ld_unit_zero (S := S1x1) zeros2, View.ld_unit_zero (S := S2x8) zeros2, View.ld_unit_zero (S := S1x8) zeros2, View.ld_unit_zero (S := S8x4) zeros2, View.ld_unit_zero (S := S1x4) zeros2, View.ld_unit_zero (S := S4x1) zeros2, View.ld_unit_zero (S := S256x1) zeros2]
  have e8 : @Eq (S2x8.Idx → EReal) (blockAt m c 8 t) (truncf (F := Ideal) .bf16 (m ((c : Thread nD τ).loc main_arg7)) bitsLt_bf16_f32) := by
    funext y; rw [block_whole_8 m c t y]; exact congrFun (staged_Wr1 m c) y
  have e9 : @Eq (S1x8.Idx → EReal) (blockAt m c 9 t) (shapeCast S1x8 (m ((c : Thread nD τ).loc main_arg8)) shapeCasts_S8_S1x8) := by
    funext y; rw [block_whole_9 m c t y]; exact congrFun (staged_br1 m c) y
  have e10 : @Eq (S8x4.Idx → EReal) (blockAt m c 10 t) (truncf (F := Ideal) .bf16 (m ((c : Thread nD τ).loc main_arg9)) bitsLt_bf16_f32) := by
    funext y; rw [block_whole_10 m c t y]; exact congrFun (staged_Wr2 m c) y
  have e11 : @Eq (S1x4.Idx → EReal) (blockAt m c 11 t) (shapeCast S1x4 (m ((c : Thread nD τ).loc main_arg10)) shapeCasts_S4_S1x4) := by
    funext y; rw [block_whole_11 m c t y]; exact congrFun (staged_br2 m c) y
  have e12 : @Eq (S4x1.Idx → EReal) (blockAt m c 12 t) (truncf (F := Ideal) .bf16 (m ((c : Thread nD τ).loc main_arg11)) bitsLt_bf16_f32) := by
    funext y; rw [block_whole_12 m c t y]; exact congrFun (staged_Wr3 m c) y
  have e13 : @Eq (S1x1.Idx → EReal) (blockAt m c 13 t) (shapeCast S1x1 (m ((c : Thread nD τ).loc main_arg12)) shapeCasts_S1_S1x1) := by
    funext y; rw [block_whole_13 m c t y]; exact congrFun (staged_br3 m c) y
  rw [e8, e9, e10, e11, e12, e13, risk_payload]
  obtain ⟨h0, h1⟩ := (grid_rows t).2.2.2
  funext j
  obtain ⟨p, q, rfl⟩ : ∃ (p : Fin 256) (q : Fin 1), j = ix2 p q := ⟨j 0, j 1, eq_ix2 j⟩
  have hemb : ((cfg0.win 15).blk t).view.emb (ix2 p q) = ix2 (⟨256 * t.val + p.val, row_lt t p⟩ : Fin 32768) q :=
    idx2_ext _ _ (by show win0_15.index t (0 : Fin 2) * 256 + 1 * p.val = 256 * t.val + p.val; omega)
      (by show win0_15.index t (1 : Fin 2) * 1 + 1 * q.val = q.val; omega)
  show head3 (blockAt m c 0 t) _ _ _ _ _ _ (ix2 p q) = riskAll m c (((cfg0.win 15).blk t).view.emb (ix2 p q))
  rw [hemb]
  exact head3_row _ _ _ _ _ _ _ _ p _ (rows_of_inputs m c t p) q

/-! ## The blocks cover the result arrays -/

/-- An index of the logits array is in point t's block iff its coordinates are in the block's ranges. -/
theorem mem_block_logits (t : Fin cfg0.N) (i : S32768x1.Idx) :
    i ∈ ((cfg0.win 14).blk t).view.set ↔ ∀ a : Fin 2, win0_14.index t a * S256x1.size a ≤ (i a).val ∧ (i a).val < win0_14.index t a * S256x1.size a + S256x1.size a := by
  show i ∈ ((View.whole main_v34_0).slice (win0_14.rect t)).set ↔ _
  rw [View.set_slice_whole, Rect.mem_set_unit]
  exact Iff.rfl

/-- The same for the risk array. -/
theorem mem_block_risk (t : Fin cfg0.N) (i : S32768x1.Idx) :
    i ∈ ((cfg0.win 15).blk t).view.set ↔ ∀ a : Fin 2, win0_15.index t a * S256x1.size a ≤ (i a).val ∧ (i a).val < win0_15.index t a * S256x1.size a + S256x1.size a := by
  show i ∈ ((View.whole main_v34_1).slice (win0_15.rect t)).set ↔ _
  rw [View.set_slice_whole, Rect.mem_set_unit]
  exact Iff.rfl

/-- The point whose block holds row r: r / 256. -/
def pointOf (i : S32768x1.Idx) : Fin cfg0.N :=
  ⟨(i 0).val / 256, by have h := idx2_lt0 i; rw [show cfg0.N = 128 from N_0]; omega⟩

theorem pointOf_val (i : S32768x1.Idx) : (pointOf i).val = (i 0).val / 256 := rfl

/-- Every index of the logits array is in the block of the point its row belongs to. -/
theorem covered_logits (i : S32768x1.Idx) :
    ∃ t : Fin cfg0.N, (cfg0.win 14).flush t = true ∧ i ∈ ((cfg0.win 14).blk t).view.set := by
  refine ⟨pointOf i, flush0_14 _, ?_⟩
  rw [mem_block_logits]
  obtain ⟨h0, h1⟩ := (grid_rows (pointOf i)).2.2.1
  have hv := pointOf_val i
  have hi1 := idx2_lt1 i
  intro a
  match a with
  | ⟨0, _⟩ => show win0_14.index (pointOf i) (0 : Fin 2) * 256 ≤ (i 0).val ∧ (i 0).val < win0_14.index (pointOf i) (0 : Fin 2) * 256 + 256; omega
  | ⟨1, _⟩ => show win0_14.index (pointOf i) (1 : Fin 2) * 1 ≤ (i 1).val ∧ (i 1).val < win0_14.index (pointOf i) (1 : Fin 2) * 1 + 1; omega

/-- The same for the risk array. -/
theorem covered_risk (i : S32768x1.Idx) :
    ∃ t : Fin cfg0.N, (cfg0.win 15).flush t = true ∧ i ∈ ((cfg0.win 15).blk t).view.set := by
  refine ⟨pointOf i, flush0_15 _, ?_⟩
  rw [mem_block_risk]
  obtain ⟨h0, h1⟩ := (grid_rows (pointOf i)).2.2.2
  have hv := pointOf_val i
  have hi1 := idx2_lt1 i
  intro a
  match a with
  | ⟨0, _⟩ => show win0_15.index (pointOf i) (0 : Fin 2) * 256 ≤ (i 0).val ∧ (i 0).val < win0_15.index (pointOf i) (0 : Fin 2) * 256 + 256; omega
  | ⟨1, _⟩ => show win0_15.index (pointOf i) (1 : Fin 2) * 1 ≤ (i 1).val ∧ (i 1).val < win0_15.index (pointOf i) (1 : Fin 2) * 1 + 1; omega

/-- After the run the logits array holds logitsAll. -/
theorem final_logits (c : Dev nD) : (book m 0 c).arrAt 14 cfg0.N = logitsAll m c :=
  (book m 0 c).arrAt_eq_of_cover 14 (logitsAll m c) (fun t _ => wrote_logits m c t) covered_logits

/-- After the run the risk array holds riskAll. -/
theorem final_risk (c : Dev nD) : (book m 0 c).arrAt 15 cfg0.N = riskAll m c :=
  (book m 0 c).arrAt_eq_of_cover 15 (riskAll m c) (fun t _ => wrote_risk m c t) covered_risk

/-! ## The run, read -/

/-- Every weakly fair execution of the program terminates with the logits array at logitsAll, the risk array at
    riskAll, and the thirteen argument arrays as given. -/
theorem value_run : θ_run defs (onTc (τ := τ) (main (F := Ideal))) ⟨m, fun _ => 0, ρ⟩ fun r => ∀ c : Dev nD,
      r.2.mem ((c.tc : Thread nD τ).loc main_v34_0) = logitsAll m c
      ∧ r.2.mem ((c.tc : Thread nD τ).loc main_v34_1) = riskAll m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (θ_run defs _ _).mono (fun r h c => ⟨((h c).1 14).trans (final_logits m c), ((h c).1 15).trans (final_risk m c),
      ((h c).1 0).trans (((book m 0 c).arrAt_in 0 rfl _).trans ((A_eq m c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c)⟩)
    (frame_run m ρ)

end Cert.KernelIdeal.Bridge

end
-- ==== Proof.ReferenceLayers.lean ====
/-
  THE HOST PROGRAM'S TWO HEADS AS THREE AFFINE LAYERS.

  On extended reals the host program computes each of its two results as a product of matrices plus a vector laid
  along the rows, three times over, with the hyperbolic tangent of every entry after the first and after the second.
  With affine h W b the matrix h · W + b and head3 the composition
      head3 h W1 b1 W2 b2 W3 b3 = affine (tanhAll (affine (tanhAll (affine h W1 b1)) W2 b2)) W3 b3,
  the two theorems here say that the host's spelling of a head (a dot_general contracting the columns of the left
  operand against the rows of the right one, plus a vector broadcast first to one row and then along all rows, with
  the entrywise tangent in between) IS head3 of its operands: the wide head on a matrix of 6 columns through layers of
  2048, 2048 and 1 columns, and the narrow head on a matrix of 2 columns through layers of 8, 4 and 1 columns.
  Each layer is one instance of the general fact that such a dot_general plus such a doubly broadcast vector is the
  affine layer; nothing about the entries is used, so the operands may be any extended reals.
-/
import proofs.«119023_j65481071408210_1_alg».proof.Proof.Gen.ReferenceIdeal.Read
import proofs.«119023_j65481071408210_1_alg».proof.Proof.LibTanhLayers

noncomputable section

namespace Cert.ReferenceIdeal.RefValue

open Cert.ReferenceIdeal Cert.ReferenceIdeal.Gen Cert.ReferenceIdeal.Read Cert.LibDenseLayers Cert.LibTanhLayers
open Idealize.ShloMosaic

/-- The wide head of the host program, on a matrix C of 6 columns: tanh(tanh(C · W1 + b1) · W2 + b2) · W3 + b3, the
    layers having 2048, 2048 and 1 columns. Each dot_general plus its doubly broadcast vector is one affine layer. -/
theorem ref_logits (C : FVec Ideal S32768x6 .f32) (W1 : FVec Ideal S6x2048 .f32) (b1 : FVec Ideal S2048 .f32)
    (W2 : FVec Ideal S2048x2048 .f32) (b2 : FVec Ideal S2048 .f32) (W3 : FVec Ideal S2048x1 .f32)
    (b3 : FVec Ideal S1 .f32) :
    addf (Host.dotGeneral dot_S32768x2048_S2048x1_S32768x1_1_0_0_1_n_n none (Host.tanh (addf (Host.dotGeneral dot_S32768x2048_S2048x2048_S32768x2048_1_0_0_1_n_n none (Host.tanh (addf (Host.dotGeneral dot_S32768x6_S6x2048_S32768x2048_1_0_0_1_n_n none C W1) (broadcastInDim S32768x2048 ![0, 1] bcast_S1x2048_S32768x2048_0_1 (broadcastInDim S1x2048 ![1] bcast_S2048_S1x2048_1 b1)))) W2) (broadcastInDim S32768x2048 ![0, 1] bcast_S1x2048_S32768x2048_0_1 (broadcastInDim S1x2048 ![1] bcast_S2048_S1x2048_1 b2)))) W3) (broadcastInDim S32768x1 ![0, 1] bcast_S1x1_S32768x1_0_1 (broadcastInDim S1x1 ![1] bcast_S1_S1x1_1 b3))
      = head3 C W1 b1 W2 b2 W3 b3 := by
  rw [affine_of_dot_any dot_S32768x6_S6x2048_S32768x2048_1_0_0_1_n_n rfl rfl
        lhs_main_v22_0 lhs_main_v22_1 rhs_main_v22_0 rhs_main_v22_1
        bcast_S2048_S1x2048_1 bcast_S1x2048_S32768x2048_0_1 C W1 b1,
      tanh_host (affine C W1 b1),
      affine_of_dot_any dot_S32768x2048_S2048x2048_S32768x2048_1_0_0_1_n_n rfl rfl
        lhs_main_v27_0 lhs_main_v27_1 rhs_main_v27_0 rhs_main_v27_1
        bcast_S2048_S1x2048_1 bcast_S1x2048_S32768x2048_0_1 (tanhAll (affine C W1 b1)) W2 b2,
      tanh_host (affine (tanhAll (affine C W1 b1)) W2 b2),
      affine_of_dot_any dot_S32768x2048_S2048x1_S32768x1_1_0_0_1_n_n rfl rfl
        lhs_main_v32_0 lhs_main_v32_1 rhs_main_v32_0 rhs_main_v32_1
        bcast_S1_S1x1_1 bcast_S1x1_S32768x1_0_1 (tanhAll (affine (tanhAll (affine C W1 b1)) W2 b2)) W3 b3]
  rfl

/-- The narrow head of the host program, on a matrix x of 2 columns: tanh(tanh(x · W1 + b1) · W2 + b2) · W3 + b3, the
    layers having 8, 4 and 1 columns. Each dot_general plus its doubly broadcast vector is one affine layer. -/
theorem ref_risk (x : FVec Ideal S32768x2 .f32) (W1 : FVec Ideal S2x8 .f32) (b1 : FVec Ideal S8 .f32)
    (W2 : FVec Ideal S8x4 .f32) (b2 : FVec Ideal S4 .f32) (W3 : FVec Ideal S4x1 .f32) (b3 : FVec Ideal S1 .f32) :
    addf (Host.dotGeneral dot_S32768x4_S4x1_S32768x1_1_0_0_1_n_n none (Host.tanh (addf (Host.dotGeneral dot_S32768x8_S8x4_S32768x4_1_0_0_1_n_n none (Host.tanh (addf (Host.dotGeneral dot_S32768x2_S2x8_S32768x8_1_0_0_1_n_n none x W1) (broadcastInDim S32768x8 ![0, 1] bcast_S1x8_S32768x8_0_1 (broadcastInDim S1x8 ![1] bcast_S8_S1x8_1 b1)))) W2) (broadcastInDim S32768x4 ![0, 1] bcast_S1x4_S32768x4_0_1 (broadcastInDim S1x4 ![1] bcast_S4_S1x4_1 b2)))) W3) (broadcastInDim S32768x1 ![0, 1] bcast_S1x1_S32768x1_0_1 (broadcastInDim S1x1 ![1] bcast_S1_S1x1_1 b3))
      = head3 x W1 b1 W2 b2 W3 b3 := by
  rw [affine_of_dot_any dot_S32768x2_S2x8_S32768x8_1_0_0_1_n_n rfl rfl
        lhs_main_v36_0 lhs_main_v36_1 rhs_main_v36_0 rhs_main_v36_1
        bcast_S8_S1x8_1 bcast_S1x8_S32768x8_0_1 x W1 b1,
      tanh_host (affine x W1 b1),
      affine_of_dot_any dot_S32768x8_S8x4_S32768x4_1_0_0_1_n_n rfl rfl
        lhs_main_v41_0 lhs_main_v41_1 rhs_main_v41_0 rhs_main_v41_1
        bcast_S4_S1x4_1 bcast_S1x4_S32768x4_0_1 (tanhAll (affine x W1 b1)) W2 b2,
      tanh_host (affine (tanhAll (affine x W1 b1)) W2 b2),
      affine_of_dot_any dot_S32768x4_S4x1_S32768x1_1_0_0_1_n_n rfl rfl
        lhs_main_v46_0 lhs_main_v46_1 rhs_main_v46_0 rhs_main_v46_1
        bcast_S1_S1x1_1 bcast_S1x1_S32768x1_0_1 (tanhAll (affine (tanhAll (affine x W1 b1)) W2 b2)) W3 b3]
  rfl

end Cert.ReferenceIdeal.RefValue

end
-- ==== Proof.lean ====
/-
  A fraud-scoring model with two heads, computed by one kernel over 128 blocks of 256 samples, against its plain
  array-program reference: the claim is that both programs run, leave their thirteen argument arrays as given, and — read
  on extended reals, where every float operation is the exact one and a change of float format is no change — end with
  equal logits and equal risks, sample by sample.

  The mathematics. From the raw inputs x : [32768, 2] both programs first build, by the SAME host operations, the feature
  matrix features x : [32768, 6] (x beside four columns of cosines of x padded by zeros, and products of them). Each head
  is three affine layers h ↦ h · W + b with a hyperbolic tangent after the first and after the second (head3):
      logits = head3 (features x) W1 b1 W2 b2 Wc bc          risk = head3 x Wr1 br1 Wr2 br2 Wr3 br3.
  The reference applies the layers to whole matrices (dot_general plus a doubly broadcast bias). The kernel applies them to
  a block of 256 rows at a time (a matrix product into a zero accumulator plus a bias row laid along the rows), its
  weights narrowed to a short float format on the way in — no change on extended reals. A layer's row p depends on row p
  of its input only, so head3 of a block of rows is that block of rows of head3; the 128 blocks tile the 32768 rows. No
  law beyond re-indexing finite sums is used, so the finiteness of the inputs is never needed.

  The parts: the frame of each kernel program (EntryWord / BodyWord / RunWord at machine words, EntryIdeal / BodyIdeal /
  RunIdeal on extended reals — the same proof, stated for any float model); the reference's frame from its run; the
  kernel's result arrays as logitsAll and riskAll (BlocksToArray, over EntryValues and PayloadLayers); the reference's
  result terms as the same head3 (ReferenceLayers); the layers themselves (LibTanhLayers over LibDenseLayers,
  LibMatmulRows, LibBiasRows).
-/
import proofs.«119023_j65481071408210_1_alg».proof.Defs
import proofs.«119023_j65481071408210_1_alg».proof.Proof.Gen.Kernel
import proofs.«119023_j65481071408210_1_alg».proof.Proof.Gen.KernelIdeal
import proofs.«119023_j65481071408210_1_alg».proof.Proof.Gen.ReferenceIdeal
import proofs.«119023_j65481071408210_1_alg».proof.Proof.Gen.Pre_finite_inputs
import proofs.«119023_j65481071408210_1_alg».proof.Proof.Gen.ReferenceIdeal.Run
import proofs.«119023_j65481071408210_1_alg».proof.Proof.Gen.ReferenceIdeal.Read
import proofs.«119023_j65481071408210_1_alg».proof.Proof.RunWord
import proofs.«119023_j65481071408210_1_alg».proof.Proof.RunIdeal
import proofs.«119023_j65481071408210_1_alg».proof.Proof.BlocksToArray
import proofs.«119023_j65481071408210_1_alg».proof.Proof.ReferenceLayers
import Idealize.ShloMosaic.Adequacy
import Idealize.ShloMosaic.Init

noncomputable section

namespace Cert.Proof

open Idealize.ShloMosaic Idealize.SL.Sem

/-- The kernel program at machine words runs to the end, faults nowhere and leaves its arguments as given. -/
theorem frame_word : Cert.frame_Kernel := fun m ρ _ => Cert.Kernel.Hand.frame m ρ

/-- So does the kernel program on extended reals. -/
theorem frame_ideal : Cert.frame_KernelIdeal := fun m ρ _ => Cert.KernelIdeal.Hand.frame m ρ

/-- So does the reference: its run, with the two results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- On extended reals, from memories agreeing on the arguments, the kernel program ends with its two result arrays at
    logitsAll and riskAll of its arguments, and the reference with its two results at head3 of the same arguments built
    the same way: equal, sample by sample. -/
theorem algebraic : Cert.algebraic_KernelIdeal_ReferenceIdeal := by
  intro m ρ m' ρ' _ hagree
  refine ⟨fun c => Cert.KernelIdeal.Bridge.logitsAll m c, fun c => Cert.KernelIdeal.Bridge.riskAll m c,
    Cert.KernelIdeal.Bridge.value_run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨e0, e1, e2, e3, e4, e5, e6, -⟩ := hagree c
    rw [e0, e1, e2, e3, e4, e5, e6]
    exact Cert.ReferenceIdeal.RefValue.ref_logits _ _ _ _ _ _ _
  · obtain ⟨e0, -, -, -, -, -, -, e7, e8, e9, e10, e11, e12⟩ := hagree c
    rw [e0, e7, e8, e9, e10, e11, e12]
    exact Cert.ReferenceIdeal.RefValue.ref_risk _ _ _ _ _ _ _

theorem claim : Cert.Claim :=
  ⟨Cert.Kernel.Gen.facts, Cert.KernelIdeal.Gen.facts, Cert.ReferenceIdeal.Gen.facts, Cert.Pre_finite_inputs.Gen.facts,
    frame_word, frame_ideal, frame_reference, trivial, algebraic⟩

end Cert.Proof

end
